-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S512x128 : Shape := ⟨2, ![512, 128]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S1x128 : Shape := ⟨2, ![1, 128]⟩
abbrev S1 : Shape := ⟨1, ![1]⟩
abbrev S1x1 : Shape := ⟨2, ![1, 1]⟩

abbrev nBuf : Space → Nat
  | .hbm => 52
  | .vmem => 31
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S8192, .f32⟩
  | .hbm, ⟨6, _⟩ => ⟨S8192x1, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S1x8192, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x1, .f32⟩
  | .local _ .vmem, ⟨21, _⟩ => ⟨S512x1, .f32⟩
  | .local _ .vmem, ⟨22, _⟩ => ⟨S1x512, .f32⟩
  | .local _ .vmem, ⟨23, _⟩ => ⟨S1x512, .f32⟩
  | .local _ .vmem, ⟨24, _⟩ => ⟨S512x1, .f32⟩
  | .local _ .vmem, ⟨25, _⟩ => ⟨S512x1, .f32⟩
  | .local _ .vmem, ⟨26, _⟩ => ⟨S1x512, .f32⟩
  | .local _ .vmem, ⟨27, _⟩ => ⟨S1x512, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem9_0 : DmaSem sig := 29
abbrev cc1_sem10_0 : DmaSem sig := 30

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  transposes_S512x128_p1_0_S128x512 : S512x128.Transposes [1, 0] S128x512
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  shapeCasts_S512x128_S512x128 : S512x128.ShapeCasts S512x128
  shapeCasts_S512x1_S512x1 : S512x1.ShapeCasts S512x1
  broadcasts_S512x1_S512x128 : S512x1.Broadcasts S512x128
  slices_S8192x128_S8192x1_0_0 : S8192x128.Slices ![0, 0] S8192x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  shapeCasts_S8192_S8192x1 : S8192.ShapeCasts S8192x1
  shapeCasts_S8192_S1x8192 : S8192.ShapeCasts S1x8192
  inb_S1x128_S1x128_0_0 : ∀ a, (![0, 0] : Fin 2 → Nat) a + S1x128.size a ≤ S1x128.size a
  h_S1x128 : 0 < S1x128.numel
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x1_S1 : S512x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S8192x128.size a
  hwx0_5 : ∀ i : grid0.Coords, EltTy.bits .f32 = 32 ∨ (Rect.block (s := S8192x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x8192.size a
  hwx1_5 : ∀ i : grid1.Coords, EltTy.bits .f32 = 32 ∨ (Rect.block (s := S1x8192) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x8192.size a
  hwx1_7 : ∀ i : grid1.Coords, EltTy.bits .f32 = 32 ∨ (Rect.block (s := S1x8192) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_0) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21_1) S1x128.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21_2) S1x128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 126
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S128x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x128, .f32⟩
  | .hbm, ⟨54, _⟩ => ⟨S_, .f32⟩
  | .hbm, ⟨55, _⟩ => ⟨S8192, .f32⟩
  | .hbm, ⟨56, _⟩ => ⟨S128x8192, .f32⟩
  | .hbm, ⟨57, _⟩ => ⟨S8192x8192, .f32⟩
  | .hbm, ⟨58, _⟩ => ⟨S8192x1, .f32⟩
  | .hbm, ⟨59, _⟩ => ⟨S1x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192x8192, .f32⟩
  | .hbm, ⟨72, _⟩ => ⟨S8192x8192, .i1⟩
  | .hbm, ⟨73, _⟩ => ⟨S_, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S1x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192x1, .f32⟩
  | .hbm, ⟨96, _⟩ => ⟨S8192x8192, .f32⟩
  | .hbm, ⟨97, _⟩ => ⟨S8192x8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S8192x8192, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8192x8192, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S8192x8192, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_call2_v0 : Ref sig .tc := ⟨.hbm, 74, rfl⟩
abbrev main_call2_v1 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_call3_v0 : Ref sig .tc := ⟨.hbm, 79, rfl⟩
abbrev main_call3_v1 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_cst_18 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_19 : Ref sig .tc := ⟨.hbm, 90, rfl⟩
abbrev main_v60 : Ref sig .tc := ⟨.hbm, 91, rfl⟩
abbrev main_cst_20 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_21 : Ref sig .tc := ⟨.hbm, 98, rfl⟩
abbrev main_v66 : Ref sig .tc := ⟨.hbm, 99, rfl⟩
abbrev main_cst_22 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_23 : Ref sig .tc := ⟨.hbm, 105, rfl⟩
abbrev main_v71 : Ref sig .tc := ⟨.hbm, 106, rfl⟩
abbrev main_cst_24 : Ref sig .tc := ⟨.hbm, 107, rfl⟩
abbrev main_v72 : Ref sig .tc := ⟨.hbm, 108, rfl⟩
abbrev main_v73 : Ref sig .tc := ⟨.hbm, 109, rfl⟩
abbrev main_cst_25 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩
abbrev main_cst_27 : Ref sig .tc := ⟨.hbm, 115, rfl⟩
abbrev main_v77 : Ref sig .tc := ⟨.hbm, 116, rfl⟩
abbrev main_cst_28 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d0 : S8192x8192.ReducesTo [0] S8192
  bcast_S_S8192 : S_.BroadcastsInDim S8192 (![] : Fin 0 → Fin S8192.rank)
  reducesTo_S8192x8192_S8192_d1 : S8192x8192.ReducesTo [1] S8192
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RowShared.lean ====
/-
  The row-sum pass on a 16 × 16 grid of 512 × 512 tiles: what is shared by the statements about its body.
  At grid point (i, j) the body adds, into two 512 × 128 accumulators (one per sample), the row sums of the
  tile (i, j) of each distance matrix, broadcast along the lanes. The accumulators are reset when j = 0,
  that is at the points whose number is a multiple of 16, and added to at every other point.
-/
import proofs.«133753_j71141838291708_1_alg».proof.Proof.Gen.KernelIdeal.Launch
import proofs.«133753_j71141838291708_1_alg».proof.Proof.Gen.KernelIdeal.Skeleton
import proofs.«133753_j71141838291708_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch: the second grid coordinate is zero (the printed scalar chain). -/
abbrev rowReset (i : grid0.Coords) : Prop :=
  (Scalar.cmpi .ne (Scalar.extui (Scalar.cmpi .eq (BitVec.ofNat 32 (i 1).val) 0#32)) 0#32) = 1#1

/-- It holds exactly at the first point of each row of the grid. -/
theorem rowReset_iff : ∀ t : Fin cfg0.N, rowReset (grid0.coords t) ↔ t.val % 16 = 0 :=
  (by decide +kernel : ∀ t : Fin grid0.N, rowReset (grid0.coords t) ↔ t.val % 16 = 0)

/-- Each window's current staging buffer at a point, as the pipeline passes it to the body, and that it is whole. -/
abbrev rb0 (t : Fin cfg0.N) : Memref sig .tc .vmem S512x128 .f32 := win0_0.stage (cfg0.slots t 0)
abbrev rw0 (t : Fin cfg0.N) : (rb0 t).IsWhole := hstage0_0 ((cfg0.slots t 0).cast nbuf0_0)
abbrev rb1 (t : Fin cfg0.N) : Memref sig .tc .vmem S512x128 .f32 := win0_1.stage (cfg0.slots t 1)
abbrev rw1 (t : Fin cfg0.N) : (rb1 t).IsWhole := hstage0_1 ((cfg0.slots t 1).cast nbuf0_1)
abbrev rb2 (t : Fin cfg0.N) : Memref sig .tc .vmem S512x128 .f32 := win0_2.stage (cfg0.slots t 2)
abbrev rw2 (t : Fin cfg0.N) : (rb2 t).IsWhole := hstage0_2 ((cfg0.slots t 2).cast nbuf0_2)
abbrev rb3 (t : Fin cfg0.N) : Memref sig .tc .vmem S512x128 .f32 := win0_3.stage (cfg0.slots t 3)
abbrev rw3 (t : Fin cfg0.N) : (rb3 t).IsWhole := hstage0_3 ((cfg0.slots t 3).cast nbuf0_3)
abbrev rb4 (t : Fin cfg0.N) : Memref sig .tc .vmem S512x128 .f32 := win0_4.stage (cfg0.slots t 4)
abbrev rw4 (t : Fin cfg0.N) : (rb4 t).IsWhole := hstage0_4 ((cfg0.slots t 4).cast nbuf0_4)
abbrev rb5 (t : Fin cfg0.N) : Memref sig .tc .vmem S512x128 .f32 := win0_5.stage (cfg0.slots t 5)
abbrev rw5 (t : Fin cfg0.N) : (rb5 t).IsWhole := hstage0_5 ((cfg0.slots t 5).cast nbuf0_5)

/-- One staging buffer of each accumulator, through which its contents are stated. -/
abbrev accView4 : View sig .tc .vmem S512x128 .f32 := (Memref.whole cc0_stg4_0 : Memref sig .tc .vmem S512x128 .f32).view
abbrev accView5 : View sig .tc .vmem S512x128 .f32 := (Memref.whole cc0_stg5_0 : Memref sig .tc .vmem S512x128 .f32).view

end Cert.KernelIdeal.Hand

end
-- ==== Proof.RowRunReset.lean ====
/-
  The row-sum body at a point where the accumulators are reset (j = 0): on whole staging buffers, the four
  input tiles at given contents and the two accumulators at anything, it runs to the end leaving the inputs
  as they were and each accumulator at the pieces its stores wrote (the reset, then the tile's row sums).
-/
import proofs.«133753_j71141838291708_1_alg».proof.Proof.RowShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def rowRunReset (c : Dev nD) (i : grid0.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (hc : rowReset i) (x0 x1 x2 x3 : Vec F S512x128 .f32) :
    Σ' (L4 : List (View.Piece (Elt F) S512x128 .f32)), { L5 : List (View.Piece (Elt F) S512x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc0__rowsum_kernel i a2 h2 a3 h3 a4 h4 a5 h5 a6 h6 a7 h7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h2.eq_unread hf0; obtain rfl := h3.eq_unread hf1
    obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; iexact H5

end Cert.KernelIdeal.Hand

end
-- ==== Proof.RowRunAdd.lean ====
/-
  The row-sum body at a point where the accumulators are added to (j ≠ 0): on whole staging buffers, the four
  input tiles and the two accumulators at given contents, it runs to the end leaving the inputs as they were
  and each accumulator at the piece its one store wrote (the running contents plus the tile's row sums).
-/
import proofs.«133753_j71141838291708_1_alg».proof.Proof.RowRunReset

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def rowRunAdd (c : Dev nD) (i : grid0.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (hc : ¬rowReset i) (x0 x1 x2 x3 : Vec F S512x128 .f32) (acc4 acc5 : Vec F S512x128 .f32) :
    Σ' (L4 : List (View.Piece (Elt F) S512x128 .f32)), { L5 : List (View.Piece (Elt F) S512x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare acc4 ∗ owns (c : Thread nD τ) a7 fullShare acc5
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc0__rowsum_kernel i a2 h2 a3 h3 a4 h4 a5 h5 a6 h6 a7 h7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; iexact H5

end Cert.KernelIdeal.Hand

end
-- ==== Proof.RowData.lean ====
/-
  The row-sum pass, point by point, at the contents `V` the pass finds in the core's buffers.
  The four input windows hold the blocks of the two samples: rows 512·i … of each for the windows that follow the
  first grid coordinate, rows 512·j … for those that follow the second. The two accumulators hold, after the point
  numbered n, what the body's stores leave: at a multiple of 16 the reset followed by the tile's row sums, at any
  other point the row sums added to what the point before left — the accumulators are not written back between
  two points of one row of the grid, so the body finds them as it left them.
-/
import proofs.«133753_j71141838291708_1_alg».proof.Proof.RowRunAdd

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the pass finds it. -/
def rowBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem rowBefore0 {c : Dev nD} (dat : Dat τ (Elt F) Unit ℕ (UR sig nD τ) ℕ cfg0 c) (hA : dat.A 0 = V c (Pipeline.arrRef spec0 0))
    (hafter : ∀ t, dat.after 0 t = rowBlk V c 0 t) (t : Fin cfg0.N) (d) : dat.before 0 t d = rowBlk V c 0 t :=
  (dat.before_in_eq_fetched 0 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore1 {c : Dev nD} (dat : Dat τ (Elt F) Unit ℕ (UR sig nD τ) ℕ cfg0 c) (hA : dat.A 1 = V c (Pipeline.arrRef spec0 1))
    (hafter : ∀ t, dat.after 1 t = rowBlk V c 1 t) (t : Fin cfg0.N) (d) : dat.before 1 t d = rowBlk V c 1 t :=
  (dat.before_in_eq_fetched 1 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore2 {c : Dev nD} (dat : Dat τ (Elt F) Unit ℕ (UR sig nD τ) ℕ cfg0 c) (hA : dat.A 2 = V c (Pipeline.arrRef spec0 2))
    (hafter : ∀ t, dat.after 2 t = rowBlk V c 2 t) (t : Fin cfg0.N) (d) : dat.before 2 t d = rowBlk V c 2 t :=
  (dat.before_in_eq_fetched 2 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore3 {c : Dev nD} (dat : Dat τ (Elt F) Unit ℕ (UR sig nD τ) ℕ cfg0 c) (hA : dat.A 3 = V c (Pipeline.arrRef spec0 3))
    (hafter : ∀ t, dat.after 3 t = rowBlk V c 3 t) (t : Fin cfg0.N) (d) : dat.before 3 t d = rowBlk V c 3 t :=
  (dat.before_in_eq_fetched 3 rfl (fun _ => rfl) (fun _ _ _ => rfl) (fun t => by rw [hafter]; unfold Dat.blockOf rowBlk; rw [hA]; try rfl) t d).trans
    (by unfold Dat.fetched Dat.blockOf rowBlk; rw [hA]; try rfl)

/-- The body's run at a point of each kind, on the point's staging buffers and input blocks. -/
def rowResetAt (c : Dev nD) (t : Fin cfg0.N) (h : t.val % 16 = 0) :=
  rowRunReset (F := F) c (grid0.coords t) (rb0 t) (rw0 t) (rb1 t) (rw1 t) (rb2 t) (rw2 t) (rb3 t) (rw3 t) (rb4 t) (rw4 t) (rb5 t) (rw5 t) ((rowReset_iff t).mpr h) (rowBlk V c 0 t) (rowBlk V c 1 t) (rowBlk V c 2 t) (rowBlk V c 3 t)
def rowAddAt (c : Dev nD) (t : Fin cfg0.N) (h : ¬t.val % 16 = 0) (acc4 acc5 : Vec F S512x128 .f32) :=
  rowRunAdd (F := F) c (grid0.coords t) (rb0 t) (rw0 t) (rb1 t) (rw1 t) (rb2 t) (rw2 t) (rb3 t) (rw3 t) (rb4 t) (rw4 t) (rb5 t) (rw5 t) (fun h' => h ((rowReset_iff t).mp h')) (rowBlk V c 0 t) (rowBlk V c 1 t) (rowBlk V c 2 t) (rowBlk V c 3 t) acc4 acc5

/-- In each case the stores into each accumulator tile its block, so they cover it. -/
theorem rowResetCover4 (c : Dev nD) (t : Fin cfg0.N) (h : t.val % 16 = 0) (y : S512x128.Idx) :
    ∃ pc ∈ (rowResetAt V c t h).1, y ∈ pc.1.set :=
  View.cover_of_tiledL (rowResetAt V c t h).1 S512x128.size (by sl_kernel_rfl) y
theorem rowResetCover5 (c : Dev nD) (t : Fin cfg0.N) (h : t.val % 16 = 0) (y : S512x128.Idx) :
    ∃ pc ∈ (rowResetAt V c t h).2.1, y ∈ pc.1.set :=
  View.cover_of_tiledL (rowResetAt V c t h).2.1 S512x128.size (by sl_kernel_rfl) y
theorem rowAddCover4 (c : Dev nD) (t : Fin cfg0.N) (h : ¬t.val % 16 = 0) (acc4 acc5 : Vec F S512x128 .f32) (y : S512x128.Idx) :
    ∃ pc ∈ (rowAddAt V c t h acc4 acc5).1, y ∈ pc.1.set :=
  View.cover_of_tiledL (rowAddAt V c t h acc4 acc5).1 S512x128.size (by sl_kernel_rfl) y
theorem rowAddCover5 (c : Dev nD) (t : Fin cfg0.N) (h : ¬t.val % 16 = 0) (acc4 acc5 : Vec F S512x128 .f32) (y : S512x128.Idx) :
    ∃ pc ∈ (rowAddAt V c t h acc4 acc5).2.1, y ∈ pc.1.set :=
  View.cover_of_tiledL (rowAddAt V c t h acc4 acc5).2.1 S512x128.size (by sl_kernel_rfl) y

/-- THE ACCUMULATION: the two accumulators after the point numbered `n`. -/
def rowAcc (c : Dev nD) : (n : ℕ) → n < cfg0.N → Vec F S512x128 .f32 × Vec F S512x128 .f32
  | 0, hn => (View.canon (rowResetAt V c ⟨0, hn⟩ (Nat.zero_mod _)).1, View.canon (rowResetAt V c ⟨0, hn⟩ (Nat.zero_mod _)).2.1)
  | n + 1, hn =>
    if h0 : (n + 1) % 16 = 0 then
      (View.canon (rowResetAt V c ⟨n + 1, hn⟩ h0).1, View.canon (rowResetAt V c ⟨n + 1, hn⟩ h0).2.1)
    else
      (View.canon (rowAddAt V c ⟨n + 1, hn⟩ h0 (rowAcc c n (Nat.lt_of_succ_lt hn)).1 (rowAcc c n (Nat.lt_of_succ_lt hn)).2).1,
       View.canon (rowAddAt V c ⟨n + 1, hn⟩ h0 (rowAcc c n (Nat.lt_of_succ_lt hn)).1 (rowAcc c n (Nat.lt_of_succ_lt hn)).2).2.1)

theorem rowAcc_reset (c : Dev nD) (t : Fin cfg0.N) (h0 : t.val % 16 = 0) :
    rowAcc V c t.val t.isLt = (View.canon (rowResetAt V c t h0).1, View.canon (rowResetAt V c t h0).2.1) := by
  obtain ⟨n, hn⟩ := t
  cases n with
  | zero => exact rfl
  | succ n => exact (dif_pos h0).trans rfl

theorem rowAcc_add (c : Dev nD) (t : Fin cfg0.N) (h0 : ¬t.val % 16 = 0) :
    rowAcc V c t.val t.isLt
      = (View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).1,
         View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans rfl

/-- The pass's proof data on core `c`: the arrays as found; each input window's buffer at its block; the
    accumulators at `rowAcc`; each sample's array held by its two windows at the two halves of the full share;
    the class invariant; nothing owed. -/
def rowDat (c : Dev nD) : Dat τ (Elt F) Unit ℕ (UR sig nD τ) ℕ cfg0 c where
  A w := V c (Pipeline.arrRef spec0 w)
  after w t := match w with
    | ⟨0, _⟩ => rowBlk V c 0 t
    | ⟨1, _⟩ => rowBlk V c 1 t
    | ⟨2, _⟩ => rowBlk V c 2 t
    | ⟨3, _⟩ => rowBlk V c 3 t
    | ⟨4, _⟩ => (rowAcc V c t.val t.isLt).1
    | ⟨5, _⟩ => (rowAcc V c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem rowA (c : Dev nD) (w : Fin cfg0.W) : (rowDat V c).A w = V c (Pipeline.arrRef spec0 w) := by dsimp only [rowDat]
theorem rowAfter0 (c : Dev nD) (t : Fin cfg0.N) : (rowDat V c).after 0 t = rowBlk V c 0 t := by dsimp only [rowDat]
theorem rowAfter1 (c : Dev nD) (t : Fin cfg0.N) : (rowDat V c).after 1 t = rowBlk V c 1 t := by dsimp only [rowDat]
theorem rowAfter2 (c : Dev nD) (t : Fin cfg0.N) : (rowDat V c).after 2 t = rowBlk V c 2 t := by dsimp only [rowDat]
theorem rowAfter3 (c : Dev nD) (t : Fin cfg0.N) : (rowDat V c).after 3 t = rowBlk V c 3 t := by dsimp only [rowDat]
theorem rowAfter4 (c : Dev nD) (t : Fin cfg0.N) : (rowDat V c).after 4 t = (rowAcc V c t.val t.isLt).1 := by dsimp only [rowDat]
theorem rowAfter5 (c : Dev nD) (t : Fin cfg0.N) : (rowDat V c).after 5 t = (rowAcc V c t.val t.isLt).2 := by dsimp only [rowDat]

theorem rowDatBefore0 (c : Dev nD) (t : Fin cfg0.N) (d) : (rowDat V c).before 0 t d = rowBlk V c 0 t :=
  rowBefore0 V (rowDat V c) (rowA V c 0) (rowAfter0 V c) t d
theorem rowDatBefore1 (c : Dev nD) (t : Fin cfg0.N) (d) : (rowDat V c).before 1 t d = rowBlk V c 1 t :=
  rowBefore1 V (rowDat V c) (rowA V c 1) (rowAfter1 V c) t d
theorem rowDatBefore2 (c : Dev nD) (t : Fin cfg0.N) (d) : (rowDat V c).before 2 t d = rowBlk V c 2 t :=
  rowBefore2 V (rowDat V c) (rowA V c 2) (rowAfter2 V c) t d
theorem rowDatBefore3 (c : Dev nD) (t : Fin cfg0.N) (d) : (rowDat V c).before 3 t d = rowBlk V c 3 t :=
  rowBefore3 V (rowDat V c) (rowA V c 3) (rowAfter3 V c) t d

/-- At a point that is not the first of its row of the grid, each accumulator's buffer holds what the body left
    at the point before: it was not written back between. -/
theorem rowDatBefore4 (c : Dev nD) (t : Fin cfg0.N) (h0 : ¬t.val % 16 = 0) (d) :
    (rowDat V c).before 4 t d = (rowAcc V c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [rowDat]
theorem rowDatBefore5 (c : Dev nD) (t : Fin cfg0.N) (h0 : ¬t.val % 16 = 0) (d) :
    (rowDat V c).before 5 t d = (rowAcc V c (t.val - 1) (Nat.lt_of_le_of_lt (Nat.sub_le _ _) t.isLt)).2 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [rowDat]

end

end Cert.KernelIdeal.Hand

end
-- ==== Proof.RowBody.lean ====
/-
  The row-sum pass's body at any grid point meets what the pipeline asks of it: called with every window's
  current staging buffer at what the proof data says it holds there, it returns them at what the proof data says
  the body leaves. The point is either the first of its row of the grid (the accumulators are reset) or not
  (they hold what the point before left, and are added to); the pipeline's invariant and the core's dues pass
  through untouched.
-/
import proofs.«133753_j71141838291708_1_alg».proof.Proof.RowData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

theorem rowAcc_reset4 (c : Dev nD) (t : Fin cfg0.N) (h0 : t.val % 16 = 0) :
    (rowAcc V c t.val t.isLt).1 = View.canon (rowResetAt V c t h0).1 := congrArg Prod.fst (rowAcc_reset V c t h0)
theorem rowAcc_reset5 (c : Dev nD) (t : Fin cfg0.N) (h0 : t.val % 16 = 0) :
    (rowAcc V c t.val t.isLt).2 = View.canon (rowResetAt V c t h0).2.1 := congrArg Prod.snd (rowAcc_reset V c t h0)
theorem rowAcc_add4 (c : Dev nD) (t : Fin cfg0.N) (h0 : ¬t.val % 16 = 0) :
    (rowAcc V c t.val t.isLt).1 = View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).1 :=
  congrArg Prod.fst (rowAcc_add V c t h0)
theorem rowAcc_add5 (c : Dev nD) (t : Fin cfg0.N) (h0 : ¬t.val % 16 = 0) :
    (rowAcc V c t.val t.isLt).2 = View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).2.1 :=
  congrArg Prod.snd (rowAcc_add V c t h0)

/-- What the body is called with at point `t`, the windows one by one, -/
def rowPre (c : Dev nD) (t : Fin cfg0.N) : sProp 𝕄 :=
  iprop((rowDat V c).Φ t.castSucc ∗ (rowDat V c).owesAt () t.castSucc
    ∗ (∃ d, owns (c : Thread nD τ) (rb0 t) fullShare ((rowDat V c).before 0 t d))
    ∗ (∃ d, owns (c : Thread nD τ) (rb1 t) fullShare ((rowDat V c).before 1 t d))
    ∗ (∃ d, owns (c : Thread nD τ) (rb2 t) fullShare ((rowDat V c).before 2 t d))
    ∗ (∃ d, owns (c : Thread nD τ) (rb3 t) fullShare ((rowDat V c).before 3 t d))
    ∗ (∃ d, owns (c : Thread nD τ) (rb4 t) fullShare ((rowDat V c).before 4 t d))
    ∗ (∃ d, owns (c : Thread nD τ) (rb5 t) fullShare ((rowDat V c).before 5 t d)))

/-- and what it returns. -/
def rowPost (c : Dev nD) (t : Fin cfg0.N) : sProp 𝕄 :=
  iprop((rowDat V c).Φ t.succ ∗ (rowDat V c).owesAt () t.succ
    ∗ owns (c : Thread nD τ) (rb0 t) fullShare ((rowDat V c).after 0 t)
    ∗ owns (c : Thread nD τ) (rb1 t) fullShare ((rowDat V c).after 1 t)
    ∗ owns (c : Thread nD τ) (rb2 t) fullShare ((rowDat V c).after 2 t)
    ∗ owns (c : Thread nD τ) (rb3 t) fullShare ((rowDat V c).after 3 t)
    ∗ owns (c : Thread nD τ) (rb4 t) fullShare ((rowDat V c).after 4 t)
    ∗ owns (c : Thread nD τ) (rb5 t) fullShare ((rowDat V c).after 5 t))

set_option maxHeartbeats 1600000 in
theorem rowBodySound (c : Dev nD) (t : Fin cfg0.N) :
    rowPre V c t ⊢ wp frame (wpE (defs₀ (F := F)) Variants.none c none) Set.univ (bodyAt0 t) (fun _ => rowPost V c t) := by
  unfold rowPre rowPost bodyAt0
  simp only [rowDatBefore0, rowDatBefore1, rowDatBefore2, rowDatBefore3]
  rw [show (rowDat V c).Φ t.succ = (rowDat V c).Φ t.castSucc from rfl,
    show (rowDat V c).owesAt () t.succ = (rowDat V c).owesAt () t.castSucc from rfl,
    rowAfter0, rowAfter1, rowAfter2, rowAfter3, rowAfter4, rowAfter5]
  by_cases h0 : t.val % 16 = 0
  · rw [rowAcc_reset4 V c t h0, rowAcc_reset5 V c t h0]
    iintro ⟨HΦ, Ho, ⟨%d0, H0⟩, ⟨%d1, H1⟩, ⟨%d2, H2⟩, ⟨%d3, H3⟩, ⟨%d4, H4⟩, ⟨%d5, H5⟩⟩
    iapply ((rowResetAt V c t h0).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (rowResetCover4 V c t h0)
    unfold owns; iexists _; isplitr
    swap; · iexact H5
    ipureintro; exact View.read_writes_eq_canon _ _ _ (rowResetCover5 V c t h0)
  · rw [rowAcc_add4 V c t h0, rowAcc_add5 V c t h0]
    simp only [rowDatBefore4 V c t h0, rowDatBefore5 V c t h0]
    iintro ⟨HΦ, Ho, ⟨%d0, H0⟩, ⟨%d1, H1⟩, ⟨%d2, H2⟩, ⟨%d3, H3⟩, ⟨%d4, H4⟩, ⟨%d5, H5⟩⟩
    iapply ((rowAddAt V c t h0 _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (rowAddCover4 V c t h0 _ _)
    unfold owns; iexists _; isplitr
    swap; · iexact H5
    ipureintro; exact View.read_writes_eq_canon _ _ _ (rowAddCover5 V c t h0 _ _)

/-- The library's body obligation, at every point. -/
theorem rowBodyObligation (c : Dev nD) : BodyObligation (rowDat (F := F) V c) (defs₀ (F := F)) Variants.none () Set.univ := fun t => by
  rw [bigSep_W0, bigSep_W0]
  exact rowBodySound V c t

end

end Cert.KernelIdeal.Hand

end
-- ==== Proof.RowSeg.lean ====
/-
  The row-sum pass hands each sample to two windows (one follows the first grid coordinate, one the second), so
  its six windows stand on four distinct buffers. Entering the pass, each sample's buffer, held whole at the
  full share, is split into the two halves of that share, one per window; the two results' buffers go to their
  windows whole. Leaving it, the two halves of each sample, both still at the contents the pass found, are
  joined again, and each result's buffer is taken at what the write-backs left in it.
-/
import proofs.«133753_j71141838291708_1_alg».proof.Proof.RowBody
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V V' : (c : Dev nD) → (b : Ref sig .tc) → Buf (Elt F) ((c : Thread nD τ).loc b))

/-- The buffers behind the windows are the two samples and the two results. -/
theorem rowArrRefs : (Finset.univ.image (Pipeline.arrRef spec0) : Finset (Ref sig .tc))
    = insert main_arg0 (insert main_arg1 (insert main_v0_0 {main_v0_1})) := by decide

/-- The windows' arrays at contents `G`, window by window, each on its whole buffer at its share. -/
theorem rowArrays_eq (c : Dev nD) (G : (w : Fin cfg0.W) → Buf (Elt F) ((cfg0.win w).arr.view.loc (c : Thread nD τ))) :
    (rowDat V c).arrays G
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0_0) ↦{fullShare} G 4) ∗ (((c : Thread nD τ).loc main_v0_1) ↦{fullShare} G 5)) := by
  unfold Dat.arrays
  rw [bigSep_W0, (arr_whole0 0).set_eq_univ, (arr_whole0 2).set_eq_univ, (arr_whole0 4).set_eq_univ, (arr_whole0 5).set_eq_univ]
  rfl

/-- The four buffers behind the windows, each whole at the full share, one by one. -/
theorem rowBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0_0) ↦{fullShare} W main_v0_0) ∗ (((c : Thread nD τ).loc main_v0_1) ↦{fullShare} W main_v0_1)) := by
  classical
  unfold Pipeline.arrBufs
  rw [rowArrRefs, bigSep_insert (by decide), bigSep_insert (by decide), bigSep_insert (by decide), bigSep_singleton]
  rfl

/-- ENTRY: the four buffers at the contents the pass finds make the six windows' arrays at those contents. -/
theorem rowArraysEntry (c : Dev nD) :
    (Pipeline.arrBufs spec0 c (V c) : sProp 𝕄) ⊢ (rowDat V c).arrays ((rowDat V c).arrAt · 0) := by
  classical
  rw [rowArrays_eq, rowBufs_eq]
  iintro ⟨Hx, Hy, H4, H5⟩
  ihave Hx' := (pointsTo_share (PosShare.mem_left_op_right fullShare)).1 $$ Hx
  ihave Hy' := (pointsTo_share (PosShare.mem_left_op_right fullShare)).1 $$ Hy
  icases Hx' with ⟨Hx0, Hx1⟩
  icases Hy' with ⟨Hy0, Hy1⟩
  isplitl [Hx0]; · iexact Hx0
  isplitl [Hx1]; · iexact Hx1
  isplitl [Hy0]; · iexact Hy0
  isplitl [Hy1]; · iexact Hy1
  isplitl [H4]; · iexact H4
  iexact H5

/-- EXIT: the six windows' arrays after the last point make the four buffers at any contents `V'` that keep the
    samples as found and hold each result at what the write-backs left. -/
theorem rowArraysExit (c : Dev nD)
    (hx : V' c main_arg0 = V c main_arg0) (hy : V' c main_arg1 = V c main_arg1)
    (h4 : V' c main_v0_0 = (rowDat V c).arrAt 4 cfg0.N) (h5 : V' c main_v0_1 = (rowDat V c).arrAt 5 cfg0.N) :
    (rowDat V c).arrays ((rowDat V c).arrAt · cfg0.N) ⊢ (Pipeline.arrBufs spec0 c (V' c) : sProp 𝕄) := by
  classical
  rw [rowArrays_eq, rowBufs_eq, hx, hy, h4, h5,
    show (rowDat V c).arrAt 0 cfg0.N = V c main_arg0 from ((rowDat V c).arrAt_in 0 rfl _).trans (rowA V c 0),
    show (rowDat V c).arrAt 1 cfg0.N = V c main_arg0 from ((rowDat V c).arrAt_in 1 rfl _).trans (rowA V c 1),
    show (rowDat V c).arrAt 2 cfg0.N = V c main_arg1 from ((rowDat V c).arrAt_in 2 rfl _).trans (rowA V c 2),
    show (rowDat V c).arrAt 3 cfg0.N = V c main_arg1 from ((rowDat V c).arrAt_in 3 rfl _).trans (rowA V c 3)]
  iintro ⟨Hx0, Hx1, Hy0, Hy1, H4, H5⟩
  isplitl [Hx0 Hx1]
  · iapply (pointsTo_share (PosShare.mem_left_op_right fullShare)).2
    isplitl [Hx0]; · iexact Hx0
    iexact Hx1
  isplitl [Hy0 Hy1]
  · iapply (pointsTo_share (PosShare.mem_left_op_right fullShare)).2
    isplitl [Hy0]; · iexact Hy0
    iexact Hy1
  isplitl [H4]; · iexact H4
  iexact H5

end

end Cert.KernelIdeal.Hand

end
-- ==== Proof.CovShared.lean ====
/-
  The covariance pass on the same 16 × 16 grid: what is shared by the statements about its body. At grid point
  (i, j) the body forms the tile (i, j) of both centred distance matrices A and B and adds Σ A·B, Σ A·A and Σ B·B
  over the tile, broadcast along 128 lanes, into three 1 × 128 accumulators. They are reset at the first point
  only (i = 0 and j = 0) and added to at every other point.
-/
import proofs.«133753_j71141838291708_1_alg».proof.Proof.Gen.KernelIdeal.Launch
import proofs.«133753_j71141838291708_1_alg».proof.Proof.Gen.KernelIdeal.Skeleton
import proofs.«133753_j71141838291708_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch: both grid coordinates are zero (the printed scalar chain). -/
abbrev covReset (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem covReset_iff : ∀ t : Fin cfg1.N, covReset (grid1.coords t) ↔ t.val = 0 :=
  (by decide +kernel : ∀ t : Fin grid1.N, covReset (grid1.coords t) ↔ t.val = 0)

/-- Each window's current staging buffer at a point, as the pipeline passes it to the body, and that it is whole. -/
abbrev cb0 (t : Fin cfg1.N) : Memref sig .tc .vmem S512x128 .f32 := win1_0.stage (cfg1.slots t 0)
abbrev cw0 (t : Fin cfg1.N) : (cb0 t).IsWhole := hstage1_0 ((cfg1.slots t 0).cast nbuf1_0)
abbrev cb1 (t : Fin cfg1.N) : Memref sig .tc .vmem S512x128 .f32 := win1_1.stage (cfg1.slots t 1)
abbrev cw1 (t : Fin cfg1.N) : (cb1 t).IsWhole := hstage1_1 ((cfg1.slots t 1).cast nbuf1_1)
abbrev cb2 (t : Fin cfg1.N) : Memref sig .tc .vmem S512x128 .f32 := win1_2.stage (cfg1.slots t 2)
abbrev cw2 (t : Fin cfg1.N) : (cb2 t).IsWhole := hstage1_2 ((cfg1.slots t 2).cast nbuf1_2)
abbrev cb3 (t : Fin cfg1.N) : Memref sig .tc .vmem S512x128 .f32 := win1_3.stage (cfg1.slots t 3)
abbrev cw3 (t : Fin cfg1.N) : (cb3 t).IsWhole := hstage1_3 ((cfg1.slots t 3).cast nbuf1_3)
abbrev cb4 (t : Fin cfg1.N) : Memref sig .tc .vmem S512x1 .f32 := win1_4.stage (cfg1.slots t 4)
abbrev cw4 (t : Fin cfg1.N) : (cb4 t).IsWhole := hstage1_4 ((cfg1.slots t 4).cast nbuf1_4)
abbrev cb5 (t : Fin cfg1.N) : Memref sig .tc .vmem S1x512 .f32 := win1_5.stage (cfg1.slots t 5)
abbrev cw5 (t : Fin cfg1.N) : (cb5 t).IsWhole := hstage1_5 ((cfg1.slots t 5).cast nbuf1_5)
abbrev cb6 (t : Fin cfg1.N) : Memref sig .tc .vmem S512x1 .f32 := win1_6.stage (cfg1.slots t 6)
abbrev cw6 (t : Fin cfg1.N) : (cb6 t).IsWhole := hstage1_6 ((cfg1.slots t 6).cast nbuf1_6)
abbrev cb7 (t : Fin cfg1.N) : Memref sig .tc .vmem S1x512 .f32 := win1_7.stage (cfg1.slots t 7)
abbrev cw7 (t : Fin cfg1.N) : (cb7 t).IsWhole := hstage1_7 ((cfg1.slots t 7).cast nbuf1_7)
abbrev cb8 (t : Fin cfg1.N) : Memref sig .tc .vmem S1x128 .f32 := win1_8.stage (cfg1.slots t 8)
abbrev cw8 (t : Fin cfg1.N) : (cb8 t).IsWhole := hstage1_8 ((cfg1.slots t 8).cast nbuf1_8)
abbrev cb9 (t : Fin cfg1.N) : Memref sig .tc .vmem S1x128 .f32 := win1_9.stage (cfg1.slots t 9)
abbrev cw9 (t : Fin cfg1.N) : (cb9 t).IsWhole := hstage1_9 ((cfg1.slots t 9).cast nbuf1_9)
abbrev cb10 (t : Fin cfg1.N) : Memref sig .tc .vmem S1x128 .f32 := win1_10.stage (cfg1.slots t 10)
abbrev cw10 (t : Fin cfg1.N) : (cb10 t).IsWhole := hstage1_10 ((cfg1.slots t 10).cast nbuf1_10)

/-- The one staging buffer of each accumulator, through which its contents are stated. -/
abbrev accView8 : View sig .tc .vmem S1x128 .f32 := (Memref.whole cc1_stg8_0 : Memref sig .tc .vmem S1x128 .f32).view
abbrev accView9 : View sig .tc .vmem S1x128 .f32 := (Memref.whole cc1_stg9_0 : Memref sig .tc .vmem S1x128 .f32).view
abbrev accView10 : View sig .tc .vmem S1x128 .f32 := (Memref.whole cc1_stg10_0 : Memref sig .tc .vmem S1x128 .f32).view

end Cert.KernelIdeal.Hand

end
-- ==== Proof.CovRunReset.lean ====
/-
  The covariance body at the first grid point, where the three accumulators are reset: on whole staging buffers,
  the eight input blocks at given contents and the accumulators at anything, it runs to the end leaving the inputs
  as they were and each accumulator at the pieces its stores wrote.
-/
import proofs.«133753_j71141838291708_1_alg».proof.Proof.CovShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def covRunReset (c : Dev nD) (i : grid1.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x1 .f32) (h6 : a6.IsWhole) (a7 : Memref sig .tc .vmem S1x512 .f32) (h7 : a7.IsWhole)
    (a8 : Memref sig .tc .vmem S512x1 .f32) (h8 : a8.IsWhole) (a9 : Memref sig .tc .vmem S1x512 .f32) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (hc : covReset i) (x0 x1 x2 x3 : Vec F S512x128 .f32) (x4 : Vec F S512x1 .f32) (x5 : Vec F S1x512 .f32) (x6 : Vec F S512x1 .f32) (x7 : Vec F S1x512 .f32) :
    Σ' (L8 : List (View.Piece (Elt F) S1x128 .f32)) (L9 : List (View.Piece (Elt F) S1x128 .f32)), { L10 : List (View.Piece (Elt F) S1x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
            ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f L10)) -∗ K ⟨⟩))
          ⊢ wp frame (wpE (defs₀ (F := F)) Variants.none c none) E (cc1__dcov_kernel i a2 h2 a3 h3 a4 h4 a5 h5 a6 h6 a7 h7 a8 h8 a9 h9 a10 h10 a11 h11 a12 h12) K } := by
  refine ⟨?_, ?_, ?_, fun E K => ?run⟩
  case run =>
    simp only [cc1__dcov_kernel_eq_skeleton]; unfold cc1__dcov_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    obtain rfl := h8.eq_unread hf6; obtain rfl := h9.eq_unread hf7
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; iexact H8
    isplitl [H9]
    · iexists _; iexact H9
    iexists _; iexact H10

end Cert.KernelIdeal.Hand

end
-- ==== Proof.CovRunAdd.lean ====
/-
  The covariance body at a grid point other than the first, where the three accumulators are added to: on whole staging buffers,
  the eight input blocks at given contents and the accumulators at given contents, it runs to the end leaving the inputs
  as they were and each accumulator at the pieces its stores wrote.
-/
import proofs.«133753_j71141838291708_1_alg».proof.Proof.CovRunReset

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def covRunAdd (c : Dev nD) (i : grid1.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x1 .f32) (h6 : a6.IsWhole) (a7 : Memref sig .tc .vmem S1x512 .f32) (h7 : a7.IsWhole)
    (a8 : Memref sig .tc .vmem S512x1 .f32) (h8 : a8.IsWhole) (a9 : Memref sig .tc .vmem S1x512 .f32) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (hc : ¬covReset i) (x0 x1 x2 x3 : Vec F S512x128 .f32) (x4 : Vec F S512x1 .f32) (x5 : Vec F S1x512 .f32) (x6 : Vec F S512x1 .f32) (x7 : Vec F S1x512 .f32) (acc8 acc9 acc10 : Vec F S1x128 .f32) :
    Σ' (L8 : List (View.Piece (Elt F) S1x128 .f32)) (L9 : List (View.Piece (Elt F) S1x128 .f32)), { L10 : List (View.Piece (Elt F) S1x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
            ∗ owns (c : Thread nD τ) a10 fullShare acc8 ∗ owns (c : Thread nD τ) a11 fullShare acc9 ∗ owns (c : Thread nD τ) a12 fullShare acc10
            ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f L10)) -∗ K ⟨⟩))
          ⊢ wp frame (wpE (defs₀ (F := F)) Variants.none c none) E (cc1__dcov_kernel i a2 h2 a3 h3 a4 h4 a5 h5 a6 h6 a7 h7 a8 h8 a9 h9 a10 h10 a11 h11 a12 h12) K } := by
  refine ⟨?_, ?_, ?_, fun E K => ?run⟩
  case run =>
    simp only [cc1__dcov_kernel_eq_skeleton]; unfold cc1__dcov_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    obtain rfl := h8.eq_unread hf6; obtain rfl := h9.eq_unread hf7
    obtain rfl := h10.eq_unread hf8; obtain rfl := h11.eq_unread hf9; obtain rfl := h12.eq_unread hf10
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; iexact H8
    isplitl [H9]
    · iexists _; iexact H9
    iexists _; iexact H10

end Cert.KernelIdeal.Hand

end
-- ==== Proof.CovData.lean ====
/-
  The covariance pass, point by point, at the contents `V` the pass finds in the core's buffers.
  The eight input windows hold the blocks of the two samples (rows 512·i … and rows 512·j … of each), of the two
  row-centring columns (rows 512·i …) and of the two column-centring rows (columns 512·j …). The three
  accumulators hold, after the point numbered n, what the body's stores leave: at point 0 the reset followed by
  the tile's three sums, at any other point those sums added to what the point before left — the accumulators
  are written back only after the last point, so the body finds them as it left them.
-/
import proofs.«133753_j71141838291708_1_alg».proof.Proof.CovRunAdd

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the pass finds it. -/
def covBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem covBefore0 {c : Dev nD} (dat : Dat τ (Elt F) Unit ℕ (UR sig nD τ) ℕ cfg1 c) (hA : dat.A 0 = V c (Pipeline.arrRef spec1 0))
    (hafter : ∀ t, dat.after 0 t = covBlk V c 0 t) (t : Fin cfg1.N) (d) : dat.before 0 t d = covBlk V c 0 t :=
  (dat.before_in_eq_fetched 0 rfl (fun _ => rfl) (fun _ _ _ => rfl) (fun t => by rw [hafter]; unfold Dat.blockOf covBlk; rw [hA]; try rfl) t d).trans
    (by unfold Dat.fetched Dat.blockOf covBlk; rw [hA]; try rfl)
theorem covBefore1 {c : Dev nD} (dat : Dat τ (Elt F) Unit ℕ (UR sig nD τ) ℕ cfg1 c) (hA : dat.A 1 = V c (Pipeline.arrRef spec1 1))
    (hafter : ∀ t, dat.after 1 t = covBlk V c 1 t) (t : Fin cfg1.N) (d) : dat.before 1 t d = covBlk V c 1 t :=
  (dat.before_in_eq_fetched 1 rfl (fun _ => rfl) (fun _ _ _ => rfl) (fun t => by rw [hafter]; unfold Dat.blockOf covBlk; rw [hA]; try rfl) t d).trans
    (by unfold Dat.fetched Dat.blockOf covBlk; rw [hA]; try rfl)
theorem covBefore2 {c : Dev nD} (dat : Dat τ (Elt F) Unit ℕ (UR sig nD τ) ℕ cfg1 c) (hA : dat.A 2 = V c (Pipeline.arrRef spec1 2))
    (hafter : ∀ t, dat.after 2 t = covBlk V c 2 t) (t : Fin cfg1.N) (d) : dat.before 2 t d = covBlk V c 2 t :=
  (dat.before_in_eq_fetched 2 rfl (fun _ => rfl) (fun _ _ _ => rfl) (fun t => by rw [hafter]; unfold Dat.blockOf covBlk; rw [hA]; try rfl) t d).trans
    (by unfold Dat.fetched Dat.blockOf covBlk; rw [hA]; try rfl)
theorem covBefore3 {c : Dev nD} (dat : Dat τ (Elt F) Unit ℕ (UR sig nD τ) ℕ cfg1 c) (hA : dat.A 3 = V c (Pipeline.arrRef spec1 3))
    (hafter : ∀ t, dat.after 3 t = covBlk V c 3 t) (t : Fin cfg1.N) (d) : dat.before 3 t d = covBlk V c 3 t :=
  (dat.before_in_eq_fetched 3 rfl (fun _ => rfl) (fun _ _ _ => rfl) (fun t => by rw [hafter]; unfold Dat.blockOf covBlk; rw [hA]; try rfl) t d).trans
    (by unfold Dat.fetched Dat.blockOf covBlk; rw [hA]; try rfl)
theorem covBefore4 {c : Dev nD} (dat : Dat τ (Elt F) Unit ℕ (UR sig nD τ) ℕ cfg1 c) (hA : dat.A 4 = V c (Pipeline.arrRef spec1 4))
    (hafter : ∀ t, dat.after 4 t = covBlk V c 4 t) (t : Fin cfg1.N) (d) : dat.before 4 t d = covBlk V c 4 t :=
  (dat.before_in_eq_fetched 4 rfl (fun _ => rfl) (fun _ _ _ => rfl) (fun t => by rw [hafter]; unfold Dat.blockOf covBlk; rw [hA]; try rfl) t d).trans
    (by unfold Dat.fetched Dat.blockOf covBlk; rw [hA]; try rfl)
theorem covBefore5 {c : Dev nD} (dat : Dat τ (Elt F) Unit ℕ (UR sig nD τ) ℕ cfg1 c) (hA : dat.A 5 = V c (Pipeline.arrRef spec1 5))
    (hafter : ∀ t, dat.after 5 t = covBlk V c 5 t) (t : Fin cfg1.N) (d) : dat.before 5 t d = covBlk V c 5 t :=
  (dat.before_in_eq_fetched 5 rfl (fun _ => rfl) (fun _ _ _ => rfl) (fun t => by rw [hafter]; unfold Dat.blockOf covBlk; rw [hA]; try rfl) t d).trans
    (by unfold Dat.fetched Dat.blockOf covBlk; rw [hA]; try rfl)
theorem covBefore6 {c : Dev nD} (dat : Dat τ (Elt F) Unit ℕ (UR sig nD τ) ℕ cfg1 c) (hA : dat.A 6 = V c (Pipeline.arrRef spec1 6))
    (hafter : ∀ t, dat.after 6 t = covBlk V c 6 t) (t : Fin cfg1.N) (d) : dat.before 6 t d = covBlk V c 6 t :=
  (dat.before_in_eq_fetched 6 rfl (fun _ => rfl) (fun _ _ _ => rfl) (fun t => by rw [hafter]; unfold Dat.blockOf covBlk; rw [hA]; try rfl) t d).trans
    (by unfold Dat.fetched Dat.blockOf covBlk; rw [hA]; try rfl)
theorem covBefore7 {c : Dev nD} (dat : Dat τ (Elt F) Unit ℕ (UR sig nD τ) ℕ cfg1 c) (hA : dat.A 7 = V c (Pipeline.arrRef spec1 7))
    (hafter : ∀ t, dat.after 7 t = covBlk V c 7 t) (t : Fin cfg1.N) (d) : dat.before 7 t d = covBlk V c 7 t :=
  (dat.before_in_eq_fetched 7 rfl (fun _ => rfl) (fun _ _ _ => rfl) (fun t => by rw [hafter]; unfold Dat.blockOf covBlk; rw [hA]; try rfl) t d).trans
    (by unfold Dat.fetched Dat.blockOf covBlk; rw [hA]; try rfl)

/-- The body's run at a point of each kind, on the point's staging buffers and input blocks. -/
def covResetAt (c : Dev nD) (t : Fin cfg1.N) (h : t.val = 0) :=
  covRunReset (F := F) c (grid1.coords t) (cb0 t) (cw0 t) (cb1 t) (cw1 t) (cb2 t) (cw2 t) (cb3 t) (cw3 t) (cb4 t) (cw4 t) (cb5 t) (cw5 t) (cb6 t) (cw6 t) (cb7 t) (cw7 t) (cb8 t) (cw8 t) (cb9 t) (cw9 t) (cb10 t) (cw10 t) ((covReset_iff t).mpr h) (covBlk V c 0 t) (covBlk V c 1 t) (covBlk V c 2 t) (covBlk V c 3 t) (covBlk V c 4 t) (covBlk V c 5 t) (covBlk V c 6 t) (covBlk V c 7 t)
def covAddAt (c : Dev nD) (t : Fin cfg1.N) (h : ¬t.val = 0) (acc8 acc9 acc10 : Vec F S1x128 .f32) :=
  covRunAdd (F := F) c (grid1.coords t) (cb0 t) (cw0 t) (cb1 t) (cw1 t) (cb2 t) (cw2 t) (cb3 t) (cw3 t) (cb4 t) (cw4 t) (cb5 t) (cw5 t) (cb6 t) (cw6 t) (cb7 t) (cw7 t) (cb8 t) (cw8 t) (cb9 t) (cw9 t) (cb10 t) (cw10 t) (fun h' => h ((covReset_iff t).mp h')) (covBlk V c 0 t) (covBlk V c 1 t) (covBlk V c 2 t) (covBlk V c 3 t) (covBlk V c 4 t) (covBlk V c 5 t) (covBlk V c 6 t) (covBlk V c 7 t) acc8 acc9 acc10

/-- In each case the stores into each accumulator tile its block, so they cover it. -/
theorem covResetCover8 (c : Dev nD) (t : Fin cfg1.N) (h : t.val = 0) (y : S1x128.Idx) :
    ∃ pc ∈ (covResetAt V c t h).1, y ∈ pc.1.set :=
  View.cover_of_tiledL (covResetAt V c t h).1 S1x128.size (by sl_kernel_rfl) y
theorem covAddCover8 (c : Dev nD) (t : Fin cfg1.N) (h : ¬t.val = 0) (acc8 acc9 acc10 : Vec F S1x128 .f32) (y : S1x128.Idx) :
    ∃ pc ∈ (covAddAt V c t h acc8 acc9 acc10).1, y ∈ pc.1.set :=
  View.cover_of_tiledL (covAddAt V c t h acc8 acc9 acc10).1 S1x128.size (by sl_kernel_rfl) y
theorem covResetCover9 (c : Dev nD) (t : Fin cfg1.N) (h : t.val = 0) (y : S1x128.Idx) :
    ∃ pc ∈ (covResetAt V c t h).2.1, y ∈ pc.1.set :=
  View.cover_of_tiledL (covResetAt V c t h).2.1 S1x128.size (by sl_kernel_rfl) y
theorem covAddCover9 (c : Dev nD) (t : Fin cfg1.N) (h : ¬t.val = 0) (acc8 acc9 acc10 : Vec F S1x128 .f32) (y : S1x128.Idx) :
    ∃ pc ∈ (covAddAt V c t h acc8 acc9 acc10).2.1, y ∈ pc.1.set :=
  View.cover_of_tiledL (covAddAt V c t h acc8 acc9 acc10).2.1 S1x128.size (by sl_kernel_rfl) y
theorem covResetCover10 (c : Dev nD) (t : Fin cfg1.N) (h : t.val = 0) (y : S1x128.Idx) :
    ∃ pc ∈ (covResetAt V c t h).2.2.1, y ∈ pc.1.set :=
  View.cover_of_tiledL (covResetAt V c t h).2.2.1 S1x128.size (by sl_kernel_rfl) y
theorem covAddCover10 (c : Dev nD) (t : Fin cfg1.N) (h : ¬t.val = 0) (acc8 acc9 acc10 : Vec F S1x128 .f32) (y : S1x128.Idx) :
    ∃ pc ∈ (covAddAt V c t h acc8 acc9 acc10).2.2.1, y ∈ pc.1.set :=
  View.cover_of_tiledL (covAddAt V c t h acc8 acc9 acc10).2.2.1 S1x128.size (by sl_kernel_rfl) y

/-- THE ACCUMULATION: the three accumulators after the point numbered `n`. -/
def covAcc (c : Dev nD) : (n : ℕ) → n < cfg1.N → Vec F S1x128 .f32 × Vec F S1x128 .f32 × Vec F S1x128 .f32
  | 0, hn => (View.canon (covResetAt V c ⟨0, hn⟩ rfl).1, View.canon (covResetAt V c ⟨0, hn⟩ rfl).2.1, View.canon (covResetAt V c ⟨0, hn⟩ rfl).2.2.1)
  | n + 1, hn =>
      (View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).1,
       View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).2.1,
       View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).2.2.1)

theorem covAcc_reset (c : Dev nD) (t : Fin cfg1.N) (h0 : t.val = 0) :
    covAcc V c t.val t.isLt = (View.canon (covResetAt V c t h0).1, View.canon (covResetAt V c t h0).2.1, View.canon (covResetAt V c t h0).2.2.1) := by
  obtain ⟨n, hn⟩ := t
  cases n with
  | zero => exact rfl
  | succ n => exact absurd h0 (Nat.succ_ne_zero n)

theorem covAcc_add (c : Dev nD) (t : Fin cfg1.N) (h0 : ¬t.val = 0) :
    covAcc V c t.val t.isLt
      = (View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).1,
         View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.1,
         View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.2.1) := by
  obtain ⟨n, hn⟩ := t
  cases n with
  | zero => exact absurd rfl h0
  | succ n => exact rfl

/-- The pass's proof data on core `c`: the arrays as found; each input window's buffer at its block; the
    accumulators at `covAcc`; each sample's array held by its two windows at the two halves of the full share;
    the class invariant; nothing owed. -/
def covDat (c : Dev nD) : Dat τ (Elt F) Unit ℕ (UR sig nD τ) ℕ cfg1 c where
  A w := V c (Pipeline.arrRef spec1 w)
  after w t := match w with
    | ⟨0, _⟩ => covBlk V c 0 t
    | ⟨1, _⟩ => covBlk V c 1 t
    | ⟨2, _⟩ => covBlk V c 2 t
    | ⟨3, _⟩ => covBlk V c 3 t
    | ⟨4, _⟩ => covBlk V c 4 t
    | ⟨5, _⟩ => covBlk V c 5 t
    | ⟨6, _⟩ => covBlk V c 6 t
    | ⟨7, _⟩ => covBlk V c 7 t
    | ⟨8, _⟩ => (covAcc V c t.val t.isLt).1
    | ⟨9, _⟩ => (covAcc V c t.val t.isLt).2.1
    | ⟨10, _⟩ => (covAcc V c t.val t.isLt).2.2
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem covA (c : Dev nD) (w : Fin cfg1.W) : (covDat V c).A w = V c (Pipeline.arrRef spec1 w) := by dsimp only [covDat]
theorem covAfter0 (c : Dev nD) (t : Fin cfg1.N) : (covDat V c).after 0 t = covBlk V c 0 t := by dsimp only [covDat]
theorem covAfter1 (c : Dev nD) (t : Fin cfg1.N) : (covDat V c).after 1 t = covBlk V c 1 t := by dsimp only [covDat]
theorem covAfter2 (c : Dev nD) (t : Fin cfg1.N) : (covDat V c).after 2 t = covBlk V c 2 t := by dsimp only [covDat]
theorem covAfter3 (c : Dev nD) (t : Fin cfg1.N) : (covDat V c).after 3 t = covBlk V c 3 t := by dsimp only [covDat]
theorem covAfter4 (c : Dev nD) (t : Fin cfg1.N) : (covDat V c).after 4 t = covBlk V c 4 t := by dsimp only [covDat]
theorem covAfter5 (c : Dev nD) (t : Fin cfg1.N) : (covDat V c).after 5 t = covBlk V c 5 t := by dsimp only [covDat]
theorem covAfter6 (c : Dev nD) (t : Fin cfg1.N) : (covDat V c).after 6 t = covBlk V c 6 t := by dsimp only [covDat]
theorem covAfter7 (c : Dev nD) (t : Fin cfg1.N) : (covDat V c).after 7 t = covBlk V c 7 t := by dsimp only [covDat]
theorem covAfter8 (c : Dev nD) (t : Fin cfg1.N) : (covDat V c).after 8 t = (covAcc V c t.val t.isLt).1 := by dsimp only [covDat]
theorem covAfter9 (c : Dev nD) (t : Fin cfg1.N) : (covDat V c).after 9 t = (covAcc V c t.val t.isLt).2.1 := by dsimp only [covDat]
theorem covAfter10 (c : Dev nD) (t : Fin cfg1.N) : (covDat V c).after 10 t = (covAcc V c t.val t.isLt).2.2 := by dsimp only [covDat]

theorem covDatBefore0 (c : Dev nD) (t : Fin cfg1.N) (d) : (covDat V c).before 0 t d = covBlk V c 0 t :=
  covBefore0 V (covDat V c) (covA V c 0) (covAfter0 V c) t d
theorem covDatBefore1 (c : Dev nD) (t : Fin cfg1.N) (d) : (covDat V c).before 1 t d = covBlk V c 1 t :=
  covBefore1 V (covDat V c) (covA V c 1) (covAfter1 V c) t d
theorem covDatBefore2 (c : Dev nD) (t : Fin cfg1.N) (d) : (covDat V c).before 2 t d = covBlk V c 2 t :=
  covBefore2 V (covDat V c) (covA V c 2) (covAfter2 V c) t d
theorem covDatBefore3 (c : Dev nD) (t : Fin cfg1.N) (d) : (covDat V c).before 3 t d = covBlk V c 3 t :=
  covBefore3 V (covDat V c) (covA V c 3) (covAfter3 V c) t d
theorem covDatBefore4 (c : Dev nD) (t : Fin cfg1.N) (d) : (covDat V c).before 4 t d = covBlk V c 4 t :=
  covBefore4 V (covDat V c) (covA V c 4) (covAfter4 V c) t d
theorem covDatBefore5 (c : Dev nD) (t : Fin cfg1.N) (d) : (covDat V c).before 5 t d = covBlk V c 5 t :=
  covBefore5 V (covDat V c) (covA V c 5) (covAfter5 V c) t d
theorem covDatBefore6 (c : Dev nD) (t : Fin cfg1.N) (d) : (covDat V c).before 6 t d = covBlk V c 6 t :=
  covBefore6 V (covDat V c) (covA V c 6) (covAfter6 V c) t d
theorem covDatBefore7 (c : Dev nD) (t : Fin cfg1.N) (d) : (covDat V c).before 7 t d = covBlk V c 7 t :=
  covBefore7 V (covDat V c) (covA V c 7) (covAfter7 V c) t d

/-- At a point other than the first, each accumulator's buffer holds what the body left at the point before:
    it was not written back between. -/
theorem covDatBefore8 (c : Dev nD) (t : Fin cfg1.N) (h0 : ¬t.val = 0) (d) :
    (covDat V c).before 8 t d = (covAcc V c (t.val - 1) (Nat.lt_of_le_of_lt (Nat.sub_le _ _) t.isLt)).1 := by
  have hN : t.val < 256 := lt_of_lt_of_eq t.isLt (show cfg1.N = 256 from N_1)
  rw [Dat.before_out_kept _ 8 rfl t (by omega) (Bool.eq_false_iff.mpr fun h => by have := (flush1_8 _).mp h; dsimp only at this; omega)
    (fun _ => rfl) (fun _ _ => rfl)]
  dsimp only [covDat]
theorem covDatBefore9 (c : Dev nD) (t : Fin cfg1.N) (h0 : ¬t.val = 0) (d) :
    (covDat V c).before 9 t d = (covAcc V c (t.val - 1) (Nat.lt_of_le_of_lt (Nat.sub_le _ _) t.isLt)).2.1 := by
  have hN : t.val < 256 := lt_of_lt_of_eq t.isLt (show cfg1.N = 256 from N_1)
  rw [Dat.before_out_kept _ 9 rfl t (by omega) (Bool.eq_false_iff.mpr fun h => by have := (flush1_9 _).mp h; dsimp only at this; omega)
    (fun _ => rfl) (fun _ _ => rfl)]
  dsimp only [covDat]
theorem covDatBefore10 (c : Dev nD) (t : Fin cfg1.N) (h0 : ¬t.val = 0) (d) :
    (covDat V c).before 10 t d = (covAcc V c (t.val - 1) (Nat.lt_of_le_of_lt (Nat.sub_le _ _) t.isLt)).2.2 := by
  have hN : t.val < 256 := lt_of_lt_of_eq t.isLt (show cfg1.N = 256 from N_1)
  rw [Dat.before_out_kept _ 10 rfl t (by omega) (Bool.eq_false_iff.mpr fun h => by have := (flush1_10 _).mp h; dsimp only at this; omega)
    (fun _ => rfl) (fun _ _ => rfl)]
  dsimp only [covDat]

end

end Cert.KernelIdeal.Hand

end
-- ==== Proof.CovBody.lean ====
/-
  The covariance pass's body at any grid point meets what the pipeline asks of it: called with every window's
  current staging buffer at what the proof data says it holds there, it returns them at what the proof data says
  the body leaves. The point is either the first (the accumulators are reset) or not (they hold what the point
  before left, and are added to); the pipeline's invariant and the core's dues pass through untouched.
-/
import proofs.«133753_j71141838291708_1_alg».proof.Proof.CovData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

theorem covAcc_reset8 (c : Dev nD) (t : Fin cfg1.N) (h0 : t.val = 0) :
    (covAcc V c t.val t.isLt).1 = View.canon (covResetAt V c t h0).1 := congrArg (fun p => p.1) (covAcc_reset V c t h0)
theorem covAcc_add8 (c : Dev nD) (t : Fin cfg1.N) (h0 : ¬t.val = 0) :
    (covAcc V c t.val t.isLt).1 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).1 :=
  congrArg (fun p => p.1) (covAcc_add V c t h0)
theorem covAcc_reset9 (c : Dev nD) (t : Fin cfg1.N) (h0 : t.val = 0) :
    (covAcc V c t.val t.isLt).2.1 = View.canon (covResetAt V c t h0).2.1 := congrArg (fun p => p.2.1) (covAcc_reset V c t h0)
theorem covAcc_add9 (c : Dev nD) (t : Fin cfg1.N) (h0 : ¬t.val = 0) :
    (covAcc V c t.val t.isLt).2.1 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.1 :=
  congrArg (fun p => p.2.1) (covAcc_add V c t h0)
theorem covAcc_reset10 (c : Dev nD) (t : Fin cfg1.N) (h0 : t.val = 0) :
    (covAcc V c t.val t.isLt).2.2 = View.canon (covResetAt V c t h0).2.2.1 := congrArg (fun p => p.2.2) (covAcc_reset V c t h0)
theorem covAcc_add10 (c : Dev nD) (t : Fin cfg1.N) (h0 : ¬t.val = 0) :
    (covAcc V c t.val t.isLt).2.2 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.2.1 :=
  congrArg (fun p => p.2.2) (covAcc_add V c t h0)

/-- What the body is called with at point `t`, the windows one by one, -/
def covPre (c : Dev nD) (t : Fin cfg1.N) : sProp 𝕄 :=
  iprop((covDat V c).Φ t.castSucc ∗ (covDat V c).owesAt () t.castSucc
    ∗ (∃ d, owns (c : Thread nD τ) (cb0 t) fullShare ((covDat V c).before 0 t d))
    ∗ (∃ d, owns (c : Thread nD τ) (cb1 t) fullShare ((covDat V c).before 1 t d))
    ∗ (∃ d, owns (c : Thread nD τ) (cb2 t) fullShare ((covDat V c).before 2 t d))
    ∗ (∃ d, owns (c : Thread nD τ) (cb3 t) fullShare ((covDat V c).before 3 t d))
    ∗ (∃ d, owns (c : Thread nD τ) (cb4 t) fullShare ((covDat V c).before 4 t d))
    ∗ (∃ d, owns (c : Thread nD τ) (cb5 t) fullShare ((covDat V c).before 5 t d))
    ∗ (∃ d, owns (c : Thread nD τ) (cb6 t) fullShare ((covDat V c).before 6 t d))
    ∗ (∃ d, owns (c : Thread nD τ) (cb7 t) fullShare ((covDat V c).before 7 t d))
    ∗ (∃ d, owns (c : Thread nD τ) (cb8 t) fullShare ((covDat V c).before 8 t d))
    ∗ (∃ d, owns (c : Thread nD τ) (cb9 t) fullShare ((covDat V c).before 9 t d))
    ∗ (∃ d, owns (c : Thread nD τ) (cb10 t) fullShare ((covDat V c).before 10 t d)))

/-- and what it returns. -/
def covPost (c : Dev nD) (t : Fin cfg1.N) : sProp 𝕄 :=
  iprop((covDat V c).Φ t.succ ∗ (covDat V c).owesAt () t.succ
    ∗ owns (c : Thread nD τ) (cb0 t) fullShare ((covDat V c).after 0 t)
    ∗ owns (c : Thread nD τ) (cb1 t) fullShare ((covDat V c).after 1 t)
    ∗ owns (c : Thread nD τ) (cb2 t) fullShare ((covDat V c).after 2 t)
    ∗ owns (c : Thread nD τ) (cb3 t) fullShare ((covDat V c).after 3 t)
    ∗ owns (c : Thread nD τ) (cb4 t) fullShare ((covDat V c).after 4 t)
    ∗ owns (c : Thread nD τ) (cb5 t) fullShare ((covDat V c).after 5 t)
    ∗ owns (c : Thread nD τ) (cb6 t) fullShare ((covDat V c).after 6 t)
    ∗ owns (c : Thread nD τ) (cb7 t) fullShare ((covDat V c).after 7 t)
    ∗ owns (c : Thread nD τ) (cb8 t) fullShare ((covDat V c).after 8 t)
    ∗ owns (c : Thread nD τ) (cb9 t) fullShare ((covDat V c).after 9 t)
    ∗ owns (c : Thread nD τ) (cb10 t) fullShare ((covDat V c).after 10 t))

set_option maxHeartbeats 3200000 in
theorem covBodySound (c : Dev nD) (t : Fin cfg1.N) :
    covPre V c t ⊢ wp frame (wpE (defs₀ (F := F)) Variants.none c none) Set.univ (bodyAt1 t) (fun _ => covPost V c t) := by
  unfold covPre covPost bodyAt1
  simp only [covDatBefore0, covDatBefore1, covDatBefore2, covDatBefore3, covDatBefore4, covDatBefore5, covDatBefore6, covDatBefore7]
  rw [show (covDat V c).Φ t.succ = (covDat V c).Φ t.castSucc from rfl,
    show (covDat V c).owesAt () t.succ = (covDat V c).owesAt () t.castSucc from rfl,
    covAfter0, covAfter1, covAfter2, covAfter3, covAfter4, covAfter5, covAfter6, covAfter7, covAfter8, covAfter9, covAfter10]
  by_cases h0 : t.val = 0
  · rw [covAcc_reset8 V c t h0, covAcc_reset9 V c t h0, covAcc_reset10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((covResetAt V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covResetCover8 V c t h0)
    isplitl [H9]
    · unfold owns; iexists _; isplitr
      swap; · iexact H9
      ipureintro; exact View.read_writes_eq_canon _ _ _ (covResetCover9 V c t h0)
    unfold owns; iexists _; isplitr
    swap; · iexact H10
    ipureintro; exact View.read_writes_eq_canon _ _ _ (covResetCover10 V c t h0)
  · rw [covAcc_add8 V c t h0, covAcc_add9 V c t h0, covAcc_add10 V c t h0]
    simp only [covDatBefore8 V c t h0, covDatBefore9 V c t h0, covDatBefore10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((covAddAt V c t h0 _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covAddCover8 V c t h0 _ _ _)
    isplitl [H9]
    · unfold owns; iexists _; isplitr
      swap; · iexact H9
      ipureintro; exact View.read_writes_eq_canon _ _ _ (covAddCover9 V c t h0 _ _ _)
    unfold owns; iexists _; isplitr
    swap; · iexact H10
    ipureintro; exact View.read_writes_eq_canon _ _ _ (covAddCover10 V c t h0 _ _ _)

/-- The library's body obligation, at every point. -/
theorem covBodyObligation (c : Dev nD) : BodyObligation (covDat (F := F) V c) (defs₀ (F := F)) Variants.none () Set.univ := fun t => by
  rw [bigSep_W1, bigSep_W1]
  exact covBodySound V c t

end

end Cert.KernelIdeal.Hand

end
-- ==== Proof.CovSeg.lean ====
/-
  The covariance pass also hands each sample to two windows, so its eleven windows stand on nine distinct
  buffers: the two samples, the two row-centring columns, the two column-centring rows and the three results.
  Entering the pass each sample's buffer is split into the two halves of the full share; leaving it they are
  joined again, every input buffer still at the contents the pass found, each result's at what the one
  write-back left in it.
-/
import proofs.«133753_j71141838291708_1_alg».proof.Proof.CovBody
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (V V' : (c : Dev nD) → (b : Ref sig .tc) → Buf (Elt F) ((c : Thread nD τ).loc b))

/-- The buffers behind the windows. -/
theorem covArrRefs : (Finset.univ.image (Pipeline.arrRef spec1) : Finset (Ref sig .tc))
    = insert main_arg0 (insert main_arg1 (insert main_v15 (insert main_v16 (insert main_v19 (insert main_v20 (insert main_v21_0 (insert main_v21_1 ({main_v21_2})))))))) := by decide +kernel

set_option maxHeartbeats 1600000 in
/-- The windows' arrays at contents `G`, window by window, each on its whole buffer at its share. -/
theorem covArrays_eq (c : Dev nD) (G : (w : Fin cfg1.W) → Buf (Elt F) ((cfg1.win w).arr.view.loc (c : Thread nD τ))) :
    (covDat V c).arrays G
      = iprop((((c : Thread nD τ).loc main_arg0) ↦{fullShare.left} G 0)
          ∗ (((c : Thread nD τ).loc main_arg0) ↦{fullShare.right} G 1)
          ∗ (((c : Thread nD τ).loc main_arg1) ↦{fullShare.left} G 2)
          ∗ (((c : Thread nD τ).loc main_arg1) ↦{fullShare.right} G 3)
          ∗ (((c : Thread nD τ).loc main_v15) ↦{fullShare} G 4)
          ∗ (((c : Thread nD τ).loc main_v16) ↦{fullShare} G 5)
          ∗ (((c : Thread nD τ).loc main_v19) ↦{fullShare} G 6)
          ∗ (((c : Thread nD τ).loc main_v20) ↦{fullShare} G 7)
          ∗ (((c : Thread nD τ).loc main_v21_0) ↦{fullShare} G 8)
          ∗ (((c : Thread nD τ).loc main_v21_1) ↦{fullShare} G 9)
          ∗ (((c : Thread nD τ).loc main_v21_2) ↦{fullShare} G 10)) := by
  unfold Dat.arrays
  rw [bigSep_W1, (arr_whole1 0).set_eq_univ, (arr_whole1 2).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rfl

set_option maxHeartbeats 1600000 in
/-- The nine buffers behind the windows, each whole at the full share, one by one. -/
theorem covBufs_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0)
          ∗ (((c : Thread nD τ).loc main_arg1) ↦{fullShare} W main_arg1)
          ∗ (((c : Thread nD τ).loc main_v15) ↦{fullShare} W main_v15)
          ∗ (((c : Thread nD τ).loc main_v16) ↦{fullShare} W main_v16)
          ∗ (((c : Thread nD τ).loc main_v19) ↦{fullShare} W main_v19)
          ∗ (((c : Thread nD τ).loc main_v20) ↦{fullShare} W main_v20)
          ∗ (((c : Thread nD τ).loc main_v21_0) ↦{fullShare} W main_v21_0)
          ∗ (((c : Thread nD τ).loc main_v21_1) ↦{fullShare} W main_v21_1)
          ∗ (((c : Thread nD τ).loc main_v21_2) ↦{fullShare} W main_v21_2)) := by
  classical
  unfold Pipeline.arrBufs
  rw [covArrRefs, bigSep_insert (by decide +kernel), bigSep_insert (by decide +kernel), bigSep_insert (by decide +kernel), bigSep_insert (by decide +kernel), bigSep_insert (by decide +kernel), bigSep_insert (by decide +kernel), bigSep_insert (by decide +kernel), bigSep_insert (by decide +kernel), bigSep_singleton]
  rfl

set_option maxHeartbeats 1600000 in
/-- ENTRY: the nine buffers at the contents the pass finds make the eleven windows' arrays at those contents. -/
theorem covArraysEntry (c : Dev nD) :
    (Pipeline.arrBufs spec1 c (V c) : sProp 𝕄) ⊢ (covDat V c).arrays ((covDat V c).arrAt · 0) := by
  classical
  rw [covArrays_eq, covBufs_eq]
  iintro ⟨Hx, Hy, H4, H5, H6, H7, H8, H9, H10⟩
  ihave Hx' := (pointsTo_share (PosShare.mem_left_op_right fullShare)).1 $$ Hx
  ihave Hy' := (pointsTo_share (PosShare.mem_left_op_right fullShare)).1 $$ Hy
  icases Hx' with ⟨Hx0, Hx1⟩
  icases Hy' with ⟨Hy0, Hy1⟩
  isplitl [Hx0]; · iexact Hx0
  isplitl [Hx1]; · iexact Hx1
  isplitl [Hy0]; · iexact Hy0
  isplitl [Hy1]; · iexact Hy1
  isplitl [H4]; · iexact H4
  isplitl [H5]; · iexact H5
  isplitl [H6]; · iexact H6
  isplitl [H7]; · iexact H7
  isplitl [H8]; · iexact H8
  isplitl [H9]; · iexact H9
  iexact H10

set_option maxHeartbeats 3200000 in
/-- EXIT: the eleven windows' arrays after the last point make the nine buffers at any contents `V'` that keep
    every input as found and hold each result at what the write-back left. -/
theorem covArraysExit (c : Dev nD)
    (hx : V' c main_arg0 = V c main_arg0) (hy : V' c main_arg1 = V c main_arg1)
    (h15 : V' c main_v15 = V c main_v15) (h16 : V' c main_v16 = V c main_v16)
    (h19 : V' c main_v19 = V c main_v19) (h20 : V' c main_v20 = V c main_v20)
    (h8 : V' c main_v21_0 = (covDat V c).arrAt 8 cfg1.N) (h9 : V' c main_v21_1 = (covDat V c).arrAt 9 cfg1.N)
    (h10 : V' c main_v21_2 = (covDat V c).arrAt 10 cfg1.N) :
    (covDat V c).arrays ((covDat V c).arrAt · cfg1.N) ⊢ (Pipeline.arrBufs spec1 c (V' c) : sProp 𝕄) := by
  classical
  rw [covArrays_eq, covBufs_eq, hx, hy, h15, h16, h19, h20, h8, h9, h10,
    show (covDat V c).arrAt 0 cfg1.N = V c main_arg0 from ((covDat V c).arrAt_in 0 rfl _).trans (covA V c 0),
    show (covDat V c).arrAt 1 cfg1.N = V c main_arg0 from ((covDat V c).arrAt_in 1 rfl _).trans (covA V c 1),
    show (covDat V c).arrAt 2 cfg1.N = V c main_arg1 from ((covDat V c).arrAt_in 2 rfl _).trans (covA V c 2),
    show (covDat V c).arrAt 3 cfg1.N = V c main_arg1 from ((covDat V c).arrAt_in 3 rfl _).trans (covA V c 3),
    show (covDat V c).arrAt 4 cfg1.N = V c main_v15 from ((covDat V c).arrAt_in 4 rfl _).trans (covA V c 4),
    show (covDat V c).arrAt 5 cfg1.N = V c main_v16 from ((covDat V c).arrAt_in 5 rfl _).trans (covA V c 5),
    show (covDat V c).arrAt 6 cfg1.N = V c main_v19 from ((covDat V c).arrAt_in 6 rfl _).trans (covA V c 6),
    show (covDat V c).arrAt 7 cfg1.N = V c main_v20 from ((covDat V c).arrAt_in 7 rfl _).trans (covA V c 7)]
  iintro ⟨Hx0, Hx1, Hy0, Hy1, H4, H5, H6, H7, H8, H9, H10⟩
  isplitl [Hx0 Hx1]
  · iapply (pointsTo_share (PosShare.mem_left_op_right fullShare)).2
    isplitl [Hx0]; · iexact Hx0
    iexact Hx1
  isplitl [Hy0 Hy1]
  · iapply (pointsTo_share (PosShare.mem_left_op_right fullShare)).2
    isplitl [Hy0]; · iexact Hy0
    iexact Hy1
  isplitl [H4]; · iexact H4
  isplitl [H5]; · iexact H5
  isplitl [H6]; · iexact H6
  isplitl [H7]; · iexact H7
  isplitl [H8]; · iexact H8
  isplitl [H9]; · iexact H9
  iexact H10

end

end Cert.KernelIdeal.Hand

end
-- ==== Proof.Run.lean ====
/-
  @main as four segments — the row-sum pass, the host operations between the passes, the covariance pass, the
  host operations after it — over the contents of the core's unscoped buffers at each boundary:
    at launch; after the row-sum pass (the two results at what its write-backs left, everything else as
    launched); after the host operations between (their fold); after the covariance pass (its three results
    at what the one write-back left); after the last host operations (their fold).
  Every weakly fair execution from any memory with zero counters terminates, and at the end every unscoped
  buffer holds the last of these contents.
-/
import proofs.«133753_j71141838291708_1_alg».proof.Proof.RowSeg
import proofs.«133753_j71141838291708_1_alg».proof.Proof.CovSeg
import proofs.«133753_j71141838291708_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section

variable (m : (ℓ : Loc nD τ sig) → Buf (Elt F) ℓ) (ρ : Dev nD → PrngReg)

/-! ## The buffers' contents at each boundary -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the row-sum pass. -/
def Wb (c : Dev nD) : Valuation τ sig (Elt F) :=
  Function.update (Function.update (Wa m ρ c) main_v0_0 ((rowDat (Va m ρ) c).arrAt 4 cfg0.N)) main_v0_1 ((rowDat (Va m ρ) c).arrAt 5 cfg0.N)
abbrev Vb : (c : Dev nD) → (b : Ref sig .tc) → Buf (Elt F) ((c : Thread nD τ).loc b) := fun c b => Wb m ρ c b
/-- After the host operations between the passes. -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b
/-- After the covariance pass. -/
def Wd (c : Dev nD) : Valuation τ sig (Elt F) :=
  Function.update (Function.update (Function.update (Wc m ρ c) main_v21_0 ((covDat (Vc m ρ) c).arrAt 8 cfg1.N))
    main_v21_1 ((covDat (Vc m ρ) c).arrAt 9 cfg1.N)) main_v21_2 ((covDat (Vc m ρ) c).arrAt 10 cfg1.N)
abbrev Vd : (c : Dev nD) → (b : Ref sig .tc) → Buf (Elt F) ((c : Thread nD τ).loc b) := fun c b => Wd m ρ c b
/-- After the last host operations. -/
abbrev We : Dev nD → Valuation τ sig (Elt F) := fun c => StableHlo.after hostOps2 (Wd m ρ c)

theorem Wb_of (c : Dev nD) (r : Ref sig .tc) (h : r ∉ ([main_v0_0, main_v0_1] : List (Ref sig .tc))) : Wb m ρ c r = Wa m ρ c r := by
  simp only [Wb, Function.update_of_ne (StableHlo.devRef_ne_of_ne (List.ne_of_not_mem_cons h) : (Proc.devRef .tc r : DevRef τ sig) ≠ Proc.devRef .tc main_v0_0),
    Function.update_of_ne (StableHlo.devRef_ne_of_ne (List.ne_of_not_mem_cons (List.not_mem_of_not_mem_cons h)) : (Proc.devRef .tc r : DevRef τ sig) ≠ Proc.devRef .tc main_v0_1)]
theorem Wb_v0_1 (c : Dev nD) : Wb m ρ c main_v0_1 = (rowDat (Va m ρ) c).arrAt 5 cfg0.N := by
  unfold Wb; exact Function.update_self ..
theorem Wb_v0_0 (c : Dev nD) : Wb m ρ c main_v0_0 = (rowDat (Va m ρ) c).arrAt 4 cfg0.N := by
  unfold Wb
  rw [Function.update_of_ne (StableHlo.devRef_ne_of_ne (by decide) : (Proc.devRef .tc main_v0_0 : DevRef τ sig) ≠ Proc.devRef .tc main_v0_1)]
  exact Function.update_self ..
theorem Wc_of (c : Dev nD) (r : Ref sig .tc) (h : r ∉ hostOps1_W) : Wc m ρ c r = Wb m ρ c r :=
  StableHlo.after_of_writes_sub hostOps1 _ hostOps1_writes h
theorem Wd_of (c : Dev nD) (r : Ref sig .tc) (h : r ∉ ([main_v21_0, main_v21_1, main_v21_2] : List (Ref sig .tc))) : Wd m ρ c r = Wc m ρ c r := by
  simp only [Wd, Function.update_of_ne (StableHlo.devRef_ne_of_ne (List.ne_of_not_mem_cons h) : (Proc.devRef .tc r : DevRef τ sig) ≠ Proc.devRef .tc main_v21_0),
    Function.update_of_ne (StableHlo.devRef_ne_of_ne (List.ne_of_not_mem_cons (List.not_mem_of_not_mem_cons h)) : (Proc.devRef .tc r : DevRef τ sig) ≠ Proc.devRef .tc main_v21_1),
    Function.update_of_ne (StableHlo.devRef_ne_of_ne (List.ne_of_not_mem_cons (List.not_mem_of_not_mem_cons (List.not_mem_of_not_mem_cons h))) : (Proc.devRef .tc r : DevRef τ sig) ≠ Proc.devRef .tc main_v21_2)]
theorem Wd_v21_2 (c : Dev nD) : Wd m ρ c main_v21_2 = (covDat (Vc m ρ) c).arrAt 10 cfg1.N := by
  unfold Wd; exact Function.update_self ..
theorem Wd_v21_1 (c : Dev nD) : Wd m ρ c main_v21_1 = (covDat (Vc m ρ) c).arrAt 9 cfg1.N := by
  unfold Wd
  rw [Function.update_of_ne (StableHlo.devRef_ne_of_ne (by decide) : (Proc.devRef .tc main_v21_1 : DevRef τ sig) ≠ Proc.devRef .tc main_v21_2)]
  exact Function.update_self ..
theorem Wd_v21_0 (c : Dev nD) : Wd m ρ c main_v21_0 = (covDat (Vc m ρ) c).arrAt 8 cfg1.N := by
  unfold Wd
  rw [Function.update_of_ne (StableHlo.devRef_ne_of_ne (by decide) : (Proc.devRef .tc main_v21_0 : DevRef τ sig) ≠ Proc.devRef .tc main_v21_2),
    Function.update_of_ne (StableHlo.devRef_ne_of_ne (by decide) : (Proc.devRef .tc main_v21_0 : DevRef τ sig) ≠ Proc.devRef .tc main_v21_1)]
  exact Function.update_self ..
theorem We_of (c : Dev nD) (r : Ref sig .tc) (h : r ∉ hostOps2_W) : We m ρ c r = Wd m ρ c r :=
  StableHlo.after_of_writes_sub hostOps2 _ hostOps2_writes h

/-- Neither pass and no host operation writes a sample: each reaches the end as launched. -/
theorem We_main_arg0 (c : Dev nD) : We m ρ c main_arg0 = m ((c : Thread nD τ).loc main_arg0) :=
  (We_of m ρ c main_arg0 (by decide)).trans <| (Wd_of m ρ c main_arg0 (by decide)).trans <| (Wc_of m ρ c main_arg0 (by decide)).trans <| (Wb_of m ρ c main_arg0 (by decide)).trans rfl
theorem We_main_arg1 (c : Dev nD) : We m ρ c main_arg1 = m ((c : Thread nD τ).loc main_arg1) :=
  (We_of m ρ c main_arg1 (by decide)).trans <| (Wd_of m ρ c main_arg1 (by decide)).trans <| (Wc_of m ρ c main_arg1 (by decide)).trans <| (Wb_of m ρ c main_arg1 (by decide)).trans rfl

/-! ## The proof data family and the thread state -/

/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => rowDat (Va m ρ) c
  | ⟨1, _⟩ => fun c => covDat (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (We m ρ c) ∗ ∃ r, prngReg c r)

/-! ## The passes as segments -/

set_option backward.isDefEq.respectTransparency.types false in
def rowRegion : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (rowBodyObligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit : (unscopedBufs (Ix := Unit) (Name := ℕ) (U := UR sig nD τ) (Lvl := ℕ) c (Va m ρ c) : sProp 𝕄)
        ⊢ iprop((pdats m ρ 0 c).arrays ((pdats m ρ 0 c).arrAt · 0) ∗ Pipeline.unscopedRest spec0 c (Va m ρ c)) := by
      rw [Pipeline.unscopedBufs_split₀ cfgs 0 winFacts₀0.arr_unscoped c (Va m ρ c)]
      exact sep_mono (rowArraysEntry (Va m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (Va m ρ c))
        ⊢ (unscopedBufs (Ix := Unit) (Name := ℕ) (U := UR sig nD τ) (Lvl := ℕ) c (Vb m ρ c) : sProp 𝕄) := by
      rw [Pipeline.unscopedBufs_split₀ cfgs 0 winFacts₀0.arr_unscoped c (Vb m ρ c)]
      refine sep_mono (rowArraysExit (Va m ρ) (Vb m ρ) c (Wb_of m ρ c main_arg0 (by decide)) (Wb_of m ρ c main_arg1 (by decide))
        (Wb_v0_0 m ρ c) (Wb_v0_1 m ρ c)) (Entails.of_eq ?_)
      unfold Pipeline.unscopedRest
      exact bigSep_congr fun b hb => by
        rw [show Vb m ρ c b = Va m ρ c b from Wb_of m ρ c b (fun hmem => (Finset.mem_sdiff.mp hb).2 (by
          rw [rowArrRefs]; rcases List.mem_cons.mp hmem with rfl | hmem
          · decide
          · rcases List.mem_cons.mp hmem with rfl | hmem
            · decide
            · exact absurd hmem List.not_mem_nil))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def covRegion : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (covBodyObligation (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs (Ix := Unit) (Name := ℕ) (U := UR sig nD τ) (Lvl := ℕ) c (Vc m ρ c) : sProp 𝕄)
        ⊢ iprop((pdats m ρ 1 c).arrays ((pdats m ρ 1 c).arrAt · 0) ∗ Pipeline.unscopedRest spec1 c (Vc m ρ c)) := by
      rw [Pipeline.unscopedBufs_split₀ cfgs 1 winFacts₀1.arr_unscoped c (Vc m ρ c)]
      exact sep_mono (covArraysEntry (Vc m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vc m ρ c))
        ⊢ (unscopedBufs (Ix := Unit) (Name := ℕ) (U := UR sig nD τ) (Lvl := ℕ) c (Vd m ρ c) : sProp 𝕄) := by
      rw [Pipeline.unscopedBufs_split₀ cfgs 1 winFacts₀1.arr_unscoped c (Vd m ρ c)]
      refine sep_mono (covArraysExit (Vc m ρ) (Vd m ρ) c (Wd_of m ρ c main_arg0 (by decide)) (Wd_of m ρ c main_arg1 (by decide))
        (Wd_of m ρ c main_v15 (by decide)) (Wd_of m ρ c main_v16 (by decide)) (Wd_of m ρ c main_v19 (by decide)) (Wd_of m ρ c main_v20 (by decide))
        (Wd_v21_0 m ρ c) (Wd_v21_1 m ρ c) (Wd_v21_2 m ρ c)) (Entails.of_eq ?_)
      unfold Pipeline.unscopedRest
      exact bigSep_congr fun b hb => by
        rw [show Vd m ρ c b = Vc m ρ c b from Wd_of m ρ c b (fun hmem => (Finset.mem_sdiff.mp hb).2 (by
          rw [covArrRefs]; rcases List.mem_cons.mp hmem with rfl | hmem
          · decide
          · rcases List.mem_cons.mp hmem with rfl | hmem
            · decide
            · rcases List.mem_cons.mp hmem with rfl | hmem
              · decide
              · exact absurd hmem List.not_mem_nil))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (rowRegion m ρ),
    .host (hseg hostOps1 hostOps1_sub hostOps1_fresh (Wb m ρ)),
    .region (covRegion m ρ),
    .host (hseg hostOps2 hostOps2_sub hostOps2_fresh (Wd m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tend m ρ)
    (hch := ⟨fun _ => .rfl, fun _ => .rfl, fun _ => .rfl, fun _ => .rfl, fun c => by
      show (iprop(StableHlo.held (c : Thread nD τ) (Pipeline.ucRefs τ sig) (We m ρ c) ∗ R c) : sProp 𝕄) ⊢ _
      iintro ⟨Hh, ⟨Hp, HO⟩⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

/-- THE FRAME: the samples end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (We_main_arg0 m ρ c),
     (h c _ (mem_uc main_arg1 (by decide))).trans (We_main_arg1 m ρ c)⟩) (run_all m ρ)

end

end Cert.KernelIdeal.Hand

end
-- ==== Proof.RowSharedB.lean ====
/-
  The row-sum pass on a 16 × 16 grid of 512 × 512 tiles: what is shared by the statements about its body.
  At grid point (i, j) the body adds, into two 512 × 128 accumulators (one per sample), the row sums of the
  tile (i, j) of each distance matrix, broadcast along the lanes. The accumulators are reset when j = 0,
  that is at the points whose number is a multiple of 16, and added to at every other point.
-/
import proofs.«133753_j71141838291708_1_alg».proof.Proof.Gen.Kernel.Launch
import proofs.«133753_j71141838291708_1_alg».proof.Proof.Gen.Kernel.Skeleton
import proofs.«133753_j71141838291708_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch: the second grid coordinate is zero (the printed scalar chain). -/
abbrev rowReset (i : grid0.Coords) : Prop :=
  (Scalar.cmpi .ne (Scalar.extui (Scalar.cmpi .eq (BitVec.ofNat 32 (i 1).val) 0#32)) 0#32) = 1#1

/-- It holds exactly at the first point of each row of the grid. -/
theorem rowReset_iff : ∀ t : Fin cfg0.N, rowReset (grid0.coords t) ↔ t.val % 16 = 0 :=
  (by decide +kernel : ∀ t : Fin grid0.N, rowReset (grid0.coords t) ↔ t.val % 16 = 0)

/-- Each window's current staging buffer at a point, as the pipeline passes it to the body, and that it is whole. -/
abbrev rb0 (t : Fin cfg0.N) : Memref sig .tc .vmem S512x128 .f32 := win0_0.stage (cfg0.slots t 0)
abbrev rw0 (t : Fin cfg0.N) : (rb0 t).IsWhole := hstage0_0 ((cfg0.slots t 0).cast nbuf0_0)
abbrev rb1 (t : Fin cfg0.N) : Memref sig .tc .vmem S512x128 .f32 := win0_1.stage (cfg0.slots t 1)
abbrev rw1 (t : Fin cfg0.N) : (rb1 t).IsWhole := hstage0_1 ((cfg0.slots t 1).cast nbuf0_1)
abbrev rb2 (t : Fin cfg0.N) : Memref sig .tc .vmem S512x128 .f32 := win0_2.stage (cfg0.slots t 2)
abbrev rw2 (t : Fin cfg0.N) : (rb2 t).IsWhole := hstage0_2 ((cfg0.slots t 2).cast nbuf0_2)
abbrev rb3 (t : Fin cfg0.N) : Memref sig .tc .vmem S512x128 .f32 := win0_3.stage (cfg0.slots t 3)
abbrev rw3 (t : Fin cfg0.N) : (rb3 t).IsWhole := hstage0_3 ((cfg0.slots t 3).cast nbuf0_3)
abbrev rb4 (t : Fin cfg0.N) : Memref sig .tc .vmem S512x128 .f32 := win0_4.stage (cfg0.slots t 4)
abbrev rw4 (t : Fin cfg0.N) : (rb4 t).IsWhole := hstage0_4 ((cfg0.slots t 4).cast nbuf0_4)
abbrev rb5 (t : Fin cfg0.N) : Memref sig .tc .vmem S512x128 .f32 := win0_5.stage (cfg0.slots t 5)
abbrev rw5 (t : Fin cfg0.N) : (rb5 t).IsWhole := hstage0_5 ((cfg0.slots t 5).cast nbuf0_5)

/-- One staging buffer of each accumulator, through which its contents are stated. -/
abbrev accView4 : View sig .tc .vmem S512x128 .f32 := (Memref.whole cc0_stg4_0 : Memref sig .tc .vmem S512x128 .f32).view
abbrev accView5 : View sig .tc .vmem S512x128 .f32 := (Memref.whole cc0_stg5_0 : Memref sig .tc .vmem S512x128 .f32).view

end Cert.Kernel.Hand

end
-- ==== Proof.RowRunResetB.lean ====
/-
  The row-sum body at a point where the accumulators are reset (j = 0): on whole staging buffers, the four
  input tiles at given contents and the two accumulators at anything, it runs to the end leaving the inputs
  as they were and each accumulator at the pieces its stores wrote (the reset, then the tile's row sums).
-/
import proofs.«133753_j71141838291708_1_alg».proof.Proof.RowSharedB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def rowRunReset (c : Dev nD) (i : grid0.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (hc : rowReset i) (x0 x1 x2 x3 : Vec F S512x128 .f32) :
    Σ' (L4 : List (View.Piece (Elt F) S512x128 .f32)), { L5 : List (View.Piece (Elt F) S512x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc0__rowsum_kernel i a2 h2 a3 h3 a4 h4 a5 h5 a6 h6 a7 h7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h2.eq_unread hf0; obtain rfl := h3.eq_unread hf1
    obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; iexact H5

end Cert.Kernel.Hand

end
-- ==== Proof.RowRunAddB.lean ====
/-
  The row-sum body at a point where the accumulators are added to (j ≠ 0): on whole staging buffers, the four
  input tiles and the two accumulators at given contents, it runs to the end leaving the inputs as they were
  and each accumulator at the piece its one store wrote (the running contents plus the tile's row sums).
-/
import proofs.«133753_j71141838291708_1_alg».proof.Proof.RowRunResetB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def rowRunAdd (c : Dev nD) (i : grid0.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (hc : ¬rowReset i) (x0 x1 x2 x3 : Vec F S512x128 .f32) (acc4 acc5 : Vec F S512x128 .f32) :
    Σ' (L4 : List (View.Piece (Elt F) S512x128 .f32)), { L5 : List (View.Piece (Elt F) S512x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare acc4 ∗ owns (c : Thread nD τ) a7 fullShare acc5
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc0__rowsum_kernel i a2 h2 a3 h3 a4 h4 a5 h5 a6 h6 a7 h7) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; iexact H4
    iexists _; iexact H5

end Cert.Kernel.Hand

end
-- ==== Proof.RowDataB.lean ====
/-
  The row-sum pass, point by point, at the contents `V` the pass finds in the core's buffers.
  The four input windows hold the blocks of the two samples: rows 512·i … of each for the windows that follow the
  first grid coordinate, rows 512·j … for those that follow the second. The two accumulators hold, after the point
  numbered n, what the body's stores leave: at a multiple of 16 the reset followed by the tile's row sums, at any
  other point the row sums added to what the point before left — the accumulators are not written back between
  two points of one row of the grid, so the body finds them as it left them.
-/
import proofs.«133753_j71141838291708_1_alg».proof.Proof.RowRunAddB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the pass finds it. -/
def rowBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem rowBefore0 {c : Dev nD} (dat : Dat τ (Elt F) Unit ℕ (UR sig nD τ) ℕ cfg0 c) (hA : dat.A 0 = V c (Pipeline.arrRef spec0 0))
    (hafter : ∀ t, dat.after 0 t = rowBlk V c 0 t) (t : Fin cfg0.N) (d) : dat.before 0 t d = rowBlk V c 0 t :=
  (dat.before_in_eq_fetched 0 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore1 {c : Dev nD} (dat : Dat τ (Elt F) Unit ℕ (UR sig nD τ) ℕ cfg0 c) (hA : dat.A 1 = V c (Pipeline.arrRef spec0 1))
    (hafter : ∀ t, dat.after 1 t = rowBlk V c 1 t) (t : Fin cfg0.N) (d) : dat.before 1 t d = rowBlk V c 1 t :=
  (dat.before_in_eq_fetched 1 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore2 {c : Dev nD} (dat : Dat τ (Elt F) Unit ℕ (UR sig nD τ) ℕ cfg0 c) (hA : dat.A 2 = V c (Pipeline.arrRef spec0 2))
    (hafter : ∀ t, dat.after 2 t = rowBlk V c 2 t) (t : Fin cfg0.N) (d) : dat.before 2 t d = rowBlk V c 2 t :=
  (dat.before_in_eq_fetched 2 rfl (fun _ => rfl) (fun _ _ _ => rfl) (fun t => by rw [hafter]; unfold Dat.blockOf rowBlk; rw [hA]; try rfl) t d).trans
    (by unfold Dat.fetched Dat.blockOf rowBlk; rw [hA]; try rfl)
theorem rowBefore3 {c : Dev nD} (dat : Dat τ (Elt F) Unit ℕ (UR sig nD τ) ℕ cfg0 c) (hA : dat.A 3 = V c (Pipeline.arrRef spec0 3))
    (hafter : ∀ t, dat.after 3 t = rowBlk V c 3 t) (t : Fin cfg0.N) (d) : dat.before 3 t d = rowBlk V c 3 t :=
  (dat.before_in_eq_fetched 3 rfl (fun _ => rfl) (fun _ _ _ => rfl) (fun t => by rw [hafter]; unfold Dat.blockOf rowBlk; rw [hA]; try rfl) t d).trans
    (by unfold Dat.fetched Dat.blockOf rowBlk; rw [hA]; try rfl)

/-- The body's run at a point of each kind, on the point's staging buffers and input blocks. -/
def rowResetAt (c : Dev nD) (t : Fin cfg0.N) (h : t.val % 16 = 0) :=
  rowRunReset (F := F) c (grid0.coords t) (rb0 t) (rw0 t) (rb1 t) (rw1 t) (rb2 t) (rw2 t) (rb3 t) (rw3 t) (rb4 t) (rw4 t) (rb5 t) (rw5 t) ((rowReset_iff t).mpr h) (rowBlk V c 0 t) (rowBlk V c 1 t) (rowBlk V c 2 t) (rowBlk V c 3 t)
def rowAddAt (c : Dev nD) (t : Fin cfg0.N) (h : ¬t.val % 16 = 0) (acc4 acc5 : Vec F S512x128 .f32) :=
  rowRunAdd (F := F) c (grid0.coords t) (rb0 t) (rw0 t) (rb1 t) (rw1 t) (rb2 t) (rw2 t) (rb3 t) (rw3 t) (rb4 t) (rw4 t) (rb5 t) (rw5 t) (fun h' => h ((rowReset_iff t).mp h')) (rowBlk V c 0 t) (rowBlk V c 1 t) (rowBlk V c 2 t) (rowBlk V c 3 t) acc4 acc5

/-- In each case the stores into each accumulator tile its block, so they cover it. -/
theorem rowResetCover4 (c : Dev nD) (t : Fin cfg0.N) (h : t.val % 16 = 0) (y : S512x128.Idx) :
    ∃ pc ∈ (rowResetAt V c t h).1, y ∈ pc.1.set :=
  View.cover_of_tiledL (rowResetAt V c t h).1 S512x128.size (by sl_kernel_rfl) y
theorem rowResetCover5 (c : Dev nD) (t : Fin cfg0.N) (h : t.val % 16 = 0) (y : S512x128.Idx) :
    ∃ pc ∈ (rowResetAt V c t h).2.1, y ∈ pc.1.set :=
  View.cover_of_tiledL (rowResetAt V c t h).2.1 S512x128.size (by sl_kernel_rfl) y
theorem rowAddCover4 (c : Dev nD) (t : Fin cfg0.N) (h : ¬t.val % 16 = 0) (acc4 acc5 : Vec F S512x128 .f32) (y : S512x128.Idx) :
    ∃ pc ∈ (rowAddAt V c t h acc4 acc5).1, y ∈ pc.1.set :=
  View.cover_of_tiledL (rowAddAt V c t h acc4 acc5).1 S512x128.size (by sl_kernel_rfl) y
theorem rowAddCover5 (c : Dev nD) (t : Fin cfg0.N) (h : ¬t.val % 16 = 0) (acc4 acc5 : Vec F S512x128 .f32) (y : S512x128.Idx) :
    ∃ pc ∈ (rowAddAt V c t h acc4 acc5).2.1, y ∈ pc.1.set :=
  View.cover_of_tiledL (rowAddAt V c t h acc4 acc5).2.1 S512x128.size (by sl_kernel_rfl) y

/-- THE ACCUMULATION: the two accumulators after the point numbered `n`. -/
def rowAcc (c : Dev nD) : (n : ℕ) → n < cfg0.N → Vec F S512x128 .f32 × Vec F S512x128 .f32
  | 0, hn => (View.canon (rowResetAt V c ⟨0, hn⟩ (Nat.zero_mod _)).1, View.canon (rowResetAt V c ⟨0, hn⟩ (Nat.zero_mod _)).2.1)
  | n + 1, hn =>
    if h0 : (n + 1) % 16 = 0 then
      (View.canon (rowResetAt V c ⟨n + 1, hn⟩ h0).1, View.canon (rowResetAt V c ⟨n + 1, hn⟩ h0).2.1)
    else
      (View.canon (rowAddAt V c ⟨n + 1, hn⟩ h0 (rowAcc c n (Nat.lt_of_succ_lt hn)).1 (rowAcc c n (Nat.lt_of_succ_lt hn)).2).1,
       View.canon (rowAddAt V c ⟨n + 1, hn⟩ h0 (rowAcc c n (Nat.lt_of_succ_lt hn)).1 (rowAcc c n (Nat.lt_of_succ_lt hn)).2).2.1)

theorem rowAcc_reset (c : Dev nD) (t : Fin cfg0.N) (h0 : t.val % 16 = 0) :
    rowAcc V c t.val t.isLt = (View.canon (rowResetAt V c t h0).1, View.canon (rowResetAt V c t h0).2.1) := by
  obtain ⟨n, hn⟩ := t
  cases n with
  | zero => exact rfl
  | succ n => exact (dif_pos h0).trans rfl

theorem rowAcc_add (c : Dev nD) (t : Fin cfg0.N) (h0 : ¬t.val % 16 = 0) :
    rowAcc V c t.val t.isLt
      = (View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).1,
         View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).2.1) := by
  obtain ⟨n, hn⟩ := t
  cases n with
  | zero => exact (by exfalso; (try dsimp only at h0); exact absurd (Nat.zero_mod _) h0)
  | succ n => exact (dif_neg h0).trans rfl

/-- The pass's proof data on core `c`: the arrays as found; each input window's buffer at its block; the
    accumulators at `rowAcc`; each sample's array held by its two windows at the two halves of the full share;
    the class invariant; nothing owed. -/
def rowDat (c : Dev nD) : Dat τ (Elt F) Unit ℕ (UR sig nD τ) ℕ cfg0 c where
  A w := V c (Pipeline.arrRef spec0 w)
  after w t := match w with
    | ⟨0, _⟩ => rowBlk V c 0 t
    | ⟨1, _⟩ => rowBlk V c 1 t
    | ⟨2, _⟩ => rowBlk V c 2 t
    | ⟨3, _⟩ => rowBlk V c 3 t
    | ⟨4, _⟩ => (rowAcc V c t.val t.isLt).1
    | ⟨5, _⟩ => (rowAcc V c t.val t.isLt).2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem rowA (c : Dev nD) (w : Fin cfg0.W) : (rowDat V c).A w = V c (Pipeline.arrRef spec0 w) := by dsimp only [rowDat]
theorem rowAfter0 (c : Dev nD) (t : Fin cfg0.N) : (rowDat V c).after 0 t = rowBlk V c 0 t := by dsimp only [rowDat]
theorem rowAfter1 (c : Dev nD) (t : Fin cfg0.N) : (rowDat V c).after 1 t = rowBlk V c 1 t := by dsimp only [rowDat]
theorem rowAfter2 (c : Dev nD) (t : Fin cfg0.N) : (rowDat V c).after 2 t = rowBlk V c 2 t := by dsimp only [rowDat]
theorem rowAfter3 (c : Dev nD) (t : Fin cfg0.N) : (rowDat V c).after 3 t = rowBlk V c 3 t := by dsimp only [rowDat]
theorem rowAfter4 (c : Dev nD) (t : Fin cfg0.N) : (rowDat V c).after 4 t = (rowAcc V c t.val t.isLt).1 := by dsimp only [rowDat]
theorem rowAfter5 (c : Dev nD) (t : Fin cfg0.N) : (rowDat V c).after 5 t = (rowAcc V c t.val t.isLt).2 := by dsimp only [rowDat]

theorem rowDatBefore0 (c : Dev nD) (t : Fin cfg0.N) (d) : (rowDat V c).before 0 t d = rowBlk V c 0 t :=
  rowBefore0 V (rowDat V c) (rowA V c 0) (rowAfter0 V c) t d
theorem rowDatBefore1 (c : Dev nD) (t : Fin cfg0.N) (d) : (rowDat V c).before 1 t d = rowBlk V c 1 t :=
  rowBefore1 V (rowDat V c) (rowA V c 1) (rowAfter1 V c) t d
theorem rowDatBefore2 (c : Dev nD) (t : Fin cfg0.N) (d) : (rowDat V c).before 2 t d = rowBlk V c 2 t :=
  rowBefore2 V (rowDat V c) (rowA V c 2) (rowAfter2 V c) t d
theorem rowDatBefore3 (c : Dev nD) (t : Fin cfg0.N) (d) : (rowDat V c).before 3 t d = rowBlk V c 3 t :=
  rowBefore3 V (rowDat V c) (rowA V c 3) (rowAfter3 V c) t d

/-- At a point that is not the first of its row of the grid, each accumulator's buffer holds what the body left
    at the point before: it was not written back between. -/
theorem rowDatBefore4 (c : Dev nD) (t : Fin cfg0.N) (h0 : ¬t.val % 16 = 0) (d) :
    (rowDat V c).before 4 t d = (rowAcc V c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [rowDat]
theorem rowDatBefore5 (c : Dev nD) (t : Fin cfg0.N) (h0 : ¬t.val % 16 = 0) (d) :
    (rowDat V c).before 5 t d = (rowAcc V c (t.val - 1) (Nat.lt_of_le_of_lt (Nat.sub_le _ _) t.isLt)).2 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [rowDat]

end

end Cert.Kernel.Hand

end
-- ==== Proof.RowBodyB.lean ====
/-
  The row-sum pass's body at any grid point meets what the pipeline asks of it: called with every window's
  current staging buffer at what the proof data says it holds there, it returns them at what the proof data says
  the body leaves. The point is either the first of its row of the grid (the accumulators are reset) or not
  (they hold what the point before left, and are added to); the pipeline's invariant and the core's dues pass
  through untouched.
-/
import proofs.«133753_j71141838291708_1_alg».proof.Proof.RowDataB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

theorem rowAcc_reset4 (c : Dev nD) (t : Fin cfg0.N) (h0 : t.val % 16 = 0) :
    (rowAcc V c t.val t.isLt).1 = View.canon (rowResetAt V c t h0).1 := congrArg Prod.fst (rowAcc_reset V c t h0)
theorem rowAcc_reset5 (c : Dev nD) (t : Fin cfg0.N) (h0 : t.val % 16 = 0) :
    (rowAcc V c t.val t.isLt).2 = View.canon (rowResetAt V c t h0).2.1 := congrArg Prod.snd (rowAcc_reset V c t h0)
theorem rowAcc_add4 (c : Dev nD) (t : Fin cfg0.N) (h0 : ¬t.val % 16 = 0) :
    (rowAcc V c t.val t.isLt).1 = View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).1 :=
  congrArg Prod.fst (rowAcc_add V c t h0)
theorem rowAcc_add5 (c : Dev nD) (t : Fin cfg0.N) (h0 : ¬t.val % 16 = 0) :
    (rowAcc V c t.val t.isLt).2 = View.canon (rowAddAt V c t h0 (rowAcc V c (t.val - 1) (Nat.lt_of_le_of_lt (Nat.sub_le _ _) t.isLt)).1 (rowAcc V c (t.val - 1) (Nat.lt_of_le_of_lt (Nat.sub_le _ _) t.isLt)).2).2.1 :=
  congrArg Prod.snd (rowAcc_add V c t h0)

/-- What the body is called with at point `t`, the windows one by one, -/
def rowPre (c : Dev nD) (t : Fin cfg0.N) : sProp 𝕄 :=
  iprop((rowDat V c).Φ t.castSucc ∗ (rowDat V c).owesAt () t.castSucc
    ∗ (∃ d, owns (c : Thread nD τ) (rb0 t) fullShare ((rowDat V c).before 0 t d))
    ∗ (∃ d, owns (c : Thread nD τ) (rb1 t) fullShare ((rowDat V c).before 1 t d))
    ∗ (∃ d, owns (c : Thread nD τ) (rb2 t) fullShare ((rowDat V c).before 2 t d))
    ∗ (∃ d, owns (c : Thread nD τ) (rb3 t) fullShare ((rowDat V c).before 3 t d))
    ∗ (∃ d, owns (c : Thread nD τ) (rb4 t) fullShare ((rowDat V c).before 4 t d))
    ∗ (∃ d, owns (c : Thread nD τ) (rb5 t) fullShare ((rowDat V c).before 5 t d)))

/-- and what it returns. -/
def rowPost (c : Dev nD) (t : Fin cfg0.N) : sProp 𝕄 :=
  iprop((rowDat V c).Φ t.succ ∗ (rowDat V c).owesAt () t.succ
    ∗ owns (c : Thread nD τ) (rb0 t) fullShare ((rowDat V c).after 0 t)
    ∗ owns (c : Thread nD τ) (rb1 t) fullShare ((rowDat V c).after 1 t)
    ∗ owns (c : Thread nD τ) (rb2 t) fullShare ((rowDat V c).after 2 t)
    ∗ owns (c : Thread nD τ) (rb3 t) fullShare ((rowDat V c).after 3 t)
    ∗ owns (c : Thread nD τ) (rb4 t) fullShare ((rowDat V c).after 4 t)
    ∗ owns (c : Thread nD τ) (rb5 t) fullShare ((rowDat V c).after 5 t))

set_option maxHeartbeats 1600000 in
theorem rowBodySound (c : Dev nD) (t : Fin cfg0.N) :
    rowPre V c t ⊢ wp frame (wpE (defs₀ (F := F)) Variants.none c none) Set.univ (bodyAt0 t) (fun _ => rowPost V c t) := by
  unfold rowPre rowPost bodyAt0
  simp only [rowDatBefore0, rowDatBefore1, rowDatBefore2, rowDatBefore3]
  rw [show (rowDat V c).Φ t.succ = (rowDat V c).Φ t.castSucc from rfl,
    show (rowDat V c).owesAt () t.succ = (rowDat V c).owesAt () t.castSucc from rfl,
    rowAfter0, rowAfter1, rowAfter2, rowAfter3, rowAfter4, rowAfter5]
  by_cases h0 : t.val % 16 = 0
  · rw [rowAcc_reset4 V c t h0, rowAcc_reset5 V c t h0]
    iintro ⟨HΦ, Ho, ⟨%d0, H0⟩, ⟨%d1, H1⟩, ⟨%d2, H2⟩, ⟨%d3, H3⟩, ⟨%d4, H4⟩, ⟨%d5, H5⟩⟩
    iapply ((rowResetAt V c t h0).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (rowResetCover4 V c t h0)
    unfold owns; iexists _; isplitr
    swap; · iexact H5
    ipureintro; exact View.read_writes_eq_canon _ _ _ (rowResetCover5 V c t h0)
  · rw [rowAcc_add4 V c t h0, rowAcc_add5 V c t h0]
    simp only [rowDatBefore4 V c t h0, rowDatBefore5 V c t h0]
    iintro ⟨HΦ, Ho, ⟨%d0, H0⟩, ⟨%d1, H1⟩, ⟨%d2, H2⟩, ⟨%d3, H3⟩, ⟨%d4, H4⟩, ⟨%d5, H5⟩⟩
    iapply ((rowAddAt V c t h0 _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (rowAddCover4 V c t h0 _ _)
    unfold owns; iexists _; isplitr
    swap; · iexact H5
    ipureintro; exact View.read_writes_eq_canon _ _ _ (rowAddCover5 V c t h0 _ _)

/-- The library's body obligation, at every point. -/
theorem rowBodyObligation (c : Dev nD) : BodyObligation (rowDat (F := F) V c) (defs₀ (F := F)) Variants.none () Set.univ := fun t => by
  rw [bigSep_W0, bigSep_W0]
  exact rowBodySound V c t

end

end Cert.Kernel.Hand

end
-- ==== Proof.RowSegB.lean ====
/-
  The row-sum pass hands each sample to two windows (one follows the first grid coordinate, one the second), so
  its six windows stand on four distinct buffers. Entering the pass, each sample's buffer, held whole at the
  full share, is split into the two halves of that share, one per window; the two results' buffers go to their
  windows whole. Leaving it, the two halves of each sample, both still at the contents the pass found, are
  joined again, and each result's buffer is taken at what the write-backs left in it.
-/
import proofs.«133753_j71141838291708_1_alg».proof.Proof.RowBodyB
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V V' : (c : Dev nD) → (b : Ref sig .tc) → Buf (Elt F) ((c : Thread nD τ).loc b))

/-- The buffers behind the windows are the two samples and the two results. -/
theorem rowArrRefs : (Finset.univ.image (Pipeline.arrRef spec0) : Finset (Ref sig .tc))
    = insert main_arg0 (insert main_arg1 (insert main_v0_0 {main_v0_1})) := by decide

/-- The windows' arrays at contents `G`, window by window, each on its whole buffer at its share. -/
theorem rowArrays_eq (c : Dev nD) (G : (w : Fin cfg0.W) → Buf (Elt F) ((cfg0.win w).arr.view.loc (c : Thread nD τ))) :
    (rowDat V c).arrays G
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0_0) ↦{fullShare} G 4) ∗ (((c : Thread nD τ).loc main_v0_1) ↦{fullShare} G 5)) := by
  unfold Dat.arrays
  rw [bigSep_W0, (arr_whole0 0).set_eq_univ, (arr_whole0 2).set_eq_univ, (arr_whole0 4).set_eq_univ, (arr_whole0 5).set_eq_univ]
  rfl

/-- The four buffers behind the windows, each whole at the full share, one by one. -/
theorem rowBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0_0) ↦{fullShare} W main_v0_0) ∗ (((c : Thread nD τ).loc main_v0_1) ↦{fullShare} W main_v0_1)) := by
  classical
  unfold Pipeline.arrBufs
  rw [rowArrRefs, bigSep_insert (by decide), bigSep_insert (by decide), bigSep_insert (by decide), bigSep_singleton]
  rfl

/-- ENTRY: the four buffers at the contents the pass finds make the six windows' arrays at those contents. -/
theorem rowArraysEntry (c : Dev nD) :
    (Pipeline.arrBufs spec0 c (V c) : sProp 𝕄) ⊢ (rowDat V c).arrays ((rowDat V c).arrAt · 0) := by
  classical
  rw [rowArrays_eq, rowBufs_eq]
  iintro ⟨Hx, Hy, H4, H5⟩
  ihave Hx' := (pointsTo_share (PosShare.mem_left_op_right fullShare)).1 $$ Hx
  ihave Hy' := (pointsTo_share (PosShare.mem_left_op_right fullShare)).1 $$ Hy
  icases Hx' with ⟨Hx0, Hx1⟩
  icases Hy' with ⟨Hy0, Hy1⟩
  isplitl [Hx0]; · iexact Hx0
  isplitl [Hx1]; · iexact Hx1
  isplitl [Hy0]; · iexact Hy0
  isplitl [Hy1]; · iexact Hy1
  isplitl [H4]; · iexact H4
  iexact H5

/-- EXIT: the six windows' arrays after the last point make the four buffers at any contents `V'` that keep the
    samples as found and hold each result at what the write-backs left. -/
theorem rowArraysExit (c : Dev nD)
    (hx : V' c main_arg0 = V c main_arg0) (hy : V' c main_arg1 = V c main_arg1)
    (h4 : V' c main_v0_0 = (rowDat V c).arrAt 4 cfg0.N) (h5 : V' c main_v0_1 = (rowDat V c).arrAt 5 cfg0.N) :
    (rowDat V c).arrays ((rowDat V c).arrAt · cfg0.N) ⊢ (Pipeline.arrBufs spec0 c (V' c) : sProp 𝕄) := by
  classical
  rw [rowArrays_eq, rowBufs_eq, hx, hy, h4, h5,
    show (rowDat V c).arrAt 0 cfg0.N = V c main_arg0 from ((rowDat V c).arrAt_in 0 rfl _).trans (rowA V c 0),
    show (rowDat V c).arrAt 1 cfg0.N = V c main_arg0 from ((rowDat V c).arrAt_in 1 rfl _).trans (rowA V c 1),
    show (rowDat V c).arrAt 2 cfg0.N = V c main_arg1 from ((rowDat V c).arrAt_in 2 rfl _).trans (rowA V c 2),
    show (rowDat V c).arrAt 3 cfg0.N = V c main_arg1 from ((rowDat V c).arrAt_in 3 rfl _).trans (rowA V c 3)]
  iintro ⟨Hx0, Hx1, Hy0, Hy1, H4, H5⟩
  isplitl [Hx0 Hx1]
  · iapply (pointsTo_share (PosShare.mem_left_op_right fullShare)).2
    isplitl [Hx0]; · iexact Hx0
    iexact Hx1
  isplitl [Hy0 Hy1]
  · iapply (pointsTo_share (PosShare.mem_left_op_right fullShare)).2
    isplitl [Hy0]; · iexact Hy0
    iexact Hy1
  isplitl [H4]; · iexact H4
  iexact H5

end

end Cert.Kernel.Hand

end
-- ==== Proof.CovSharedB.lean ====
/-
  The covariance pass on the same 16 × 16 grid: what is shared by the statements about its body. At grid point
  (i, j) the body forms the tile (i, j) of both centred distance matrices A and B and adds Σ A·B, Σ A·A and Σ B·B
  over the tile, broadcast along 128 lanes, into three 1 × 128 accumulators. They are reset at the first point
  only (i = 0 and j = 0) and added to at every other point.
-/
import proofs.«133753_j71141838291708_1_alg».proof.Proof.Gen.Kernel.Launch
import proofs.«133753_j71141838291708_1_alg».proof.Proof.Gen.Kernel.Skeleton
import proofs.«133753_j71141838291708_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch: both grid coordinates are zero (the printed scalar chain). -/
abbrev covReset (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem covReset_iff : ∀ t : Fin cfg1.N, covReset (grid1.coords t) ↔ t.val = 0 :=
  (by decide +kernel : ∀ t : Fin grid1.N, covReset (grid1.coords t) ↔ t.val = 0)

/-- Each window's current staging buffer at a point, as the pipeline passes it to the body, and that it is whole. -/
abbrev cb0 (t : Fin cfg1.N) : Memref sig .tc .vmem S512x128 .f32 := win1_0.stage (cfg1.slots t 0)
abbrev cw0 (t : Fin cfg1.N) : (cb0 t).IsWhole := hstage1_0 ((cfg1.slots t 0).cast nbuf1_0)
abbrev cb1 (t : Fin cfg1.N) : Memref sig .tc .vmem S512x128 .f32 := win1_1.stage (cfg1.slots t 1)
abbrev cw1 (t : Fin cfg1.N) : (cb1 t).IsWhole := hstage1_1 ((cfg1.slots t 1).cast nbuf1_1)
abbrev cb2 (t : Fin cfg1.N) : Memref sig .tc .vmem S512x128 .f32 := win1_2.stage (cfg1.slots t 2)
abbrev cw2 (t : Fin cfg1.N) : (cb2 t).IsWhole := hstage1_2 ((cfg1.slots t 2).cast nbuf1_2)
abbrev cb3 (t : Fin cfg1.N) : Memref sig .tc .vmem S512x128 .f32 := win1_3.stage (cfg1.slots t 3)
abbrev cw3 (t : Fin cfg1.N) : (cb3 t).IsWhole := hstage1_3 ((cfg1.slots t 3).cast nbuf1_3)
abbrev cb4 (t : Fin cfg1.N) : Memref sig .tc .vmem S512x1 .f32 := win1_4.stage (cfg1.slots t 4)
abbrev cw4 (t : Fin cfg1.N) : (cb4 t).IsWhole := hstage1_4 ((cfg1.slots t 4).cast nbuf1_4)
abbrev cb5 (t : Fin cfg1.N) : Memref sig .tc .vmem S1x512 .f32 := win1_5.stage (cfg1.slots t 5)
abbrev cw5 (t : Fin cfg1.N) : (cb5 t).IsWhole := hstage1_5 ((cfg1.slots t 5).cast nbuf1_5)
abbrev cb6 (t : Fin cfg1.N) : Memref sig .tc .vmem S512x1 .f32 := win1_6.stage (cfg1.slots t 6)
abbrev cw6 (t : Fin cfg1.N) : (cb6 t).IsWhole := hstage1_6 ((cfg1.slots t 6).cast nbuf1_6)
abbrev cb7 (t : Fin cfg1.N) : Memref sig .tc .vmem S1x512 .f32 := win1_7.stage (cfg1.slots t 7)
abbrev cw7 (t : Fin cfg1.N) : (cb7 t).IsWhole := hstage1_7 ((cfg1.slots t 7).cast nbuf1_7)
abbrev cb8 (t : Fin cfg1.N) : Memref sig .tc .vmem S1x128 .f32 := win1_8.stage (cfg1.slots t 8)
abbrev cw8 (t : Fin cfg1.N) : (cb8 t).IsWhole := hstage1_8 ((cfg1.slots t 8).cast nbuf1_8)
abbrev cb9 (t : Fin cfg1.N) : Memref sig .tc .vmem S1x128 .f32 := win1_9.stage (cfg1.slots t 9)
abbrev cw9 (t : Fin cfg1.N) : (cb9 t).IsWhole := hstage1_9 ((cfg1.slots t 9).cast nbuf1_9)
abbrev cb10 (t : Fin cfg1.N) : Memref sig .tc .vmem S1x128 .f32 := win1_10.stage (cfg1.slots t 10)
abbrev cw10 (t : Fin cfg1.N) : (cb10 t).IsWhole := hstage1_10 ((cfg1.slots t 10).cast nbuf1_10)

/-- The one staging buffer of each accumulator, through which its contents are stated. -/
abbrev accView8 : View sig .tc .vmem S1x128 .f32 := (Memref.whole cc1_stg8_0 : Memref sig .tc .vmem S1x128 .f32).view
abbrev accView9 : View sig .tc .vmem S1x128 .f32 := (Memref.whole cc1_stg9_0 : Memref sig .tc .vmem S1x128 .f32).view
abbrev accView10 : View sig .tc .vmem S1x128 .f32 := (Memref.whole cc1_stg10_0 : Memref sig .tc .vmem S1x128 .f32).view

end Cert.Kernel.Hand

end
-- ==== Proof.CovRunResetB.lean ====
/-
  The covariance body at the first grid point, where the three accumulators are reset: on whole staging buffers,
  the eight input blocks at given contents and the accumulators at anything, it runs to the end leaving the inputs
  as they were and each accumulator at the pieces its stores wrote.
-/
import proofs.«133753_j71141838291708_1_alg».proof.Proof.CovSharedB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def covRunReset (c : Dev nD) (i : grid1.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x1 .f32) (h6 : a6.IsWhole) (a7 : Memref sig .tc .vmem S1x512 .f32) (h7 : a7.IsWhole)
    (a8 : Memref sig .tc .vmem S512x1 .f32) (h8 : a8.IsWhole) (a9 : Memref sig .tc .vmem S1x512 .f32) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (hc : covReset i) (x0 x1 x2 x3 : Vec F S512x128 .f32) (x4 : Vec F S512x1 .f32) (x5 : Vec F S1x512 .f32) (x6 : Vec F S512x1 .f32) (x7 : Vec F S1x512 .f32) :
    Σ' (L8 : List (View.Piece (Elt F) S1x128 .f32)) (L9 : List (View.Piece (Elt F) S1x128 .f32)), { L10 : List (View.Piece (Elt F) S1x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
            ∗ (∃ d, owns (c : Thread nD τ) a10 fullShare d) ∗ (∃ d, owns (c : Thread nD τ) a11 fullShare d) ∗ (∃ d, owns (c : Thread nD τ) a12 fullShare d)
            ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f L10)) -∗ K ⟨⟩))
          ⊢ wp frame (wpE (defs₀ (F := F)) Variants.none c none) E (cc1__dcov_kernel i a2 h2 a3 h3 a4 h4 a5 h5 a6 h6 a7 h7 a8 h8 a9 h9 a10 h10 a11 h11 a12 h12) K } := by
  refine ⟨?_, ?_, ?_, fun E K => ?run⟩
  case run =>
    simp only [cc1__dcov_kernel_eq_skeleton]; unfold cc1__dcov_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    obtain rfl := h8.eq_unread hf6; obtain rfl := h9.eq_unread hf7
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; iexact H8
    isplitl [H9]
    · iexists _; iexact H9
    iexists _; iexact H10

end Cert.Kernel.Hand

end
-- ==== Proof.CovRunAddB.lean ====
/-
  The covariance body at a grid point other than the first, where the three accumulators are added to: on whole staging buffers,
  the eight input blocks at given contents and the accumulators at given contents, it runs to the end leaving the inputs
  as they were and each accumulator at the pieces its stores wrote.
-/
import proofs.«133753_j71141838291708_1_alg».proof.Proof.CovRunResetB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def covRunAdd (c : Dev nD) (i : grid1.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x1 .f32) (h6 : a6.IsWhole) (a7 : Memref sig .tc .vmem S1x512 .f32) (h7 : a7.IsWhole)
    (a8 : Memref sig .tc .vmem S512x1 .f32) (h8 : a8.IsWhole) (a9 : Memref sig .tc .vmem S1x512 .f32) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (hc : ¬covReset i) (x0 x1 x2 x3 : Vec F S512x128 .f32) (x4 : Vec F S512x1 .f32) (x5 : Vec F S1x512 .f32) (x6 : Vec F S512x1 .f32) (x7 : Vec F S1x512 .f32) (acc8 acc9 acc10 : Vec F S1x128 .f32) :
    Σ' (L8 : List (View.Piece (Elt F) S1x128 .f32)) (L9 : List (View.Piece (Elt F) S1x128 .f32)), { L10 : List (View.Piece (Elt F) S1x128 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
            ∗ owns (c : Thread nD τ) a10 fullShare acc8 ∗ owns (c : Thread nD τ) a11 fullShare acc9 ∗ owns (c : Thread nD τ) a12 fullShare acc10
            ∗ (iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare x4 ∗ owns (c : Thread nD τ) a7 fullShare x5
            ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f L10)) -∗ K ⟨⟩))
          ⊢ wp frame (wpE (defs₀ (F := F)) Variants.none c none) E (cc1__dcov_kernel i a2 h2 a3 h3 a4 h4 a5 h5 a6 h6 a7 h7 a8 h8 a9 h9 a10 h10 a11 h11 a12 h12) K } := by
  refine ⟨?_, ?_, ?_, fun E K => ?run⟩
  case run =>
    simp only [cc1__dcov_kernel_eq_skeleton]; unfold cc1__dcov_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := h2.eq_unread hf0; obtain rfl := h3.eq_unread hf1
    obtain rfl := h4.eq_unread hf2; obtain rfl := h5.eq_unread hf3
    obtain rfl := h6.eq_unread hf4; obtain rfl := h7.eq_unread hf5
    obtain rfl := h8.eq_unread hf6; obtain rfl := h9.eq_unread hf7
    obtain rfl := h10.eq_unread hf8; obtain rfl := h11.eq_unread hf9; obtain rfl := h12.eq_unread hf10
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; iexact H8
    isplitl [H9]
    · iexists _; iexact H9
    iexists _; iexact H10

end Cert.Kernel.Hand

end
-- ==== Proof.CovDataB.lean ====
/-
  The covariance pass, point by point, at the contents `V` the pass finds in the core's buffers.
  The eight input windows hold the blocks of the two samples (rows 512·i … and rows 512·j … of each), of the two
  row-centring columns (rows 512·i …) and of the two column-centring rows (columns 512·j …). The three
  accumulators hold, after the point numbered n, what the body's stores leave: at point 0 the reset followed by
  the tile's three sums, at any other point those sums added to what the point before left — the accumulators
  are written back only after the last point, so the body finds them as it left them.
-/
import proofs.«133753_j71141838291708_1_alg».proof.Proof.CovRunAddB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

/-- Window `w`'s block at point `t`, read off its array as the pass finds it. -/
def covBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem covBefore0 {c : Dev nD} (dat : Dat τ (Elt F) Unit ℕ (UR sig nD τ) ℕ cfg1 c) (hA : dat.A 0 = V c (Pipeline.arrRef spec1 0))
    (hafter : ∀ t, dat.after 0 t = covBlk V c 0 t) (t : Fin cfg1.N) (d) : dat.before 0 t d = covBlk V c 0 t :=
  (dat.before_in_eq_fetched 0 rfl (fun _ => rfl) (fun _ _ _ => rfl) (fun t => by rw [hafter]; unfold Dat.blockOf covBlk; rw [hA]; try rfl) t d).trans
    (by unfold Dat.fetched Dat.blockOf covBlk; rw [hA]; try rfl)
theorem covBefore1 {c : Dev nD} (dat : Dat τ (Elt F) Unit ℕ (UR sig nD τ) ℕ cfg1 c) (hA : dat.A 1 = V c (Pipeline.arrRef spec1 1))
    (hafter : ∀ t, dat.after 1 t = covBlk V c 1 t) (t : Fin cfg1.N) (d) : dat.before 1 t d = covBlk V c 1 t :=
  (dat.before_in_eq_fetched 1 rfl (fun _ => rfl) (fun _ _ _ => rfl) (fun t => by rw [hafter]; unfold Dat.blockOf covBlk; rw [hA]; try rfl) t d).trans
    (by unfold Dat.fetched Dat.blockOf covBlk; rw [hA]; try rfl)
theorem covBefore2 {c : Dev nD} (dat : Dat τ (Elt F) Unit ℕ (UR sig nD τ) ℕ cfg1 c) (hA : dat.A 2 = V c (Pipeline.arrRef spec1 2))
    (hafter : ∀ t, dat.after 2 t = covBlk V c 2 t) (t : Fin cfg1.N) (d) : dat.before 2 t d = covBlk V c 2 t :=
  (dat.before_in_eq_fetched 2 rfl (fun _ => rfl) (fun _ _ _ => rfl) (fun t => by rw [hafter]; unfold Dat.blockOf covBlk; rw [hA]; try rfl) t d).trans
    (by unfold Dat.fetched Dat.blockOf covBlk; rw [hA]; try rfl)
theorem covBefore3 {c : Dev nD} (dat : Dat τ (Elt F) Unit ℕ (UR sig nD τ) ℕ cfg1 c) (hA : dat.A 3 = V c (Pipeline.arrRef spec1 3))
    (hafter : ∀ t, dat.after 3 t = covBlk V c 3 t) (t : Fin cfg1.N) (d) : dat.before 3 t d = covBlk V c 3 t :=
  (dat.before_in_eq_fetched 3 rfl (fun _ => rfl) (fun _ _ _ => rfl) (fun t => by rw [hafter]; unfold Dat.blockOf covBlk; rw [hA]; try rfl) t d).trans
    (by unfold Dat.fetched Dat.blockOf covBlk; rw [hA]; try rfl)
theorem covBefore4 {c : Dev nD} (dat : Dat τ (Elt F) Unit ℕ (UR sig nD τ) ℕ cfg1 c) (hA : dat.A 4 = V c (Pipeline.arrRef spec1 4))
    (hafter : ∀ t, dat.after 4 t = covBlk V c 4 t) (t : Fin cfg1.N) (d) : dat.before 4 t d = covBlk V c 4 t :=
  (dat.before_in_eq_fetched 4 rfl (fun _ => rfl) (fun _ _ _ => rfl) (fun t => by rw [hafter]; unfold Dat.blockOf covBlk; rw [hA]; try rfl) t d).trans
    (by unfold Dat.fetched Dat.blockOf covBlk; rw [hA]; try rfl)
theorem covBefore5 {c : Dev nD} (dat : Dat τ (Elt F) Unit ℕ (UR sig nD τ) ℕ cfg1 c) (hA : dat.A 5 = V c (Pipeline.arrRef spec1 5))
    (hafter : ∀ t, dat.after 5 t = covBlk V c 5 t) (t : Fin cfg1.N) (d) : dat.before 5 t d = covBlk V c 5 t :=
  (dat.before_in_eq_fetched 5 rfl (fun _ => rfl) (fun _ _ _ => rfl) (fun t => by rw [hafter]; unfold Dat.blockOf covBlk; rw [hA]; try rfl) t d).trans
    (by unfold Dat.fetched Dat.blockOf covBlk; rw [hA]; try rfl)
theorem covBefore6 {c : Dev nD} (dat : Dat τ (Elt F) Unit ℕ (UR sig nD τ) ℕ cfg1 c) (hA : dat.A 6 = V c (Pipeline.arrRef spec1 6))
    (hafter : ∀ t, dat.after 6 t = covBlk V c 6 t) (t : Fin cfg1.N) (d) : dat.before 6 t d = covBlk V c 6 t :=
  (dat.before_in_eq_fetched 6 rfl (fun _ => rfl) (fun _ _ _ => rfl) (fun t => by rw [hafter]; unfold Dat.blockOf covBlk; rw [hA]; try rfl) t d).trans
    (by unfold Dat.fetched Dat.blockOf covBlk; rw [hA]; try rfl)
theorem covBefore7 {c : Dev nD} (dat : Dat τ (Elt F) Unit ℕ (UR sig nD τ) ℕ cfg1 c) (hA : dat.A 7 = V c (Pipeline.arrRef spec1 7))
    (hafter : ∀ t, dat.after 7 t = covBlk V c 7 t) (t : Fin cfg1.N) (d) : dat.before 7 t d = covBlk V c 7 t :=
  (dat.before_in_eq_fetched 7 rfl (fun _ => rfl) (fun _ _ _ => rfl) (fun t => by rw [hafter]; unfold Dat.blockOf covBlk; rw [hA]; try rfl) t d).trans
    (by unfold Dat.fetched Dat.blockOf covBlk; rw [hA]; try rfl)

/-- The body's run at a point of each kind, on the point's staging buffers and input blocks. -/
def covResetAt (c : Dev nD) (t : Fin cfg1.N) (h : t.val = 0) :=
  covRunReset (F := F) c (grid1.coords t) (cb0 t) (cw0 t) (cb1 t) (cw1 t) (cb2 t) (cw2 t) (cb3 t) (cw3 t) (cb4 t) (cw4 t) (cb5 t) (cw5 t) (cb6 t) (cw6 t) (cb7 t) (cw7 t) (cb8 t) (cw8 t) (cb9 t) (cw9 t) (cb10 t) (cw10 t) ((covReset_iff t).mpr h) (covBlk V c 0 t) (covBlk V c 1 t) (covBlk V c 2 t) (covBlk V c 3 t) (covBlk V c 4 t) (covBlk V c 5 t) (covBlk V c 6 t) (covBlk V c 7 t)
def covAddAt (c : Dev nD) (t : Fin cfg1.N) (h : ¬t.val = 0) (acc8 acc9 acc10 : Vec F S1x128 .f32) :=
  covRunAdd (F := F) c (grid1.coords t) (cb0 t) (cw0 t) (cb1 t) (cw1 t) (cb2 t) (cw2 t) (cb3 t) (cw3 t) (cb4 t) (cw4 t) (cb5 t) (cw5 t) (cb6 t) (cw6 t) (cb7 t) (cw7 t) (cb8 t) (cw8 t) (cb9 t) (cw9 t) (cb10 t) (cw10 t) (fun h' => h ((covReset_iff t).mp h')) (covBlk V c 0 t) (covBlk V c 1 t) (covBlk V c 2 t) (covBlk V c 3 t) (covBlk V c 4 t) (covBlk V c 5 t) (covBlk V c 6 t) (covBlk V c 7 t) acc8 acc9 acc10

/-- In each case the stores into each accumulator tile its block, so they cover it. -/
theorem covResetCover8 (c : Dev nD) (t : Fin cfg1.N) (h : t.val = 0) (y : S1x128.Idx) :
    ∃ pc ∈ (covResetAt V c t h).1, y ∈ pc.1.set :=
  View.cover_of_tiledL (covResetAt V c t h).1 S1x128.size (by sl_kernel_rfl) y
theorem covAddCover8 (c : Dev nD) (t : Fin cfg1.N) (h : ¬t.val = 0) (acc8 acc9 acc10 : Vec F S1x128 .f32) (y : S1x128.Idx) :
    ∃ pc ∈ (covAddAt V c t h acc8 acc9 acc10).1, y ∈ pc.1.set :=
  View.cover_of_tiledL (covAddAt V c t h acc8 acc9 acc10).1 S1x128.size (by sl_kernel_rfl) y
theorem covResetCover9 (c : Dev nD) (t : Fin cfg1.N) (h : t.val = 0) (y : S1x128.Idx) :
    ∃ pc ∈ (covResetAt V c t h).2.1, y ∈ pc.1.set :=
  View.cover_of_tiledL (covResetAt V c t h).2.1 S1x128.size (by sl_kernel_rfl) y
theorem covAddCover9 (c : Dev nD) (t : Fin cfg1.N) (h : ¬t.val = 0) (acc8 acc9 acc10 : Vec F S1x128 .f32) (y : S1x128.Idx) :
    ∃ pc ∈ (covAddAt V c t h acc8 acc9 acc10).2.1, y ∈ pc.1.set :=
  View.cover_of_tiledL (covAddAt V c t h acc8 acc9 acc10).2.1 S1x128.size (by sl_kernel_rfl) y
theorem covResetCover10 (c : Dev nD) (t : Fin cfg1.N) (h : t.val = 0) (y : S1x128.Idx) :
    ∃ pc ∈ (covResetAt V c t h).2.2.1, y ∈ pc.1.set :=
  View.cover_of_tiledL (covResetAt V c t h).2.2.1 S1x128.size (by sl_kernel_rfl) y
theorem covAddCover10 (c : Dev nD) (t : Fin cfg1.N) (h : ¬t.val = 0) (acc8 acc9 acc10 : Vec F S1x128 .f32) (y : S1x128.Idx) :
    ∃ pc ∈ (covAddAt V c t h acc8 acc9 acc10).2.2.1, y ∈ pc.1.set :=
  View.cover_of_tiledL (covAddAt V c t h acc8 acc9 acc10).2.2.1 S1x128.size (by sl_kernel_rfl) y

/-- THE ACCUMULATION: the three accumulators after the point numbered `n`. -/
def covAcc (c : Dev nD) : (n : ℕ) → n < cfg1.N → Vec F S1x128 .f32 × Vec F S1x128 .f32 × Vec F S1x128 .f32
  | 0, hn => (View.canon (covResetAt V c ⟨0, hn⟩ rfl).1, View.canon (covResetAt V c ⟨0, hn⟩ rfl).2.1, View.canon (covResetAt V c ⟨0, hn⟩ rfl).2.2.1)
  | n + 1, hn =>
      (View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).1,
       View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).2.1,
       View.canon (covAddAt V c ⟨n + 1, hn⟩ (Nat.succ_ne_zero n) (covAcc c n (Nat.lt_of_succ_lt hn)).1 (covAcc c n (Nat.lt_of_succ_lt hn)).2.1 (covAcc c n (Nat.lt_of_succ_lt hn)).2.2).2.2.1)

theorem covAcc_reset (c : Dev nD) (t : Fin cfg1.N) (h0 : t.val = 0) :
    covAcc V c t.val t.isLt = (View.canon (covResetAt V c t h0).1, View.canon (covResetAt V c t h0).2.1, View.canon (covResetAt V c t h0).2.2.1) := by
  obtain ⟨n, hn⟩ := t
  cases n with
  | zero => exact rfl
  | succ n => exact absurd h0 (Nat.succ_ne_zero n)

theorem covAcc_add (c : Dev nD) (t : Fin cfg1.N) (h0 : ¬t.val = 0) :
    covAcc V c t.val t.isLt
      = (View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).1,
         View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.1,
         View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.2.1) := by
  obtain ⟨n, hn⟩ := t
  cases n with
  | zero => exact absurd rfl h0
  | succ n => exact rfl

/-- The pass's proof data on core `c`: the arrays as found; each input window's buffer at its block; the
    accumulators at `covAcc`; each sample's array held by its two windows at the two halves of the full share;
    the class invariant; nothing owed. -/
def covDat (c : Dev nD) : Dat τ (Elt F) Unit ℕ (UR sig nD τ) ℕ cfg1 c where
  A w := V c (Pipeline.arrRef spec1 w)
  after w t := match w with
    | ⟨0, _⟩ => covBlk V c 0 t
    | ⟨1, _⟩ => covBlk V c 1 t
    | ⟨2, _⟩ => covBlk V c 2 t
    | ⟨3, _⟩ => covBlk V c 3 t
    | ⟨4, _⟩ => covBlk V c 4 t
    | ⟨5, _⟩ => covBlk V c 5 t
    | ⟨6, _⟩ => covBlk V c 6 t
    | ⟨7, _⟩ => covBlk V c 7 t
    | ⟨8, _⟩ => (covAcc V c t.val t.isLt).1
    | ⟨9, _⟩ => (covAcc V c t.val t.isLt).2.1
    | ⟨10, _⟩ => (covAcc V c t.val t.isLt).2.2
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem covA (c : Dev nD) (w : Fin cfg1.W) : (covDat V c).A w = V c (Pipeline.arrRef spec1 w) := by dsimp only [covDat]
theorem covAfter0 (c : Dev nD) (t : Fin cfg1.N) : (covDat V c).after 0 t = covBlk V c 0 t := by dsimp only [covDat]
theorem covAfter1 (c : Dev nD) (t : Fin cfg1.N) : (covDat V c).after 1 t = covBlk V c 1 t := by dsimp only [covDat]
theorem covAfter2 (c : Dev nD) (t : Fin cfg1.N) : (covDat V c).after 2 t = covBlk V c 2 t := by dsimp only [covDat]
theorem covAfter3 (c : Dev nD) (t : Fin cfg1.N) : (covDat V c).after 3 t = covBlk V c 3 t := by dsimp only [covDat]
theorem covAfter4 (c : Dev nD) (t : Fin cfg1.N) : (covDat V c).after 4 t = covBlk V c 4 t := by dsimp only [covDat]
theorem covAfter5 (c : Dev nD) (t : Fin cfg1.N) : (covDat V c).after 5 t = covBlk V c 5 t := by dsimp only [covDat]
theorem covAfter6 (c : Dev nD) (t : Fin cfg1.N) : (covDat V c).after 6 t = covBlk V c 6 t := by dsimp only [covDat]
theorem covAfter7 (c : Dev nD) (t : Fin cfg1.N) : (covDat V c).after 7 t = covBlk V c 7 t := by dsimp only [covDat]
theorem covAfter8 (c : Dev nD) (t : Fin cfg1.N) : (covDat V c).after 8 t = (covAcc V c t.val t.isLt).1 := by dsimp only [covDat]
theorem covAfter9 (c : Dev nD) (t : Fin cfg1.N) : (covDat V c).after 9 t = (covAcc V c t.val t.isLt).2.1 := by dsimp only [covDat]
theorem covAfter10 (c : Dev nD) (t : Fin cfg1.N) : (covDat V c).after 10 t = (covAcc V c t.val t.isLt).2.2 := by dsimp only [covDat]

theorem covDatBefore0 (c : Dev nD) (t : Fin cfg1.N) (d) : (covDat V c).before 0 t d = covBlk V c 0 t :=
  covBefore0 V (covDat V c) (covA V c 0) (covAfter0 V c) t d
theorem covDatBefore1 (c : Dev nD) (t : Fin cfg1.N) (d) : (covDat V c).before 1 t d = covBlk V c 1 t :=
  covBefore1 V (covDat V c) (covA V c 1) (covAfter1 V c) t d
theorem covDatBefore2 (c : Dev nD) (t : Fin cfg1.N) (d) : (covDat V c).before 2 t d = covBlk V c 2 t :=
  covBefore2 V (covDat V c) (covA V c 2) (covAfter2 V c) t d
theorem covDatBefore3 (c : Dev nD) (t : Fin cfg1.N) (d) : (covDat V c).before 3 t d = covBlk V c 3 t :=
  covBefore3 V (covDat V c) (covA V c 3) (covAfter3 V c) t d
theorem covDatBefore4 (c : Dev nD) (t : Fin cfg1.N) (d) : (covDat V c).before 4 t d = covBlk V c 4 t :=
  covBefore4 V (covDat V c) (covA V c 4) (covAfter4 V c) t d
theorem covDatBefore5 (c : Dev nD) (t : Fin cfg1.N) (d) : (covDat V c).before 5 t d = covBlk V c 5 t :=
  covBefore5 V (covDat V c) (covA V c 5) (covAfter5 V c) t d
theorem covDatBefore6 (c : Dev nD) (t : Fin cfg1.N) (d) : (covDat V c).before 6 t d = covBlk V c 6 t :=
  covBefore6 V (covDat V c) (covA V c 6) (covAfter6 V c) t d
theorem covDatBefore7 (c : Dev nD) (t : Fin cfg1.N) (d) : (covDat V c).before 7 t d = covBlk V c 7 t :=
  covBefore7 V (covDat V c) (covA V c 7) (covAfter7 V c) t d

/-- At a point other than the first, each accumulator's buffer holds what the body left at the point before:
    it was not written back between. -/
theorem covDatBefore8 (c : Dev nD) (t : Fin cfg1.N) (h0 : ¬t.val = 0) (d) :
    (covDat V c).before 8 t d = (covAcc V c (t.val - 1) (Nat.lt_of_le_of_lt (Nat.sub_le _ _) t.isLt)).1 := by
  have hN : t.val < 256 := lt_of_lt_of_eq t.isLt (show cfg1.N = 256 from N_1)
  rw [Dat.before_out_kept _ 8 rfl t (by omega) (Bool.eq_false_iff.mpr fun h => by have := (flush1_8 _).mp h; dsimp only at this; omega)
    (fun _ => rfl) (fun _ _ => rfl)]
  dsimp only [covDat]
theorem covDatBefore9 (c : Dev nD) (t : Fin cfg1.N) (h0 : ¬t.val = 0) (d) :
    (covDat V c).before 9 t d = (covAcc V c (t.val - 1) (Nat.lt_of_le_of_lt (Nat.sub_le _ _) t.isLt)).2.1 := by
  have hN : t.val < 256 := lt_of_lt_of_eq t.isLt (show cfg1.N = 256 from N_1)
  rw [Dat.before_out_kept _ 9 rfl t (by omega) (Bool.eq_false_iff.mpr fun h => by have := (flush1_9 _).mp h; dsimp only at this; omega)
    (fun _ => rfl) (fun _ _ => rfl)]
  dsimp only [covDat]
theorem covDatBefore10 (c : Dev nD) (t : Fin cfg1.N) (h0 : ¬t.val = 0) (d) :
    (covDat V c).before 10 t d = (covAcc V c (t.val - 1) (Nat.lt_of_le_of_lt (Nat.sub_le _ _) t.isLt)).2.2 := by
  have hN : t.val < 256 := lt_of_lt_of_eq t.isLt (show cfg1.N = 256 from N_1)
  rw [Dat.before_out_kept _ 10 rfl t (by omega) (Bool.eq_false_iff.mpr fun h => by have := (flush1_10 _).mp h; dsimp only at this; omega)
    (fun _ => rfl) (fun _ _ => rfl)]
  dsimp only [covDat]

end

end Cert.Kernel.Hand

end
-- ==== Proof.CovBodyB.lean ====
/-
  The covariance pass's body at any grid point meets what the pipeline asks of it: called with every window's
  current staging buffer at what the proof data says it holds there, it returns them at what the proof data says
  the body leaves. The point is either the first (the accumulators are reset) or not (they hold what the point
  before left, and are added to); the pipeline's invariant and the core's dues pass through untouched.
-/
import proofs.«133753_j71141838291708_1_alg».proof.Proof.CovDataB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V : (c : Dev nD) → (b : Ref sig .tc) → Buf (Elt F) ((c : Thread nD τ).loc b))

theorem covAcc_reset8 (c : Dev nD) (t : Fin cfg1.N) (h0 : t.val = 0) :
    (covAcc V c t.val t.isLt).1 = View.canon (covResetAt V c t h0).1 := congrArg (fun p => p.1) (covAcc_reset V c t h0)
theorem covAcc_add8 (c : Dev nD) (t : Fin cfg1.N) (h0 : ¬t.val = 0) :
    (covAcc V c t.val t.isLt).1 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).1 :=
  congrArg (fun p => p.1) (covAcc_add V c t h0)
theorem covAcc_reset9 (c : Dev nD) (t : Fin cfg1.N) (h0 : t.val = 0) :
    (covAcc V c t.val t.isLt).2.1 = View.canon (covResetAt V c t h0).2.1 := congrArg (fun p => p.2.1) (covAcc_reset V c t h0)
theorem covAcc_add9 (c : Dev nD) (t : Fin cfg1.N) (h0 : ¬t.val = 0) :
    (covAcc V c t.val t.isLt).2.1 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.1 :=
  congrArg (fun p => p.2.1) (covAcc_add V c t h0)
theorem covAcc_reset10 (c : Dev nD) (t : Fin cfg1.N) (h0 : t.val = 0) :
    (covAcc V c t.val t.isLt).2.2 = View.canon (covResetAt V c t h0).2.2.1 := congrArg (fun p => p.2.2) (covAcc_reset V c t h0)
theorem covAcc_add10 (c : Dev nD) (t : Fin cfg1.N) (h0 : ¬t.val = 0) :
    (covAcc V c t.val t.isLt).2.2 = View.canon (covAddAt V c t h0 (covAcc V c (t.val - 1) (Nat.lt_of_le_of_lt (Nat.sub_le _ _) t.isLt)).1 (covAcc V c (t.val - 1) (Nat.lt_of_le_of_lt (Nat.sub_le _ _) t.isLt)).2.1 (covAcc V c (t.val - 1) (Nat.lt_of_le_of_lt (Nat.sub_le _ _) t.isLt)).2.2).2.2.1 :=
  congrArg (fun p => p.2.2) (covAcc_add V c t h0)

/-- What the body is called with at point `t`, the windows one by one, -/
def covPre (c : Dev nD) (t : Fin cfg1.N) : sProp 𝕄 :=
  iprop((covDat V c).Φ t.castSucc ∗ (covDat V c).owesAt () t.castSucc
    ∗ (∃ d, owns (c : Thread nD τ) (cb0 t) fullShare ((covDat V c).before 0 t d))
    ∗ (∃ d, owns (c : Thread nD τ) (cb1 t) fullShare ((covDat V c).before 1 t d))
    ∗ (∃ d, owns (c : Thread nD τ) (cb2 t) fullShare ((covDat V c).before 2 t d))
    ∗ (∃ d, owns (c : Thread nD τ) (cb3 t) fullShare ((covDat V c).before 3 t d))
    ∗ (∃ d, owns (c : Thread nD τ) (cb4 t) fullShare ((covDat V c).before 4 t d))
    ∗ (∃ d, owns (c : Thread nD τ) (cb5 t) fullShare ((covDat V c).before 5 t d))
    ∗ (∃ d, owns (c : Thread nD τ) (cb6 t) fullShare ((covDat V c).before 6 t d))
    ∗ (∃ d, owns (c : Thread nD τ) (cb7 t) fullShare ((covDat V c).before 7 t d))
    ∗ (∃ d, owns (c : Thread nD τ) (cb8 t) fullShare ((covDat V c).before 8 t d))
    ∗ (∃ d, owns (c : Thread nD τ) (cb9 t) fullShare ((covDat V c).before 9 t d))
    ∗ (∃ d, owns (c : Thread nD τ) (cb10 t) fullShare ((covDat V c).before 10 t d)))

/-- and what it returns. -/
def covPost (c : Dev nD) (t : Fin cfg1.N) : sProp 𝕄 :=
  iprop((covDat V c).Φ t.succ ∗ (covDat V c).owesAt () t.succ
    ∗ owns (c : Thread nD τ) (cb0 t) fullShare ((covDat V c).after 0 t)
    ∗ owns (c : Thread nD τ) (cb1 t) fullShare ((covDat V c).after 1 t)
    ∗ owns (c : Thread nD τ) (cb2 t) fullShare ((covDat V c).after 2 t)
    ∗ owns (c : Thread nD τ) (cb3 t) fullShare ((covDat V c).after 3 t)
    ∗ owns (c : Thread nD τ) (cb4 t) fullShare ((covDat V c).after 4 t)
    ∗ owns (c : Thread nD τ) (cb5 t) fullShare ((covDat V c).after 5 t)
    ∗ owns (c : Thread nD τ) (cb6 t) fullShare ((covDat V c).after 6 t)
    ∗ owns (c : Thread nD τ) (cb7 t) fullShare ((covDat V c).after 7 t)
    ∗ owns (c : Thread nD τ) (cb8 t) fullShare ((covDat V c).after 8 t)
    ∗ owns (c : Thread nD τ) (cb9 t) fullShare ((covDat V c).after 9 t)
    ∗ owns (c : Thread nD τ) (cb10 t) fullShare ((covDat V c).after 10 t))

set_option maxHeartbeats 3200000 in
theorem covBodySound (c : Dev nD) (t : Fin cfg1.N) :
    covPre V c t ⊢ wp frame (wpE (defs₀ (F := F)) Variants.none c none) Set.univ (bodyAt1 t) (fun _ => covPost V c t) := by
  unfold covPre covPost bodyAt1
  simp only [covDatBefore0, covDatBefore1, covDatBefore2, covDatBefore3, covDatBefore4, covDatBefore5, covDatBefore6, covDatBefore7]
  rw [show (covDat V c).Φ t.succ = (covDat V c).Φ t.castSucc from rfl,
    show (covDat V c).owesAt () t.succ = (covDat V c).owesAt () t.castSucc from rfl,
    covAfter0, covAfter1, covAfter2, covAfter3, covAfter4, covAfter5, covAfter6, covAfter7, covAfter8, covAfter9, covAfter10]
  by_cases h0 : t.val = 0
  · rw [covAcc_reset8 V c t h0, covAcc_reset9 V c t h0, covAcc_reset10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((covResetAt V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covResetCover8 V c t h0)
    isplitl [H9]
    · unfold owns; iexists _; isplitr
      swap; · iexact H9
      ipureintro; exact View.read_writes_eq_canon _ _ _ (covResetCover9 V c t h0)
    unfold owns; iexists _; isplitr
    swap; · iexact H10
    ipureintro; exact View.read_writes_eq_canon _ _ _ (covResetCover10 V c t h0)
  · rw [covAcc_add8 V c t h0, covAcc_add9 V c t h0, covAcc_add10 V c t h0]
    simp only [covDatBefore8 V c t h0, covDatBefore9 V c t h0, covDatBefore10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((covAddAt V c t h0 _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (covAddCover8 V c t h0 _ _ _)
    isplitl [H9]
    · unfold owns; iexists _; isplitr
      swap; · iexact H9
      ipureintro; exact View.read_writes_eq_canon _ _ _ (covAddCover9 V c t h0 _ _ _)
    unfold owns; iexists _; isplitr
    swap; · iexact H10
    ipureintro; exact View.read_writes_eq_canon _ _ _ (covAddCover10 V c t h0 _ _ _)

/-- The library's body obligation, at every point. -/
theorem covBodyObligation (c : Dev nD) : BodyObligation (covDat (F := F) V c) (defs₀ (F := F)) Variants.none () Set.univ := fun t => by
  rw [bigSep_W1, bigSep_W1]
  exact covBodySound V c t

end

end Cert.Kernel.Hand

end
-- ==== Proof.CovSegB.lean ====
/-
  The covariance pass also hands each sample to two windows, so its eleven windows stand on nine distinct
  buffers: the two samples, the two row-centring columns, the two column-centring rows and the three results.
  Entering the pass each sample's buffer is split into the two halves of the full share; leaving it they are
  joined again, every input buffer still at the contents the pass found, each result's at what the one
  write-back left in it.
-/
import proofs.«133753_j71141838291708_1_alg».proof.Proof.CovBodyB
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (V V' : (c : Dev nD) → (b : Ref sig .tc) → Buf (Elt F) ((c : Thread nD τ).loc b))

/-- The buffers behind the windows. -/
theorem covArrRefs : (Finset.univ.image (Pipeline.arrRef spec1) : Finset (Ref sig .tc))
    = insert main_arg0 (insert main_arg1 (insert main_v15 (insert main_v16 (insert main_v19 (insert main_v20 (insert main_v21_0 (insert main_v21_1 ({main_v21_2})))))))) := by decide +kernel

set_option maxHeartbeats 1600000 in
/-- The windows' arrays at contents `G`, window by window, each on its whole buffer at its share. -/
theorem covArrays_eq (c : Dev nD) (G : (w : Fin cfg1.W) → Buf (Elt F) ((cfg1.win w).arr.view.loc (c : Thread nD τ))) :
    (covDat V c).arrays G
      = iprop((((c : Thread nD τ).loc main_arg0) ↦{fullShare.left} G 0)
          ∗ (((c : Thread nD τ).loc main_arg0) ↦{fullShare.right} G 1)
          ∗ (((c : Thread nD τ).loc main_arg1) ↦{fullShare.left} G 2)
          ∗ (((c : Thread nD τ).loc main_arg1) ↦{fullShare.right} G 3)
          ∗ (((c : Thread nD τ).loc main_v15) ↦{fullShare} G 4)
          ∗ (((c : Thread nD τ).loc main_v16) ↦{fullShare} G 5)
          ∗ (((c : Thread nD τ).loc main_v19) ↦{fullShare} G 6)
          ∗ (((c : Thread nD τ).loc main_v20) ↦{fullShare} G 7)
          ∗ (((c : Thread nD τ).loc main_v21_0) ↦{fullShare} G 8)
          ∗ (((c : Thread nD τ).loc main_v21_1) ↦{fullShare} G 9)
          ∗ (((c : Thread nD τ).loc main_v21_2) ↦{fullShare} G 10)) := by
  unfold Dat.arrays
  rw [bigSep_W1, (arr_whole1 0).set_eq_univ, (arr_whole1 2).set_eq_univ, (arr_whole1 4).set_eq_univ, (arr_whole1 5).set_eq_univ, (arr_whole1 6).set_eq_univ, (arr_whole1 7).set_eq_univ, (arr_whole1 8).set_eq_univ, (arr_whole1 9).set_eq_univ, (arr_whole1 10).set_eq_univ]
  rfl

set_option maxHeartbeats 1600000 in
/-- The nine buffers behind the windows, each whole at the full share, one by one. -/
theorem covBufs_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0)
          ∗ (((c : Thread nD τ).loc main_arg1) ↦{fullShare} W main_arg1)
          ∗ (((c : Thread nD τ).loc main_v15) ↦{fullShare} W main_v15)
          ∗ (((c : Thread nD τ).loc main_v16) ↦{fullShare} W main_v16)
          ∗ (((c : Thread nD τ).loc main_v19) ↦{fullShare} W main_v19)
          ∗ (((c : Thread nD τ).loc main_v20) ↦{fullShare} W main_v20)
          ∗ (((c : Thread nD τ).loc main_v21_0) ↦{fullShare} W main_v21_0)
          ∗ (((c : Thread nD τ).loc main_v21_1) ↦{fullShare} W main_v21_1)
          ∗ (((c : Thread nD τ).loc main_v21_2) ↦{fullShare} W main_v21_2)) := by
  classical
  unfold Pipeline.arrBufs
  rw [covArrRefs, bigSep_insert (by decide +kernel), bigSep_insert (by decide +kernel), bigSep_insert (by decide +kernel), bigSep_insert (by decide +kernel), bigSep_insert (by decide +kernel), bigSep_insert (by decide +kernel), bigSep_insert (by decide +kernel), bigSep_insert (by decide +kernel), bigSep_singleton]
  rfl

set_option maxHeartbeats 1600000 in
/-- ENTRY: the nine buffers at the contents the pass finds make the eleven windows' arrays at those contents. -/
theorem covArraysEntry (c : Dev nD) :
    (Pipeline.arrBufs spec1 c (V c) : sProp 𝕄) ⊢ (covDat V c).arrays ((covDat V c).arrAt · 0) := by
  classical
  rw [covArrays_eq, covBufs_eq]
  iintro ⟨Hx, Hy, H4, H5, H6, H7, H8, H9, H10⟩
  ihave Hx' := (pointsTo_share (PosShare.mem_left_op_right fullShare)).1 $$ Hx
  ihave Hy' := (pointsTo_share (PosShare.mem_left_op_right fullShare)).1 $$ Hy
  icases Hx' with ⟨Hx0, Hx1⟩
  icases Hy' with ⟨Hy0, Hy1⟩
  isplitl [Hx0]; · iexact Hx0
  isplitl [Hx1]; · iexact Hx1
  isplitl [Hy0]; · iexact Hy0
  isplitl [Hy1]; · iexact Hy1
  isplitl [H4]; · iexact H4
  isplitl [H5]; · iexact H5
  isplitl [H6]; · iexact H6
  isplitl [H7]; · iexact H7
  isplitl [H8]; · iexact H8
  isplitl [H9]; · iexact H9
  iexact H10

set_option maxHeartbeats 3200000 in
/-- EXIT: the eleven windows' arrays after the last point make the nine buffers at any contents `V'` that keep
    every input as found and hold each result at what the write-back left. -/
theorem covArraysExit (c : Dev nD)
    (hx : V' c main_arg0 = V c main_arg0) (hy : V' c main_arg1 = V c main_arg1)
    (h15 : V' c main_v15 = V c main_v15) (h16 : V' c main_v16 = V c main_v16)
    (h19 : V' c main_v19 = V c main_v19) (h20 : V' c main_v20 = V c main_v20)
    (h8 : V' c main_v21_0 = (covDat V c).arrAt 8 cfg1.N) (h9 : V' c main_v21_1 = (covDat V c).arrAt 9 cfg1.N)
    (h10 : V' c main_v21_2 = (covDat V c).arrAt 10 cfg1.N) :
    (covDat V c).arrays ((covDat V c).arrAt · cfg1.N) ⊢ (Pipeline.arrBufs spec1 c (V' c) : sProp 𝕄) := by
  classical
  rw [covArrays_eq, covBufs_eq, hx, hy, h15, h16, h19, h20, h8, h9, h10,
    show (covDat V c).arrAt 0 cfg1.N = V c main_arg0 from ((covDat V c).arrAt_in 0 rfl _).trans (covA V c 0),
    show (covDat V c).arrAt 1 cfg1.N = V c main_arg0 from ((covDat V c).arrAt_in 1 rfl _).trans (covA V c 1),
    show (covDat V c).arrAt 2 cfg1.N = V c main_arg1 from ((covDat V c).arrAt_in 2 rfl _).trans (covA V c 2),
    show (covDat V c).arrAt 3 cfg1.N = V c main_arg1 from ((covDat V c).arrAt_in 3 rfl _).trans (covA V c 3),
    show (covDat V c).arrAt 4 cfg1.N = V c main_v15 from ((covDat V c).arrAt_in 4 rfl _).trans (covA V c 4),
    show (covDat V c).arrAt 5 cfg1.N = V c main_v16 from ((covDat V c).arrAt_in 5 rfl _).trans (covA V c 5),
    show (covDat V c).arrAt 6 cfg1.N = V c main_v19 from ((covDat V c).arrAt_in 6 rfl _).trans (covA V c 6),
    show (covDat V c).arrAt 7 cfg1.N = V c main_v20 from ((covDat V c).arrAt_in 7 rfl _).trans (covA V c 7)]
  iintro ⟨Hx0, Hx1, Hy0, Hy1, H4, H5, H6, H7, H8, H9, H10⟩
  isplitl [Hx0 Hx1]
  · iapply (pointsTo_share (PosShare.mem_left_op_right fullShare)).2
    isplitl [Hx0]; · iexact Hx0
    iexact Hx1
  isplitl [Hy0 Hy1]
  · iapply (pointsTo_share (PosShare.mem_left_op_right fullShare)).2
    isplitl [Hy0]; · iexact Hy0
    iexact Hy1
  isplitl [H4]; · iexact H4
  isplitl [H5]; · iexact H5
  isplitl [H6]; · iexact H6
  isplitl [H7]; · iexact H7
  isplitl [H8]; · iexact H8
  isplitl [H9]; · iexact H9
  iexact H10

end

end Cert.Kernel.Hand

end
-- ==== Proof.RunB.lean ====
/-
  @main as four segments — the row-sum pass, the host operations between the passes, the covariance pass, the
  host operations after it — over the contents of the core's unscoped buffers at each boundary:
    at launch; after the row-sum pass (the two results at what its write-backs left, everything else as
    launched); after the host operations between (their fold); after the covariance pass (its three results
    at what the one write-back left); after the last host operations (their fold).
  Every weakly fair execution from any memory with zero counters terminates, and at the end every unscoped
  buffer holds the last of these contents.
-/
import proofs.«133753_j71141838291708_1_alg».proof.Proof.RowSegB
import proofs.«133753_j71141838291708_1_alg».proof.Proof.CovSegB
import proofs.«133753_j71141838291708_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section

variable (m : (ℓ : Loc nD τ sig) → Buf (Elt F) ℓ) (ρ : Dev nD → PrngReg)

/-! ## The buffers' contents at each boundary -/

/-- At launch. -/
abbrev Wa : Dev nD → Valuation τ sig (Elt F) := fun c b => (s₀ m ρ).mem ((c : Dev nD), b)
abbrev Va : (c : Dev nD) → (b : Ref sig .tc) → Buf (Elt F) ((c : Thread nD τ).loc b) := fun c b => Wa m ρ c b
/-- After the row-sum pass. -/
def Wb (c : Dev nD) : Valuation τ sig (Elt F) :=
  Function.update (Function.update (Wa m ρ c) main_v0_0 ((rowDat (Va m ρ) c).arrAt 4 cfg0.N)) main_v0_1 ((rowDat (Va m ρ) c).arrAt 5 cfg0.N)
abbrev Vb : (c : Dev nD) → (b : Ref sig .tc) → Buf (Elt F) ((c : Thread nD τ).loc b) := fun c b => Wb m ρ c b
/-- After the host operations between the passes. -/
abbrev Wc : Dev nD → Valuation τ sig (Elt F) := fun c => StableHlo.after hostOps1 (Wb m ρ c)
abbrev Vc : (c : Dev nD) → (b : Ref sig .tc) → Buf (Elt F) ((c : Thread nD τ).loc b) := fun c b => Wc m ρ c b
/-- After the covariance pass. -/
def Wd (c : Dev nD) : Valuation τ sig (Elt F) :=
  Function.update (Function.update (Function.update (Wc m ρ c) main_v21_0 ((covDat (Vc m ρ) c).arrAt 8 cfg1.N))
    main_v21_1 ((covDat (Vc m ρ) c).arrAt 9 cfg1.N)) main_v21_2 ((covDat (Vc m ρ) c).arrAt 10 cfg1.N)
abbrev Vd : (c : Dev nD) → (b : Ref sig .tc) → Buf (Elt F) ((c : Thread nD τ).loc b) := fun c b => Wd m ρ c b
/-- After the last host operations. -/
abbrev We : Dev nD → Valuation τ sig (Elt F) := fun c => StableHlo.after hostOps2 (Wd m ρ c)

theorem Wb_of (c : Dev nD) (r : Ref sig .tc) (h : r ∉ ([main_v0_0, main_v0_1] : List (Ref sig .tc))) : Wb m ρ c r = Wa m ρ c r := by
  simp only [Wb, Function.update_of_ne (StableHlo.devRef_ne_of_ne (List.ne_of_not_mem_cons h) : (Proc.devRef .tc r : DevRef τ sig) ≠ Proc.devRef .tc main_v0_0),
    Function.update_of_ne (StableHlo.devRef_ne_of_ne (List.ne_of_not_mem_cons (List.not_mem_of_not_mem_cons h)) : (Proc.devRef .tc r : DevRef τ sig) ≠ Proc.devRef .tc main_v0_1)]
theorem Wb_v0_1 (c : Dev nD) : Wb m ρ c main_v0_1 = (rowDat (Va m ρ) c).arrAt 5 cfg0.N := by
  unfold Wb; exact Function.update_self ..
theorem Wb_v0_0 (c : Dev nD) : Wb m ρ c main_v0_0 = (rowDat (Va m ρ) c).arrAt 4 cfg0.N := by
  unfold Wb
  rw [Function.update_of_ne (StableHlo.devRef_ne_of_ne (by decide) : (Proc.devRef .tc main_v0_0 : DevRef τ sig) ≠ Proc.devRef .tc main_v0_1)]
  exact Function.update_self ..
theorem Wc_of (c : Dev nD) (r : Ref sig .tc) (h : r ∉ hostOps1_W) : Wc m ρ c r = Wb m ρ c r :=
  StableHlo.after_of_writes_sub hostOps1 _ hostOps1_writes h
theorem Wd_of (c : Dev nD) (r : Ref sig .tc) (h : r ∉ ([main_v21_0, main_v21_1, main_v21_2] : List (Ref sig .tc))) : Wd m ρ c r = Wc m ρ c r := by
  simp only [Wd, Function.update_of_ne (StableHlo.devRef_ne_of_ne (List.ne_of_not_mem_cons h) : (Proc.devRef .tc r : DevRef τ sig) ≠ Proc.devRef .tc main_v21_0),
    Function.update_of_ne (StableHlo.devRef_ne_of_ne (List.ne_of_not_mem_cons (List.not_mem_of_not_mem_cons h)) : (Proc.devRef .tc r : DevRef τ sig) ≠ Proc.devRef .tc main_v21_1),
    Function.update_of_ne (StableHlo.devRef_ne_of_ne (List.ne_of_not_mem_cons (List.not_mem_of_not_mem_cons (List.not_mem_of_not_mem_cons h))) : (Proc.devRef .tc r : DevRef τ sig) ≠ Proc.devRef .tc main_v21_2)]
theorem Wd_v21_2 (c : Dev nD) : Wd m ρ c main_v21_2 = (covDat (Vc m ρ) c).arrAt 10 cfg1.N := by
  unfold Wd; exact Function.update_self ..
theorem Wd_v21_1 (c : Dev nD) : Wd m ρ c main_v21_1 = (covDat (Vc m ρ) c).arrAt 9 cfg1.N := by
  unfold Wd
  rw [Function.update_of_ne (StableHlo.devRef_ne_of_ne (by decide) : (Proc.devRef .tc main_v21_1 : DevRef τ sig) ≠ Proc.devRef .tc main_v21_2)]
  exact Function.update_self ..
theorem Wd_v21_0 (c : Dev nD) : Wd m ρ c main_v21_0 = (covDat (Vc m ρ) c).arrAt 8 cfg1.N := by
  unfold Wd
  rw [Function.update_of_ne (StableHlo.devRef_ne_of_ne (by decide) : (Proc.devRef .tc main_v21_0 : DevRef τ sig) ≠ Proc.devRef .tc main_v21_2),
    Function.update_of_ne (StableHlo.devRef_ne_of_ne (by decide) : (Proc.devRef .tc main_v21_0 : DevRef τ sig) ≠ Proc.devRef .tc main_v21_1)]
  exact Function.update_self ..
theorem We_of (c : Dev nD) (r : Ref sig .tc) (h : r ∉ hostOps2_W) : We m ρ c r = Wd m ρ c r :=
  StableHlo.after_of_writes_sub hostOps2 _ hostOps2_writes h

/-- Neither pass and no host operation writes a sample: each reaches the end as launched. -/
theorem We_main_arg0 (c : Dev nD) : We m ρ c main_arg0 = m ((c : Thread nD τ).loc main_arg0) :=
  (We_of m ρ c main_arg0 (by decide)).trans <| (Wd_of m ρ c main_arg0 (by decide)).trans <| (Wc_of m ρ c main_arg0 (by decide)).trans <| (Wb_of m ρ c main_arg0 (by decide)).trans rfl
theorem We_main_arg1 (c : Dev nD) : We m ρ c main_arg1 = m ((c : Thread nD τ).loc main_arg1) :=
  (We_of m ρ c main_arg1 (by decide)).trans <| (Wd_of m ρ c main_arg1 (by decide)).trans <| (Wc_of m ρ c main_arg1 (by decide)).trans <| (Wb_of m ρ c main_arg1 (by decide)).trans rfl

/-! ## The proof data family and the thread state -/

/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => rowDat (Va m ρ) c
  | ⟨1, _⟩ => fun c => covDat (Vc m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (We m ρ c) ∗ ∃ r, prngReg c r)

/-! ## The passes as segments -/

set_option backward.isDefEq.respectTransparency.types false in
def rowRegion : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (rowBodyObligation (Va m ρ) c).loose
  hwaits := Pipeline.hwaits_of_owed_zero _ _ _ _ L lv 0 fun _ _ => rfl
  pre c := iprop(StableHlo.held (c : Thread nD τ) (Pipeline.ucRefs τ sig) (Wa m ρ c) ∗ R c)
  post c := iprop(StableHlo.held (c : Thread nD τ) (Pipeline.ucRefs τ sig) (Wb m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit : (unscopedBufs (Ix := Unit) (Name := ℕ) (U := UR sig nD τ) (Lvl := ℕ) c (Va m ρ c) : sProp 𝕄)
        ⊢ iprop((pdats m ρ 0 c).arrays ((pdats m ρ 0 c).arrAt · 0) ∗ Pipeline.unscopedRest spec0 c (Va m ρ c)) := by
      rw [Pipeline.unscopedBufs_split₀ cfgs 0 winFacts₀0.arr_unscoped c (Va m ρ c)]
      exact sep_mono (rowArraysEntry (Va m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (Va m ρ c))
        ⊢ (unscopedBufs (Ix := Unit) (Name := ℕ) (U := UR sig nD τ) (Lvl := ℕ) c (Vb m ρ c) : sProp 𝕄) := by
      rw [Pipeline.unscopedBufs_split₀ cfgs 0 winFacts₀0.arr_unscoped c (Vb m ρ c)]
      refine sep_mono (rowArraysExit (Va m ρ) (Vb m ρ) c (Wb_of m ρ c main_arg0 (by decide)) (Wb_of m ρ c main_arg1 (by decide))
        (Wb_v0_0 m ρ c) (Wb_v0_1 m ρ c)) (Entails.of_eq ?_)
      unfold Pipeline.unscopedRest
      exact bigSep_congr fun b hb => by
        rw [show Vb m ρ c b = Va m ρ c b from Wb_of m ρ c b (fun hmem => (Finset.mem_sdiff.mp hb).2 (by
          rw [rowArrRefs]; rcases List.mem_cons.mp hmem with rfl | hmem
          · decide
          · rcases List.mem_cons.mp hmem with rfl | hmem
            · decide
            · exact absurd hmem List.not_mem_nil))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def covRegion : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (covBodyObligation (Vc m ρ) c).loose
  hwaits := Pipeline.hwaits_of_owed_zero _ _ _ _ L lv 1 fun _ _ => rfl
  pre c := iprop(StableHlo.held (c : Thread nD τ) (Pipeline.ucRefs τ sig) (Wc m ρ c) ∗ R c)
  post c := iprop(StableHlo.held (c : Thread nD τ) (Pipeline.ucRefs τ sig) (Wd m ρ c) ∗ R c)
  X c := iprop(∃ r, prngReg c r)
  Y c := iprop(∃ r, prngReg c r)
  Z c := Pipeline.unscopedRest (Ix := Unit) (Name := ℕ) (U := UR sig nD τ) (Lvl := ℕ) spec1 c (Vc m ρ c)
  hentry c := by
    rw [Pipeline.ownSems0_none]
    have hsplit : (unscopedBufs (Ix := Unit) (Name := ℕ) (U := UR sig nD τ) (Lvl := ℕ) c (Vc m ρ c) : sProp 𝕄)
        ⊢ iprop((pdats m ρ 1 c).arrays ((pdats m ρ 1 c).arrAt · 0) ∗ Pipeline.unscopedRest spec1 c (Vc m ρ c)) := by
      rw [Pipeline.unscopedBufs_split₀ cfgs 1 winFacts₀1.arr_unscoped c (Vc m ρ c)]
      exact sep_mono (covArraysEntry (Vc m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (Vc m ρ c))
        ⊢ (unscopedBufs (Ix := Unit) (Name := ℕ) (U := UR sig nD τ) (Lvl := ℕ) c (Vd m ρ c) : sProp 𝕄) := by
      rw [Pipeline.unscopedBufs_split₀ cfgs 1 winFacts₀1.arr_unscoped c (Vd m ρ c)]
      refine sep_mono (covArraysExit (Vc m ρ) (Vd m ρ) c (Wd_of m ρ c main_arg0 (by decide)) (Wd_of m ρ c main_arg1 (by decide))
        (Wd_of m ρ c main_v15 (by decide)) (Wd_of m ρ c main_v16 (by decide)) (Wd_of m ρ c main_v19 (by decide)) (Wd_of m ρ c main_v20 (by decide))
        (Wd_v21_0 m ρ c) (Wd_v21_1 m ρ c) (Wd_v21_2 m ρ c)) (Entails.of_eq ?_)
      unfold Pipeline.unscopedRest
      exact bigSep_congr fun b hb => by
        rw [show Vd m ρ c b = Vc m ρ c b from Wd_of m ρ c b (fun hmem => (Finset.mem_sdiff.mp hb).2 (by
          rw [covArrRefs]; rcases List.mem_cons.mp hmem with rfl | hmem
          · decide
          · rcases List.mem_cons.mp hmem with rfl | hmem
            · decide
            · rcases List.mem_cons.mp hmem with rfl | hmem
              · decide
              · exact absurd hmem List.not_mem_nil))]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (rowRegion m ρ),
    .host (hseg hostOps1 hostOps1_sub hostOps1_fresh (Wb m ρ)),
    .region (covRegion m ρ),
    .host (hseg hostOps2 hostOps2_sub hostOps2_fresh (Wd m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = We m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m ρ c) ∗ R c)) (Tₙ := Tend m ρ)
    (hch := ⟨fun _ => .rfl, fun _ => .rfl, fun _ => .rfl, fun _ => .rfl, fun c => by
      show (iprop(StableHlo.held (c : Thread nD τ) (Pipeline.ucRefs τ sig) (We m ρ c) ∗ R c) : sProp 𝕄) ⊢ _
      iintro ⟨Hh, ⟨Hp, HO⟩⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Wa m ρ c)
        from Pipeline.unscopedBufs_held c (Wa m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = We m ρ c b)
    (hfin := fun c s' => by
      iintro ⟨⟨Hh, -⟩, HSI⟩
      unfold StableHlo.held
      imodintro
      iapply (pointsTo_read_all (Pipeline.ucRefs τ sig) (fun b => (((c : Thread nD τ)).1, b)) (We m ρ c) s')
      isplitl [Hh] <;> iassumption)
    (hQ := fun s h c => h c)

/-- THE FRAME: the samples end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (We_main_arg0 m ρ c),
     (h c _ (mem_uc main_arg1 (by decide))).trans (We_main_arg1 m ρ c)⟩) (run_all m ρ)

end

end Cert.Kernel.Hand

end
-- ==== Proof.RowArrays.lean ====
/-
  The row-sum pass: its blocks and its final arrays, index by index.

  The grid is 16 × 16 and point t is (t / 16, t % 16). The windows that follow the first grid coordinate read rows
  512·(t / 16) … of a sample, those that follow the second read rows 512·(t % 16) …; a block's entry (r, k) is the
  sample's entry (512·q + r, k). Each accumulator's block I = t / 16 is written back once, after the last point of row I
  of the grid (point 16·I + 15), with the accumulator's contents there; the sixteen blocks tile the result array, so its
  entry (i, l) is entry (i % 512, l) of the accumulator after point 16·(i / 512) + 15.
-/
import proofs.«133753_j71141838291708_1_alg».proof.Proof.RowData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## The index maps, decided over the grid -/

theorem rowIdx0 : ∀ t : Fin cfg0.N, win0_0.index t (0 : Fin 2) = t.val / 16 ∧ win0_0.index t (1 : Fin 2) = 0 :=
  (by decide +kernel : ∀ t : Fin grid0.N, _)
theorem rowIdx1 : ∀ t : Fin cfg0.N, win0_1.index t (0 : Fin 2) = t.val % 16 ∧ win0_1.index t (1 : Fin 2) = 0 :=
  (by decide +kernel : ∀ t : Fin grid0.N, _)
theorem rowIdx2 : ∀ t : Fin cfg0.N, win0_2.index t (0 : Fin 2) = t.val / 16 ∧ win0_2.index t (1 : Fin 2) = 0 :=
  (by decide +kernel : ∀ t : Fin grid0.N, _)
theorem rowIdx3 : ∀ t : Fin cfg0.N, win0_3.index t (0 : Fin 2) = t.val % 16 ∧ win0_3.index t (1 : Fin 2) = 0 :=
  (by decide +kernel : ∀ t : Fin grid0.N, _)
theorem rowIdx4 : ∀ t : Fin cfg0.N, win0_4.index t (0 : Fin 2) = t.val / 16 ∧ win0_4.index t (1 : Fin 2) = 0 :=
  (by decide +kernel : ∀ t : Fin grid0.N, _)
theorem rowIdx5 : ∀ t : Fin cfg0.N, win0_5.index t (0 : Fin 2) = t.val / 16 ∧ win0_5.index t (1 : Fin 2) = 0 :=
  (by decide +kernel : ∀ t : Fin grid0.N, _)

section

variable (V : (c : Dev nD) → (b : Ref sig .tc) → Buf (Elt F) ((c : Thread nD τ).loc b))

/-! ## The input blocks read at an index -/

theorem rowBlk0_apply (c : Dev nD) (t : Fin cfg0.N) (r : Fin 512) (k : Fin 128) :
    (rowBlk V c 0 t : S512x128.Idx → Elt F .f32) (ix2 r k)
      = (V c main_arg0 : S8192x128.Idx → Elt F .f32)
          (ix2 ⟨512 * (t.val / 16) + r.val, by have := t.isLt; have hN : cfg0.N = 256 := N_0; have := r.isLt; omega⟩ k) := by
  obtain ⟨h0, h1⟩ := rowIdx0 t
  unfold rowBlk
  rw [View.read_apply]
  show V c main_arg0 _ = V c main_arg0 _
  congr 1
  funext a
  apply Fin.ext
  match a with
  | ⟨0, _⟩ => show win0_0.index t (0 : Fin 2) * 512 + 1 * r.val = 512 * (t.val / 16) + r.val; rw [h0]; omega
  | ⟨1, _⟩ => show win0_0.index t (1 : Fin 2) * 128 + 1 * k.val = k.val; rw [h1]; omega

theorem rowBlk1_apply (c : Dev nD) (t : Fin cfg0.N) (r : Fin 512) (k : Fin 128) :
    (rowBlk V c 1 t : S512x128.Idx → Elt F .f32) (ix2 r k)
      = (V c main_arg0 : S8192x128.Idx → Elt F .f32)
          (ix2 ⟨512 * (t.val % 16) + r.val, by have := t.isLt; have hN : cfg0.N = 256 := N_0; have := r.isLt; omega⟩ k) := by
  obtain ⟨h0, h1⟩ := rowIdx1 t
  unfold rowBlk
  rw [View.read_apply]
  show V c main_arg0 _ = V c main_arg0 _
  congr 1
  funext a
  apply Fin.ext
  match a with
  | ⟨0, _⟩ => show win0_1.index t (0 : Fin 2) * 512 + 1 * r.val = 512 * (t.val % 16) + r.val; rw [h0]; omega
  | ⟨1, _⟩ => show win0_1.index t (1 : Fin 2) * 128 + 1 * k.val = k.val; rw [h1]; omega

theorem rowBlk2_apply (c : Dev nD) (t : Fin cfg0.N) (r : Fin 512) (k : Fin 128) :
    (rowBlk V c 2 t : S512x128.Idx → Elt F .f32) (ix2 r k)
      = (V c main_arg1 : S8192x128.Idx → Elt F .f32)
          (ix2 ⟨512 * (t.val / 16) + r.val, by have := t.isLt; have hN : cfg0.N = 256 := N_0; have := r.isLt; omega⟩ k) := by
  obtain ⟨h0, h1⟩ := rowIdx2 t
  unfold rowBlk
  rw [View.read_apply]
  show V c main_arg1 _ = V c main_arg1 _
  congr 1
  funext a
  apply Fin.ext
  match a with
  | ⟨0, _⟩ => show win0_2.index t (0 : Fin 2) * 512 + 1 * r.val = 512 * (t.val / 16) + r.val; rw [h0]; omega
  | ⟨1, _⟩ => show win0_2.index t (1 : Fin 2) * 128 + 1 * k.val = k.val; rw [h1]; omega

theorem rowBlk3_apply (c : Dev nD) (t : Fin cfg0.N) (r : Fin 512) (k : Fin 128) :
    (rowBlk V c 3 t : S512x128.Idx → Elt F .f32) (ix2 r k)
      = (V c main_arg1 : S8192x128.Idx → Elt F .f32)
          (ix2 ⟨512 * (t.val % 16) + r.val, by have := t.isLt; have hN : cfg0.N = 256 := N_0; have := r.isLt; omega⟩ k) := by
  obtain ⟨h0, h1⟩ := rowIdx3 t
  unfold rowBlk
  rw [View.read_apply]
  show V c main_arg1 _ = V c main_arg1 _
  congr 1
  funext a
  apply Fin.ext
  match a with
  | ⟨0, _⟩ => show win0_3.index t (0 : Fin 2) * 512 + 1 * r.val = 512 * (t.val % 16) + r.val; rw [h0]; omega
  | ⟨1, _⟩ => show win0_3.index t (1 : Fin 2) * 128 + 1 * k.val = k.val; rw [h1]; omega

/-! ## Result window 4 -/

/-- What the result array ends holding: entry (i, l) is the accumulator's entry (i % 512, l) after the last point of
    row i / 512 of the grid. -/
def rowG4 (c : Dev nD) : S8192x128.Idx → Elt F .f32 := fun i =>
  (rowAcc V c (16 * ((i 0).val / 512) + 15) (by have hi : (i 0).val < 8192 := (i 0).isLt; have hN : cfg0.N = 256 := N_0; omega)).1
    (ix2 ⟨(i 0).val % 512, Nat.mod_lt _ (by decide)⟩ (i 1))

theorem rowG4_at (c : Dev nD) (i : S8192x128.Idx) (n : ℕ) (hn : n < cfg0.N) (y : S512x128.Idx)
    (e1 : 16 * ((i 0).val / 512) + 15 = n) (e2 : (i 0).val % 512 = (y 0).val) (e3 : (i 1).val = (y 1).val) :
    rowG4 V c i = (rowAcc V c n hn).1 y := by
  subst e1
  have ey : (ix2 ⟨(i 0).val % 512, Nat.mod_lt _ (by decide)⟩ (i 1) : S512x128.Idx) = y :=
    funext fun a => Fin.ext (by match a with | ⟨0, _⟩ => exact e2 | ⟨1, _⟩ => exact e3)
  unfold rowG4
  rw [ey]

/-- An index of the array is in point `t`'s block iff each coordinate is in the block's range on its axis. -/
theorem rowMem4 (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v0_0).slice (win0_4.rect t)).set ↔ _
  rw [View.set_slice_whole, Rect.mem_set_unit]
  exact Iff.rfl

/-- What a point that writes the block back writes is its block of `rowG4`. -/
theorem rowFlushed4 (c : Dev nD) (t : Fin cfg0.N) (hf : (cfg0.win 4).flush t = true) :
    (rowDat V c).flushed 4 t = ((cfg0.win 4).blk t).view.read (Elt F) (rowG4 V c) := by
  have h15 : t.val % 16 = 15 := (flush0_4 t).mp hf
  obtain ⟨h0, h1⟩ := rowIdx4 t
  funext j
  rw [View.read_apply]
  show (rowDat V c).after 4 t _ = rowG4 V c _
  rw [rowAfter4]
  refine (rowG4_at V c _ t.val t.isLt _ ?_ ?_ ?_).symm
  · show 16 * ((win0_4.index t (0 : Fin 2) * 512 + 1 * (j 0).val) / 512) + 15 = t.val
    have hj : (j 0).val < 512 := (j 0).isLt
    rw [h0]; omega
  · show (win0_4.index t (0 : Fin 2) * 512 + 1 * (j 0).val) % 512 = (j 0).val
    have hj : (j 0).val < 512 := (j 0).isLt
    rw [h0]; omega
  · show win0_4.index t (1 : Fin 2) * 128 + 1 * (j 1).val = (j 1).val
    rw [h1]; omega

/-- The result array after the pass. -/
theorem rowArr4 (c : Dev nD) : (rowDat V c).arrAt 4 cfg0.N = rowG4 V c :=
  (rowDat V c).arrAt_eq_of_cover 4 (rowG4 V c) (rowFlushed4 V c) fun i => by
    have hN : cfg0.N = 256 := N_0
    have hi0 : (i 0).val < 8192 := (i 0).isLt
    have hi1 : (i 1).val < 128 := (i 1).isLt
    obtain ⟨h0, h1⟩ := rowIdx4 ⟨16 * ((i 0).val / 512) + 15, by omega⟩
    refine ⟨⟨16 * ((i 0).val / 512) + 15, by omega⟩, (flush0_4 _).mpr (by show (16 * ((i 0).val / 512) + 15) % 16 = 15; omega), ?_⟩
    rw [rowMem4]
    intro a
    match a with
    | ⟨0, _⟩ =>
      show win0_4.index _ (0 : Fin 2) * 512 ≤ (i 0).val ∧ (i 0).val < win0_4.index _ (0 : Fin 2) * 512 + 512
      rw [h0]; dsimp only; omega
    | ⟨1, _⟩ =>
      show win0_4.index _ (1 : Fin 2) * 128 ≤ (i 1).val ∧ (i 1).val < win0_4.index _ (1 : Fin 2) * 128 + 128
      rw [h1]; omega

/-- Read at (i, l). -/
theorem rowFinal4 (c : Dev nD) (i : Fin 8192) (l : Fin 128) :
    ((rowDat V c).arrAt 4 cfg0.N : S8192x128.Idx → Elt F .f32) (ix2 i l)
      = (rowAcc V c (16 * (i.val / 512) + 15) (by have := i.isLt; have hN : cfg0.N = 256 := N_0; omega)).1
          (ix2 ⟨i.val % 512, Nat.mod_lt _ (by decide)⟩ l) := by
  rw [rowArr4]
  rfl

/-! ## Result window 5 -/

/-- What the result array ends holding: entry (i, l) is the accumulator's entry (i % 512, l) after the last point of
    row i / 512 of the grid. -/
def rowG5 (c : Dev nD) : S8192x128.Idx → Elt F .f32 := fun i =>
  (rowAcc V c (16 * ((i 0).val / 512) + 15) (by have hi : (i 0).val < 8192 := (i 0).isLt; have hN : cfg0.N = 256 := N_0; omega)).2
    (ix2 ⟨(i 0).val % 512, Nat.mod_lt _ (by decide)⟩ (i 1))

theorem rowG5_at (c : Dev nD) (i : S8192x128.Idx) (n : ℕ) (hn : n < cfg0.N) (y : S512x128.Idx)
    (e1 : 16 * ((i 0).val / 512) + 15 = n) (e2 : (i 0).val % 512 = (y 0).val) (e3 : (i 1).val = (y 1).val) :
    rowG5 V c i = (rowAcc V c n hn).2 y := by
  subst e1
  have ey : (ix2 ⟨(i 0).val % 512, Nat.mod_lt _ (by decide)⟩ (i 1) : S512x128.Idx) = y :=
    funext fun a => Fin.ext (by match a with | ⟨0, _⟩ => exact e2 | ⟨1, _⟩ => exact e3)
  unfold rowG5
  rw [ey]

/-- An index of the array is in point `t`'s block iff each coordinate is in the block's range on its axis. -/
theorem rowMem5 (t : Fin cfg0.N) (i : S8192x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v0_1).slice (win0_5.rect t)).set ↔ _
  rw [View.set_slice_whole, Rect.mem_set_unit]
  exact Iff.rfl

/-- What a point that writes the block back writes is its block of `rowG5`. -/
theorem rowFlushed5 (c : Dev nD) (t : Fin cfg0.N) (hf : (cfg0.win 5).flush t = true) :
    (rowDat V c).flushed 5 t = ((cfg0.win 5).blk t).view.read (Elt F) (rowG5 V c) := by
  have h15 : t.val % 16 = 15 := (flush0_5 t).mp hf
  obtain ⟨h0, h1⟩ := rowIdx5 t
  funext j
  rw [View.read_apply]
  show (rowDat V c).after 5 t _ = rowG5 V c _
  rw [rowAfter5]
  refine (rowG5_at V c _ t.val t.isLt _ ?_ ?_ ?_).symm
  · show 16 * ((win0_5.index t (0 : Fin 2) * 512 + 1 * (j 0).val) / 512) + 15 = t.val
    have hj : (j 0).val < 512 := (j 0).isLt
    rw [h0]; omega
  · show (win0_5.index t (0 : Fin 2) * 512 + 1 * (j 0).val) % 512 = (j 0).val
    have hj : (j 0).val < 512 := (j 0).isLt
    rw [h0]; omega
  · show win0_5.index t (1 : Fin 2) * 128 + 1 * (j 1).val = (j 1).val
    rw [h1]; omega

/-- The result array after the pass. -/
theorem rowArr5 (c : Dev nD) : (rowDat V c).arrAt 5 cfg0.N = rowG5 V c :=
  (rowDat V c).arrAt_eq_of_cover 5 (rowG5 V c) (rowFlushed5 V c) fun i => by
    have hN : cfg0.N = 256 := N_0
    have hi0 : (i 0).val < 8192 := (i 0).isLt
    have hi1 : (i 1).val < 128 := (i 1).isLt
    obtain ⟨h0, h1⟩ := rowIdx5 ⟨16 * ((i 0).val / 512) + 15, by omega⟩
    refine ⟨⟨16 * ((i 0).val / 512) + 15, by omega⟩, (flush0_5 _).mpr (by show (16 * ((i 0).val / 512) + 15) % 16 = 15; omega), ?_⟩
    rw [rowMem5]
    intro a
    match a with
    | ⟨0, _⟩ =>
      show win0_5.index _ (0 : Fin 2) * 512 ≤ (i 0).val ∧ (i 0).val < win0_5.index _ (0 : Fin 2) * 512 + 512
      rw [h0]; dsimp only; omega
    | ⟨1, _⟩ =>
      show win0_5.index _ (1 : Fin 2) * 128 ≤ (i 1).val ∧ (i 1).val < win0_5.index _ (1 : Fin 2) * 128 + 128
      rw [h1]; omega

/-- Read at (i, l). -/
theorem rowFinal5 (c : Dev nD) (i : Fin 8192) (l : Fin 128) :
    ((rowDat V c).arrAt 5 cfg0.N : S8192x128.Idx → Elt F .f32) (ix2 i l)
      = (rowAcc V c (16 * (i.val / 512) + 15) (by have := i.isLt; have hN : cfg0.N = 256 := N_0; omega)).2
          (ix2 ⟨i.val % 512, Nat.mod_lt _ (by decide)⟩ l) := by
  rw [rowArr5]
  rfl

end

end Cert.KernelIdeal.Hand

end
-- ==== Proof.CovArrays.lean ====
/-
  The covariance pass: its blocks and its final arrays, index by index.

  The grid is 16 × 16 and point t is (t / 16, t % 16). The sample windows read rows 512·(t / 16) … or 512·(t % 16) … of a
  sample as in the row-sum pass; the row-centring columns are read in blocks of 512 rows following the first grid
  coordinate, the column-centring rows in blocks of 512 columns following the second. Each of the three accumulators
  is the one block of its [1, 128] result array and is written back once, after the last point (point 255), so each
  result array ends holding the accumulator's contents there.
-/
import proofs.«133753_j71141838291708_1_alg».proof.Proof.CovData
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## The index maps, decided over the grid -/

theorem covIdx0 : ∀ t : Fin cfg1.N, win1_0.index t (0 : Fin 2) = t.val / 16 ∧ win1_0.index t (1 : Fin 2) = 0 :=
  (by decide +kernel : ∀ t : Fin grid1.N, _)
theorem covIdx1 : ∀ t : Fin cfg1.N, win1_1.index t (0 : Fin 2) = t.val % 16 ∧ win1_1.index t (1 : Fin 2) = 0 :=
  (by decide +kernel : ∀ t : Fin grid1.N, _)
theorem covIdx2 : ∀ t : Fin cfg1.N, win1_2.index t (0 : Fin 2) = t.val / 16 ∧ win1_2.index t (1 : Fin 2) = 0 :=
  (by decide +kernel : ∀ t : Fin grid1.N, _)
theorem covIdx3 : ∀ t : Fin cfg1.N, win1_3.index t (0 : Fin 2) = t.val % 16 ∧ win1_3.index t (1 : Fin 2) = 0 :=
  (by decide +kernel : ∀ t : Fin grid1.N, _)
theorem covIdx4 : ∀ t : Fin cfg1.N, win1_4.index t (0 : Fin 2) = t.val / 16 ∧ win1_4.index t (1 : Fin 2) = 0 :=
  (by decide +kernel : ∀ t : Fin grid1.N, _)
theorem covIdx5 : ∀ t : Fin cfg1.N, win1_5.index t (0 : Fin 2) = 0 ∧ win1_5.index t (1 : Fin 2) = t.val % 16 :=
  (by decide +kernel : ∀ t : Fin grid1.N, _)
theorem covIdx6 : ∀ t : Fin cfg1.N, win1_6.index t (0 : Fin 2) = t.val / 16 ∧ win1_6.index t (1 : Fin 2) = 0 :=
  (by decide +kernel : ∀ t : Fin grid1.N, _)
theorem covIdx7 : ∀ t : Fin cfg1.N, win1_7.index t (0 : Fin 2) = 0 ∧ win1_7.index t (1 : Fin 2) = t.val % 16 :=
  (by decide +kernel : ∀ t : Fin grid1.N, _)
theorem covIdx8 : ∀ t : Fin cfg1.N, win1_8.index t (0 : Fin 2) = 0 ∧ win1_8.index t (1 : Fin 2) = 0 :=
  (by decide +kernel : ∀ t : Fin grid1.N, _)
theorem covIdx9 : ∀ t : Fin cfg1.N, win1_9.index t (0 : Fin 2) = 0 ∧ win1_9.index t (1 : Fin 2) = 0 :=
  (by decide +kernel : ∀ t : Fin grid1.N, _)
theorem covIdx10 : ∀ t : Fin cfg1.N, win1_10.index t (0 : Fin 2) = 0 ∧ win1_10.index t (1 : Fin 2) = 0 :=
  (by decide +kernel : ∀ t : Fin grid1.N, _)

section

variable (V : (c : Dev nD) → (b : Ref sig .tc) → Buf (Elt F) ((c : Thread nD τ).loc b))

/-! ## The input blocks read at an index -/

theorem covBlk0_apply (c : Dev nD) (t : Fin cfg1.N) (r : Fin 512) (k : Fin 128) :
    (covBlk V c 0 t : S512x128.Idx → Elt F .f32) (ix2 r k)
      = (V c main_arg0 : S8192x128.Idx → Elt F .f32)
          (ix2 ⟨512 * (t.val / 16) + r.val, by have := t.isLt; have hN : cfg1.N = 256 := N_1; have := r.isLt; omega⟩ k) := by
  obtain ⟨h0, h1⟩ := covIdx0 t
  unfold covBlk
  rw [View.read_apply]
  show V c main_arg0 _ = V c main_arg0 _
  congr 1
  funext a
  apply Fin.ext
  match a with
  | ⟨0, _⟩ => show win1_0.index t (0 : Fin 2) * 512 + 1 * r.val = 512 * (t.val / 16) + r.val; rw [h0]; omega
  | ⟨1, _⟩ => show win1_0.index t (1 : Fin 2) * 128 + 1 * k.val = k.val; rw [h1]; omega

theorem covBlk1_apply (c : Dev nD) (t : Fin cfg1.N) (r : Fin 512) (k : Fin 128) :
    (covBlk V c 1 t : S512x128.Idx → Elt F .f32) (ix2 r k)
      = (V c main_arg0 : S8192x128.Idx → Elt F .f32)
          (ix2 ⟨512 * (t.val % 16) + r.val, by have := t.isLt; have hN : cfg1.N = 256 := N_1; have := r.isLt; omega⟩ k) := by
  obtain ⟨h0, h1⟩ := covIdx1 t
  unfold covBlk
  rw [View.read_apply]
  show V c main_arg0 _ = V c main_arg0 _
  congr 1
  funext a
  apply Fin.ext
  match a with
  | ⟨0, _⟩ => show win1_1.index t (0 : Fin 2) * 512 + 1 * r.val = 512 * (t.val % 16) + r.val; rw [h0]; omega
  | ⟨1, _⟩ => show win1_1.index t (1 : Fin 2) * 128 + 1 * k.val = k.val; rw [h1]; omega

theorem covBlk2_apply (c : Dev nD) (t : Fin cfg1.N) (r : Fin 512) (k : Fin 128) :
    (covBlk V c 2 t : S512x128.Idx → Elt F .f32) (ix2 r k)
      = (V c main_arg1 : S8192x128.Idx → Elt F .f32)
          (ix2 ⟨512 * (t.val / 16) + r.val, by have := t.isLt; have hN : cfg1.N = 256 := N_1; have := r.isLt; omega⟩ k) := by
  obtain ⟨h0, h1⟩ := covIdx2 t
  unfold covBlk
  rw [View.read_apply]
  show V c main_arg1 _ = V c main_arg1 _
  congr 1
  funext a
  apply Fin.ext
  match a with
  | ⟨0, _⟩ => show win1_2.index t (0 : Fin 2) * 512 + 1 * r.val = 512 * (t.val / 16) + r.val; rw [h0]; omega
  | ⟨1, _⟩ => show win1_2.index t (1 : Fin 2) * 128 + 1 * k.val = k.val; rw [h1]; omega

theorem covBlk3_apply (c : Dev nD) (t : Fin cfg1.N) (r : Fin 512) (k : Fin 128) :
    (covBlk V c 3 t : S512x128.Idx → Elt F .f32) (ix2 r k)
      = (V c main_arg1 : S8192x128.Idx → Elt F .f32)
          (ix2 ⟨512 * (t.val % 16) + r.val, by have := t.isLt; have hN : cfg1.N = 256 := N_1; have := r.isLt; omega⟩ k) := by
  obtain ⟨h0, h1⟩ := covIdx3 t
  unfold covBlk
  rw [View.read_apply]
  show V c main_arg1 _ = V c main_arg1 _
  congr 1
  funext a
  apply Fin.ext
  match a with
  | ⟨0, _⟩ => show win1_3.index t (0 : Fin 2) * 512 + 1 * r.val = 512 * (t.val % 16) + r.val; rw [h0]; omega
  | ⟨1, _⟩ => show win1_3.index t (1 : Fin 2) * 128 + 1 * k.val = k.val; rw [h1]; omega

theorem covBlk4_apply (c : Dev nD) (t : Fin cfg1.N) (r : Fin 512) :
    (covBlk V c 4 t : S512x1.Idx → Elt F .f32) (ix2 r 0)
      = (V c main_v15 : S8192x1.Idx → Elt F .f32)
          (ix2 ⟨512 * (t.val / 16) + r.val, by have := t.isLt; have hN : cfg1.N = 256 := N_1; have := r.isLt; omega⟩ 0) := by
  obtain ⟨h0, h1⟩ := covIdx4 t
  unfold covBlk
  rw [View.read_apply]
  show V c main_v15 _ = V c main_v15 _
  congr 1
  funext a
  apply Fin.ext
  match a with
  | ⟨0, _⟩ => show win1_4.index t (0 : Fin 2) * 512 + 1 * r.val = 512 * (t.val / 16) + r.val; rw [h0]; omega
  | ⟨1, _⟩ => show win1_4.index t (1 : Fin 2) * 1 + 1 * 0 = 0; rw [h1]

theorem covBlk5_apply (c : Dev nD) (t : Fin cfg1.N) (q : Fin 512) :
    (covBlk V c 5 t : S1x512.Idx → Elt F .f32) (ix2 0 q)
      = (V c main_v16 : S1x8192.Idx → Elt F .f32)
          (ix2 0 ⟨512 * (t.val % 16) + q.val, by have := t.isLt; have hN : cfg1.N = 256 := N_1; have := q.isLt; omega⟩) := by
  obtain ⟨h0, h1⟩ := covIdx5 t
  unfold covBlk
  rw [View.read_apply]
  show V c main_v16 _ = V c main_v16 _
  congr 1
  funext a
  apply Fin.ext
  match a with
  | ⟨0, _⟩ => show win1_5.index t (0 : Fin 2) * 1 + 1 * 0 = 0; rw [h0]
  | ⟨1, _⟩ => show win1_5.index t (1 : Fin 2) * 512 + 1 * q.val = 512 * (t.val % 16) + q.val; rw [h1]; omega

theorem covBlk6_apply (c : Dev nD) (t : Fin cfg1.N) (r : Fin 512) :
    (covBlk V c 6 t : S512x1.Idx → Elt F .f32) (ix2 r 0)
      = (V c main_v19 : S8192x1.Idx → Elt F .f32)
          (ix2 ⟨512 * (t.val / 16) + r.val, by have := t.isLt; have hN : cfg1.N = 256 := N_1; have := r.isLt; omega⟩ 0) := by
  obtain ⟨h0, h1⟩ := covIdx6 t
  unfold covBlk
  rw [View.read_apply]
  show V c main_v19 _ = V c main_v19 _
  congr 1
  funext a
  apply Fin.ext
  match a with
  | ⟨0, _⟩ => show win1_6.index t (0 : Fin 2) * 512 + 1 * r.val = 512 * (t.val / 16) + r.val; rw [h0]; omega
  | ⟨1, _⟩ => show win1_6.index t (1 : Fin 2) * 1 + 1 * 0 = 0; rw [h1]

theorem covBlk7_apply (c : Dev nD) (t : Fin cfg1.N) (q : Fin 512) :
    (covBlk V c 7 t : S1x512.Idx → Elt F .f32) (ix2 0 q)
      = (V c main_v20 : S1x8192.Idx → Elt F .f32)
          (ix2 0 ⟨512 * (t.val % 16) + q.val, by have := t.isLt; have hN : cfg1.N = 256 := N_1; have := q.isLt; omega⟩) := by
  obtain ⟨h0, h1⟩ := covIdx7 t
  unfold covBlk
  rw [View.read_apply]
  show V c main_v20 _ = V c main_v20 _
  congr 1
  funext a
  apply Fin.ext
  match a with
  | ⟨0, _⟩ => show win1_7.index t (0 : Fin 2) * 1 + 1 * 0 = 0; rw [h0]
  | ⟨1, _⟩ => show win1_7.index t (1 : Fin 2) * 512 + 1 * q.val = 512 * (t.val % 16) + q.val; rw [h1]; omega

/-! ## Result window 8 -/

/-- The accumulator read at two equal indices after two equal point numbers. -/
theorem covAcc8_congr (c : Dev nD) (n n' : ℕ) (hn : n < cfg1.N) (hn' : n' < cfg1.N) (e : n = n') (i y : S1x128.Idx)
    (e0 : (i 0).val = (y 0).val) (e1 : (i 1).val = (y 1).val) :
    (covAcc V c n hn).1 i = (covAcc V c n' hn').1 y := by
  subst e
  have ey : i = y := funext fun a => Fin.ext (by match a with | ⟨0, _⟩ => exact e0 | ⟨1, _⟩ => exact e1)
  subst ey
  rfl

/-- An index of the array is in point `t`'s block iff each coordinate is in the block's range on its axis. -/
theorem covMem8 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v21_0).slice (win1_8.rect t)).set ↔ _
  rw [View.set_slice_whole, Rect.mem_set_unit]
  exact Iff.rfl

/-- What the one point that writes the block back (the last, numbered `n` = 255) writes is the accumulator there, the
    block being the whole array. -/
theorem covFlushed8 (c : Dev nD) (n : ℕ) (hn : n < cfg1.N) (e : n = 255) (t : Fin cfg1.N) (hf : (cfg1.win 8).flush t = true) :
    (covDat V c).flushed 8 t = ((cfg1.win 8).blk t).view.read (Elt F) ((covAcc V c n hn).1 : S1x128.Idx → Elt F .f32) := by
  have hN : cfg1.N = 256 := N_1
  have htn : t.val = n := by have := (flush1_8 t).mp hf; have := t.isLt; omega
  obtain ⟨h0, h1⟩ := covIdx8 t
  funext j
  rw [View.read_apply]
  show (covDat V c).after 8 t _ = (covAcc V c n hn).1 _
  rw [covAfter8]
  refine covAcc8_congr V c t.val n t.isLt hn htn _ _ ?_ ?_
  · show (j 0).val = win1_8.index t (0 : Fin 2) * 1 + 1 * (j 0).val
    rw [h0]; omega
  · show (j 1).val = win1_8.index t (1 : Fin 2) * 128 + 1 * (j 1).val
    rw [h1]; omega

/-- The result array after the pass, the last point's number a variable. -/
theorem covFinal8_at (c : Dev nD) (n : ℕ) (hn : n < cfg1.N) (e : n = 255) :
    (covDat V c).arrAt 8 cfg1.N = (covAcc V c n hn).1 :=
  (covDat V c).arrAt_eq_of_cover 8 ((covAcc V c n hn).1) (covFlushed8 V c n hn e) fun i => by
    have hN : cfg1.N = 256 := N_1
    have hi0 : (i 0).val < 1 := (i 0).isLt
    have hi1 : (i 1).val < 128 := (i 1).isLt
    obtain ⟨h0, h1⟩ := covIdx8 ⟨n, hn⟩
    refine ⟨⟨n, hn⟩, (flush1_8 _).mpr (by show n % 256 = 255; omega), ?_⟩
    rw [covMem8]
    intro a
    match a with
    | ⟨0, _⟩ =>
      show win1_8.index _ (0 : Fin 2) * 1 ≤ (i 0).val ∧ (i 0).val < win1_8.index _ (0 : Fin 2) * 1 + 1
      rw [h0]; omega
    | ⟨1, _⟩ =>
      show win1_8.index _ (1 : Fin 2) * 128 ≤ (i 1).val ∧ (i 1).val < win1_8.index _ (1 : Fin 2) * 128 + 128
      rw [h1]; omega

/-- The result array after the pass: the accumulator after point 255. -/
theorem covFinal8 (c : Dev nD) :
    (covDat V c).arrAt 8 cfg1.N = (covAcc V c 255 (by have hN : cfg1.N = 256 := N_1; omega)).1 :=
  covFinal8_at V c 255 _ rfl

/-! ## Result window 9 -/

/-- The accumulator read at two equal indices after two equal point numbers. -/
theorem covAcc9_congr (c : Dev nD) (n n' : ℕ) (hn : n < cfg1.N) (hn' : n' < cfg1.N) (e : n = n') (i y : S1x128.Idx)
    (e0 : (i 0).val = (y 0).val) (e1 : (i 1).val = (y 1).val) :
    (covAcc V c n hn).2.1 i = (covAcc V c n' hn').2.1 y := by
  subst e
  have ey : i = y := funext fun a => Fin.ext (by match a with | ⟨0, _⟩ => exact e0 | ⟨1, _⟩ => exact e1)
  subst ey
  rfl

/-- An index of the array is in point `t`'s block iff each coordinate is in the block's range on its axis. -/
theorem covMem9 (t : Fin cfg1.N) (i : S1x128.Idx) :
    i ∈ ((cfg1.win 9).blk t).view.set ↔ ∀ a : Fin 2, win1_9.index t a * S1x128.size a ≤ (i a).val ∧ (i a).val < win1_9.index t a * S1x128.size a + S1x128.size a := by
  show i ∈ ((View.whole main_v21_1).slice (win1_9.rect t)).set ↔ _
  rw [View.set_slice_whole, Rect.mem_set_unit]
  exact Iff.rfl

/-- What the one point that writes the block back (the last, numbered `n` = 255) writes is the accumulator there, the
    block being the whole array. -/
theorem covFlushed9 (c : Dev nD) (n : ℕ) (hn : n < cfg1.N) (e : n = 255) (t : Fin cfg1.N) (hf : (cfg1.win 9).flush t = true) :
    (covDat V c).flushed 9 t = ((cfg1.win 9).blk t).view.read (Elt F) ((covAcc V c n hn).2.1 : S1x128.Idx → Elt F .f32) := by
  have hN : cfg1.N = 256 := N_1
  have htn : t.val = n := by have := (flush1_9 t).mp hf; have := t.isLt; omega
  obtain ⟨h0, h1⟩ := covIdx9 t
  funext j
  rw [View.read_apply]
  show (covDat V c).after 9 t _ = (covAcc V c n hn).2.1 _
  rw [covAfter9]
  refine covAcc9_congr V c t.val n t.isLt hn htn _ _ ?_ ?_
  · show (j 0).val = win1_9.index t (0 : Fin 2) * 1 + 1 * (j 0).val
    rw [h0]; omega
  · show (j 1).val = win1_9.index t (1 : Fin 2) * 128 + 1 * (j 1).val
    rw [h1]; omega

/-- The result array after the pass, the last point's number a variable. -/
theorem covFinal9_at (c : Dev nD) (n : ℕ) (hn : n < cfg1.N) (e : n = 255) :
    (covDat V c).arrAt 9 cfg1.N = (covAcc V c n hn).2.1 :=
  (covDat V c).arrAt_eq_of_cover 9 ((covAcc V c n hn).2.1) (covFlushed9 V c n hn e) fun i => by
    have hN : cfg1.N = 256 := N_1
    have hi0 : (i 0).val < 1 := (i 0).isLt
    have hi1 : (i 1).val < 128 := (i 1).isLt
    obtain ⟨h0, h1⟩ := covIdx9 ⟨n, hn⟩
    refine ⟨⟨n, hn⟩, (flush1_9 _).mpr (by show n % 256 = 255; omega), ?_⟩
    rw [covMem9]
    intro a
    match a with
    | ⟨0, _⟩ =>
      show win1_9.index _ (0 : Fin 2) * 1 ≤ (i 0).val ∧ (i 0).val < win1_9.index _ (0 : Fin 2) * 1 + 1
      rw [h0]; omega
    | ⟨1, _⟩ =>
      show win1_9.index _ (1 : Fin 2) * 128 ≤ (i 1).val ∧ (i 1).val < win1_9.index _ (1 : Fin 2) * 128 + 128
      rw [h1]; omega

/-- The result array after the pass: the accumulator after point 255. -/
theorem covFinal9 (c : Dev nD) :
    (covDat V c).arrAt 9 cfg1.N = (covAcc V c 255 (by have hN : cfg1.N = 256 := N_1; omega)).2.1 :=
  covFinal9_at V c 255 _ rfl

/-! ## Result window 10 -/

/-- The accumulator read at two equal indices after two equal point numbers. -/
theorem covAcc10_congr (c : Dev nD) (n n' : ℕ) (hn : n < cfg1.N) (hn' : n' < cfg1.N) (e : n = n') (i y : S1x128.Idx)
    (e0 : (i 0).val = (y 0).val) (e1 : (i 1).val = (y 1).val) :
    (covAcc V c n hn).2.2 i = (covAcc V c n' hn').2.2 y := by
  subst e
  have ey : i = y := funext fun a => Fin.ext (by match a with | ⟨0, _⟩ => exact e0 | ⟨1, _⟩ => exact e1)
  subst ey
  rfl

/-- An index of the array is in point `t`'s block iff each coordinate is in the block's range on its axis. -/
theorem covMem10 (t : Fin cfg1.N) (i : S1x128.Idx) :
    i ∈ ((cfg1.win 10).blk t).view.set ↔ ∀ a : Fin 2, win1_10.index t a * S1x128.size a ≤ (i a).val ∧ (i a).val < win1_10.index t a * S1x128.size a + S1x128.size a := by
  show i ∈ ((View.whole main_v21_2).slice (win1_10.rect t)).set ↔ _
  rw [View.set_slice_whole, Rect.mem_set_unit]
  exact Iff.rfl

/-- What the one point that writes the block back (the last, numbered `n` = 255) writes is the accumulator there, the
    block being the whole array. -/
theorem covFlushed10 (c : Dev nD) (n : ℕ) (hn : n < cfg1.N) (e : n = 255) (t : Fin cfg1.N) (hf : (cfg1.win 10).flush t = true) :
    (covDat V c).flushed 10 t = ((cfg1.win 10).blk t).view.read (Elt F) ((covAcc V c n hn).2.2 : S1x128.Idx → Elt F .f32) := by
  have hN : cfg1.N = 256 := N_1
  have htn : t.val = n := by have := (flush1_10 t).mp hf; have := t.isLt; omega
  obtain ⟨h0, h1⟩ := covIdx10 t
  funext j
  rw [View.read_apply]
  show (covDat V c).after 10 t _ = (covAcc V c n hn).2.2 _
  rw [covAfter10]
  refine covAcc10_congr V c t.val n t.isLt hn htn _ _ ?_ ?_
  · show (j 0).val = win1_10.index t (0 : Fin 2) * 1 + 1 * (j 0).val
    rw [h0]; omega
  · show (j 1).val = win1_10.index t (1 : Fin 2) * 128 + 1 * (j 1).val
    rw [h1]; omega

/-- The result array after the pass, the last point's number a variable. -/
theorem covFinal10_at (c : Dev nD) (n : ℕ) (hn : n < cfg1.N) (e : n = 255) :
    (covDat V c).arrAt 10 cfg1.N = (covAcc V c n hn).2.2 :=
  (covDat V c).arrAt_eq_of_cover 10 ((covAcc V c n hn).2.2) (covFlushed10 V c n hn e) fun i => by
    have hN : cfg1.N = 256 := N_1
    have hi0 : (i 0).val < 1 := (i 0).isLt
    have hi1 : (i 1).val < 128 := (i 1).isLt
    obtain ⟨h0, h1⟩ := covIdx10 ⟨n, hn⟩
    refine ⟨⟨n, hn⟩, (flush1_10 _).mpr (by show n % 256 = 255; omega), ?_⟩
    rw [covMem10]
    intro a
    match a with
    | ⟨0, _⟩ =>
      show win1_10.index _ (0 : Fin 2) * 1 ≤ (i 0).val ∧ (i 0).val < win1_10.index _ (0 : Fin 2) * 1 + 1
      rw [h0]; omega
    | ⟨1, _⟩ =>
      show win1_10.index _ (1 : Fin 2) * 128 ≤ (i 1).val ∧ (i 1).val < win1_10.index _ (1 : Fin 2) * 128 + 128
      rw [h1]; omega

/-- The result array after the pass: the accumulator after point 255. -/
theorem covFinal10 (c : Dev nD) :
    (covDat V c).arrAt 10 cfg1.N = (covAcc V c 255 (by have hN : cfg1.N = 256 := N_1; omega)).2.2 :=
  covFinal10_at V c 255 _ rfl

end

end Cert.KernelIdeal.Hand

end
-- ==== Proof.RowPieces.lean ====
/-
  What the row-sum body's stores leave, as values: after a reset point each accumulator is the tile's row sums
  added to the zero block; after any other point it is the tile's row sums added to the running contents. The
  stores each cover the whole accumulator, so only the last one matters, and its payload's loads read the whole
  input buffers.
-/
import proofs.«133753_j71141838291708_1_alg».proof.Proof.RowData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x128 .f32) (h6 : a6.IsWhole) (a7 : Memref sig .tc .vmem S512x128 .f32) (h7 : a7.IsWhole)
    (x0 x1 x2 x3 : Vec F S512x128 .f32)

theorem rowAdd_val4 (hc : ¬rowReset i) (acc4 acc5 : Vec F S512x128 .f32) :
    View.canon (rowRunAdd c i a2 h2 a3 h3 a4 h4 a5 h5 a6 h6 a7 h7 hc x0 x1 x2 x3 acc4 acc5).1 = k0_pay1 (k0_pay6 x0 x1) acc4 := by
  unfold rowRunAdd
  dsimp only
  sl_unfold_words
  rw [View.canon_unit_zero hz2]
  simp only [View.readAt_eq_ld, h2.read_unread, h3.read_unread, h4.read_unread, h5.read_unread, h6.read_unread, h7.read_unread,
    View.ld_unit_zero (S := S512x128) hz2]

theorem rowAdd_val5 (hc : ¬rowReset i) (acc4 acc5 : Vec F S512x128 .f32) :
    View.canon (rowRunAdd c i a2 h2 a3 h3 a4 h4 a5 h5 a6 h6 a7 h7 hc x0 x1 x2 x3 acc4 acc5).2.1
      = k0_pay2 (k0_pay5 x2 x3) (k0_pay7 x2) (k0_pay8 x3) acc5 := by
  unfold rowRunAdd
  dsimp only
  sl_unfold_words
  rw [View.canon_unit_zero hz2]
  simp only [View.readAt_eq_ld, h2.read_unread, h3.read_unread, h4.read_unread, h5.read_unread, h6.read_unread, h7.read_unread,
    View.ld_unit_zero (S := S512x128) hz2]

theorem rowReset_val4 (hc : rowReset i) :
    View.canon (rowRunReset c i a2 h2 a3 h3 a4 h4 a5 h5 a6 h6 a7 h7 hc x0 x1 x2 x3).1 = k0_pay1 (k0_pay6 x0 x1) (k0_pay3 (F := F)) := by
  unfold rowRunReset
  dsimp only
  sl_unfold_words
  rw [View.canon_cons_unit_zero (S := S512x128) hz2, View.readCov_unit_zero (S := S512x128) _ hz2]
  simp only [View.readAt_eq_ld, h2.read_unread, h3.read_unread, h4.read_unread, h5.read_unread,
    View.ld_unit_zero (S := S512x128) hz2]

theorem rowReset_val5 (hc : rowReset i) :
    View.canon (rowRunReset c i a2 h2 a3 h3 a4 h4 a5 h5 a6 h6 a7 h7 hc x0 x1 x2 x3).2.1
      = k0_pay2 (k0_pay5 x2 x3) (k0_pay7 x2) (k0_pay8 x3) (k0_pay4 (F := F)) := by
  unfold rowRunReset
  dsimp only
  sl_unfold_words
  rw [View.canon_cons_unit_zero (S := S512x128) hz2, View.readCov_unit_zero (S := S512x128) _ hz2]
  simp only [View.readAt_eq_ld, h2.read_unread, h3.read_unread, h4.read_unread, h5.read_unread,
    View.ld_unit_zero (S := S512x128) hz2]

end

end Cert.KernelIdeal.Hand

end
-- ==== Proof.PayloadLib.lean ====
/-
  The layout and contraction operations of the two kernel bodies, read at an index.

  Each lemma says what one non-pointwise operation of a body computes at the coordinates (r, c) of its result, at
  the exact extended reals: a sum along the lanes is the sum over the lane coordinate; a column of row sums laid
  out as [a, 1] and broadcast along the lanes, or transposed to a row and broadcast along the sublanes, reads the
  row's (the column's) sum; a product of a [512, 128] block with a transposed [512, 128] block into the zero
  accumulator is the inner product of two rows; and a select on "greater than" is the `if` on the order.
-/
import proofs.«133753_j71141838291708_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.ValueIdx Cert.KernelIdeal Cert.KernelIdeal.Gen

/-! ### Scalars -/

/-- A select on "a is greater than z" is the `if` on the order. -/
theorem select_ogt {α : Type} (a z : EReal) (x y : α) :
    Scalar.select (Ideal.cmp .ogt a z) x y = if z < a then x else y := by
  unfold Scalar.select Ideal.cmp
  by_cases h : z < a <;> simp [h]

/-! ### Columns: [a] → [a, 1], [a, 1] → [a, b] -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Lane sums -/

theorem laneSum128 (v : FVec Ideal S512x128 .f32) (h : S512x128.Reduces [1] S512) (hφ : FKind.Formats .f32)
    (hacc : (0x00000000#32 : BitVec 32) = 0x00000000#32) (r : Fin 512) :
    multiReduction (F := Ideal) .add [1] S512 v 0x00000000#32 h hφ hacc (ix1 r) = ∑ k : Fin 128, v (ix2 r k) := by
  refine (Ideal.multiReduction_add_single v _ h hφ hacc (ix1 r)).trans ?_
  show ∑ k : Fin 128, v (h.lift (ix1 r) k) = ∑ k : Fin 128, v (ix2 r k)
  refine Finset.sum_congr rfl fun k _ => congrArg v (funext fun a => Fin.ext ?_)
  match a with
  | ⟨0, _⟩ => rfl
  | ⟨1, _⟩ => rfl

theorem laneSum512 (v : FVec Ideal S512x512 .f32) (h : S512x512.Reduces [1] S512) (hφ : FKind.Formats .f32)
    (hacc : (0x00000000#32 : BitVec 32) = 0x00000000#32) (r : Fin 512) :
    multiReduction (F := Ideal) .add [1] S512 v 0x00000000#32 h hφ hacc (ix1 r) = ∑ c : Fin 512, v (ix2 r c) := by
  refine (Ideal.multiReduction_add_single v _ h hφ hacc (ix1 r)).trans ?_
  show ∑ k : Fin 512, v (h.lift (ix1 r) k) = ∑ k : Fin 512, v (ix2 r k)
  refine Finset.sum_congr rfl fun k _ => congrArg v (funext fun a => Fin.ext ?_)
  match a with
  | ⟨0, _⟩ => rfl
  | ⟨1, _⟩ => rfl

/-! ### The block product -/

theorem lhs_tile_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl
theorem lhs_tile_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem rhs_tile_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem rhs_tile_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- A [512, 128] block times a [128, 512] block into the zero accumulator, at (r, c): the sum over the 128
    contracted coordinates of the products. -/
theorem matmul_tile_apply {φ₁ φ₂ : FTy} (L : FVec Ideal S512x128 φ₁) (R : FVec Ideal S128x512 φ₂) (r c : Fin 512) :
    matmul (F := Ideal) dot_S512x128_S128x512_S512x512_1_0_0_1_n_n none L R
        (constant (F := Ideal) S512x512 .f32 0x00000000#32) (ix2 r c)
      = ∑ k : Fin 128, L (ix2 r k) * R (ix2 k c) := by
  simp only [matmul]
  rw [Ideal.matmul_constant_zero_apply,
    ← Equiv.sum_comp (ValueIdx.contrEquiv1 dot_S512x128_S128x512_S512x512_1_0_0_1_n_n 128 rfl rfl).symm]
  refine Finset.sum_congr rfl fun k _ => ?_
  have hk := ValueIdx.contrEquiv1_symm_val dot_S512x128_S128x512_S512x512_1_0_0_1_n_n 128 rfl rfl k
  have el : dot_S512x128_S128x512_S512x512_1_0_0_1_n_n.lhsIdx (ix2 r c)
      ((ValueIdx.contrEquiv1 dot_S512x128_S128x512_S512x512_1_0_0_1_n_n 128 rfl rfl).symm k) = ix2 r k :=
    funext fun a => Fin.ext (by
      match a with
      | ⟨0, _⟩ => exact lhs_tile_0 _ _
      | ⟨1, _⟩ => exact (lhs_tile_1 _ _).trans hk)
  have er : dot_S512x128_S128x512_S512x512_1_0_0_1_n_n.rhsIdx (ix2 r c)
      ((ValueIdx.contrEquiv1 dot_S512x128_S128x512_S512x512_1_0_0_1_n_n 128 rfl rfl).symm k) = ix2 k c :=
    funext fun a => Fin.ext (by
      match a with
      | ⟨0, _⟩ => exact (rhs_tile_0 _ _).trans hk
      | ⟨1, _⟩ => exact rhs_tile_1 _ _)
  rw [el, er]

end Cert.KernelIdeal.HandValue

end
-- ==== Proof.DcorSpec.lean ====
/-
  Distance correlation of two samples of 8192 points in dimension 128, as one function of the two matrices,
  entry by entry on the extended reals.

  For a matrix `x`, `dist x i j` is the Euclidean distance of rows `i` and `j` computed from the Gram identity
  |xi|² + |xj|² − 2 xi·xj, clamped at zero, with the square root taken only where the clamped square is positive.
  The distance matrix is then double-centred and the three sums Σ A·B, Σ A·A, Σ B·B are scaled and combined.

  Two arrangements of the centring are stated. `cenK` subtracts (row mean of i − grand mean) and then the ROW
  mean of j, with the grand mean taken as the sum of the row sums. `cenR` subtracts the COLUMN mean of j, then the
  row mean of i, then adds the grand mean taken as the sum of all entries. The two agree when every entry of the
  matrix is a real number: the distance matrix is symmetric, so column sums are row sums, and the regrouping is
  real arithmetic; at an infinity neither step holds.
-/
import Idealize.ShloMosaic.PureOps.Ideal
import Idealize.ShloMosaic.PureOps.Ideal.Laws
import Idealize.ShloMosaic.Lib.ValueIdx

noncomputable section

namespace Cert.Dcor

open Idealize.ShloMosaic

/-- A sample: 8192 points of dimension 128. -/
abbrev Mat : Type := Fin 8192 → Fin 128 → EReal

/-- The constants, kept as the words both programs print. -/
def zero : EReal := Ideal.ofBits .f32 0x00000000#32
def one : EReal := Ideal.ofBits .f32 0x3F800000#32
def two : EReal := Ideal.ofBits .f32 0x40000000#32
/-- 8192, the number of points. -/
def cN : EReal := Ideal.ofBits .f32 0x46000000#32
/-- 8192², the number of pairs. -/
def cNN : EReal := Ideal.ofBits .f32 0x4C800000#32
/-- 2⁻²⁶ = 1 / 8192². -/
def cInvNN : EReal := Ideal.ofBits .f32 0x32800000#32

/-- The squared norm of row `i`. -/
def sqn (x : Mat) (i : Fin 8192) : EReal := ∑ k : Fin 128, x i k * x i k
/-- The inner product of rows `i` and `j`. -/
def gram (x : Mat) (i j : Fin 8192) : EReal := ∑ k : Fin 128, x i k * x j k
/-- The squared distance of rows `i` and `j` by the Gram identity, clamped at zero. -/
def sqd (x : Mat) (i j : Fin 8192) : EReal := max (sqn x i + sqn x j - two * gram x i j) zero
/-- The distance: the root of the clamped square where that is positive (the root's argument replaced by one
    elsewhere, so that it is never taken at zero), and zero elsewhere. -/
def dist (x : Mat) (i j : Fin 8192) : EReal :=
  if zero < sqd x i j then Ideal.sqrt (if zero < sqd x i j then sqd x i j else one) else zero

def rowSum (x : Mat) (i : Fin 8192) : EReal := ∑ j : Fin 8192, dist x i j
def colSum (x : Mat) (j : Fin 8192) : EReal := ∑ i : Fin 8192, dist x i j
/-- The sum of all distances, entry by entry. -/
def grand (x : Mat) : EReal := ∑ i : Fin 8192, ∑ j : Fin 8192, dist x i j

/-- Centring, first arrangement: `d − (rowMean i − grandMean) − rowMean j`, the grand mean from the row sums. -/
def cenK (x : Mat) (i j : Fin 8192) : EReal :=
  dist x i j - (Ideal.div (rowSum x i) cN - Ideal.div (∑ i' : Fin 8192, rowSum x i') cNN) - Ideal.div (rowSum x j) cN
/-- Centring, second arrangement: `((d − colMean j) − rowMean i) + grandMean`. -/
def cenR (x : Mat) (i j : Fin 8192) : EReal :=
  dist x i j - Ideal.div (colSum x j) cN - Ideal.div (rowSum x i) cN + Ideal.div (grand x) cNN

/-- Σ over all pairs of the product of the two centred matrices, in each arrangement. -/
def sumK (x y : Mat) : EReal := ∑ i : Fin 8192, ∑ j : Fin 8192, cenK x i j * cenK y i j
def sumR (x y : Mat) : EReal := ∑ i : Fin 8192, ∑ j : Fin 8192, cenR x i j * cenR y i j

/-- From the three sums to the result: −√(ab/n²) / √(√(aa/n²) · √(bb/n²)). -/
def tail (ab aa bb : EReal) : EReal :=
  Ideal.div (-(Ideal.sqrt (ab * cInvNN))) (Ideal.sqrt (Ideal.sqrt (aa * cInvNN) * Ideal.sqrt (bb * cInvNN)))

/-- Every entry is a real number. -/
def Finite (x : Mat) : Prop := ∀ i k, ∃ r : ℝ, x i k = (r : EReal)

/-- An array of shape [8192, 128] read as a sample. -/
def ofArr (a : (⟨2, ![8192, 128]⟩ : Shape).Idx → EReal) : Mat := fun i k => a (ValueIdx.ix2 i k)

end Cert.Dcor

end
-- ==== Proof.RowPayload.lean ====
/-
  The row pass, read at an index.

  One grid point (I, J) of the row pass loads block I and block J of a sample (512 rows of 128 each), forms the
  512 × 512 tile of clamped squared distances by the Gram identity (the inner products by a block product with the
  transposed block, the squared norms by lane sums laid out as a column and as a row), takes the root where the
  clamped square is positive, sums each row of the tile, and adds the 512 row sums, broadcast along the 128 lanes, to
  the accumulator. So at (r, l) the accumulator gains the sum over the 512 columns c of the tile of
  dist (512·I + r) (512·J + c).
-/
import proofs.«133753_j71141838291708_1_alg».proof.Proof.PayloadLib
import proofs.«133753_j71141838291708_1_alg».proof.Proof.DcorSpec

noncomputable section

namespace Cert.KernelIdeal.HandValue

open Idealize.ShloMosaic Idealize.ShloMosaic.ValueIdx Cert.KernelIdeal Cert.KernelIdeal.Gen

/-- The distance as a function of the clamped squared distance. -/
def distOf (s : EReal) : EReal :=
  if Cert.Dcor.zero < s then Ideal.sqrt (if Cert.Dcor.zero < s then s else Cert.Dcor.one) else Cert.Dcor.zero

theorem dist_eq_distOf (x : Cert.Dcor.Mat) (i j : Fin 8192) : Cert.Dcor.dist x i j = distOf (Cert.Dcor.sqd x i j) := rfl

/-! ### The pieces shared by the payloads -/

/-- The squared norms of a block's rows, as a column. -/
theorem sqnCol_apply (v : FVec Ideal S512x128 .f32) (h : S512x128.Reduces [1] S512) (hφ : FKind.Formats .f32)
    (hacc : (0x00000000#32 : BitVec 32) = 0x00000000#32) (hc : S512.ShapeCasts S512x1) (r : Fin 512) (u : Fin 1) :
    shapeCast S512x1 (multiReduction (F := Ideal) .add [1] S512 (mulf v v) 0x00000000#32 h hφ hacc) hc (ix2 r u)
      = ∑ k : Fin 128, v (ix2 r k) * v (ix2 r k) := by
  rw [shapeCast_a_a1_apply, laneSum128]
  rfl

/-- The inner products of the rows of one block with the rows of another: the block product with the transposed
    block (the narrowing of the operands is the identity on extended reals). -/
theorem gramTile_apply (a b : FVec Ideal S512x128 .f32) (ha : FTy.bf16.bits < FTy.f32.bits) (ht : S512x128.Transposes [1, 0] S128x512)
    (r c : Fin 512) :
    matmul (F := Ideal) dot_S512x128_S128x512_S512x512_1_0_0_1_n_n none (truncf .bf16 a ha)
        (transpose S128x512 [1, 0] (truncf .bf16 b ha) ht) (constant (F := Ideal) S512x512 .f32 0x00000000#32) (ix2 r c)
      = ∑ k : Fin 128, a (ix2 r k) * b (ix2 c k) := by
  rw [matmul_tile_apply]
  refine Finset.sum_congr rfl fun k _ => ?_
  rw [transpose_ix2_apply]
  rfl

/-- The guarded root, lane by lane: the root of the clamped square where it is positive (its argument replaced by one
    elsewhere) and zero elsewhere is `distOf` of the clamped square. -/
theorem distOf_select {s : Shape} (v : FVec Ideal s .f32) (i : s.Idx) :
    select (cmpf .ogt v (broadcast s (FloatOps.ofBits (F := Ideal) .f32 0x00000000#32)))
      (sqrt (select (cmpf .ogt v (broadcast s (FloatOps.ofBits (F := Ideal) .f32 0x00000000#32))) v
        (broadcast s (FloatOps.ofBits (F := Ideal) .f32 0x3F800000#32))))
      (broadcast s (FloatOps.ofBits (F := Ideal) .f32 0x00000000#32)) i = distOf (v i) := by
  show Scalar.select (Ideal.cmp .ogt (v i) Cert.Dcor.zero)
    (Ideal.sqrt (Scalar.select (Ideal.cmp .ogt (v i) Cert.Dcor.zero) (v i) Cert.Dcor.one)) Cert.Dcor.zero = _
  rw [select_ogt, select_ogt]
  rfl

/-! ### The payloads -/

theorem k0_pay3_apply (r : Fin 512) (l : Fin 128) : k0_pay3 (F := Ideal) (ix2 r l) = 0 :=
  Ideal.ofBits_zero_f32
theorem k0_pay4_apply (r : Fin 512) (l : Fin 128) : k0_pay4 (F := Ideal) (ix2 r l) = 0 :=
  Ideal.ofBits_zero_f32

theorem k0_pay5_apply (v5 v6 : Vec Ideal S512x128 .f32) (r c : Fin 512) :
    k0_pay5 (F := Ideal) v5 v6 (ix2 r c) = ∑ k : Fin 128, v5 (ix2 r k) * v6 (ix2 c k) := by
  unfold k0_pay5
  exact gramTile_apply v5 v6 _ _ r c

theorem k0_pay7_apply (v5 : Vec Ideal S512x128 .f32) (r c : Fin 512) :
    k0_pay7 (F := Ideal) v5 (ix2 r c) = ∑ k : Fin 128, v5 (ix2 r k) * v5 (ix2 r k) := by
  unfold k0_pay7
  dsimp only
  rw [broadcastTo_a1_ab_apply]
  exact sqnCol_apply v5 _ _ _ _ r 0

theorem k0_pay8_apply (v6 : Vec Ideal S512x128 .f32) (r c : Fin 512) :
    k0_pay8 (F := Ideal) v6 (ix2 r c) = ∑ k : Fin 128, v6 (ix2 c k) * v6 (ix2 c k) := by
  unfold k0_pay8
  dsimp only
  rw [broadcastTo_1b_ab_apply, transpose_ix2_apply]
  exact sqnCol_apply v6 _ _ _ _ c 0

theorem k0_pay6_apply (v3 v4 : Vec Ideal S512x128 .f32) (r c : Fin 512) :
    k0_pay6 (F := Ideal) v3 v4 (ix2 r c)
      = max ((∑ k : Fin 128, v3 (ix2 r k) * v3 (ix2 r k)) + (∑ k : Fin 128, v4 (ix2 c k) * v4 (ix2 c k))
            - Cert.Dcor.two * ∑ k : Fin 128, v3 (ix2 r k) * v4 (ix2 c k)) Cert.Dcor.zero := by
  unfold k0_pay6
  dsimp only
  rw [maximumf_apply, subf_apply, addf_apply, mulf_apply, broadcastTo_a1_ab_apply, broadcastTo_1b_ab_apply,
    transpose_ix2_apply, sqnCol_apply, sqnCol_apply, gramTile_apply]
  rfl

/-- The row sums of the distances of a tile of clamped squared distances, added to the accumulator along the lanes. -/
theorem k0_pay1_apply (v36 : FVec Ideal S512x512 .f32) (acc : Vec Ideal S512x128 .f32) (r : Fin 512) (l : Fin 128) :
    k0_pay1 (F := Ideal) v36 acc (ix2 r l) = acc (ix2 r l) + ∑ c : Fin 512, distOf (v36 (ix2 r c)) := by
  unfold k0_pay1
  dsimp only
  rw [addf_apply, shapeCast_self, broadcastTo_a1_ab_apply, shapeCast_self, shapeCast_a_a1_apply, laneSum512]
  exact congrArg (acc (ix2 r l) + ·) (Finset.sum_congr rfl fun c _ => distOf_select v36 (ix2 r c))

theorem k0_pay2_apply (v14 v37 v38 : FVec Ideal S512x512 .f32) (acc : Vec Ideal S512x128 .f32) (r : Fin 512) (l : Fin 128) :
    k0_pay2 (F := Ideal) v14 v37 v38 acc (ix2 r l)
      = acc (ix2 r l) + ∑ c : Fin 512,
          distOf (max (v37 (ix2 r c) + v38 (ix2 r c) - Cert.Dcor.two * v14 (ix2 r c)) Cert.Dcor.zero) := by
  unfold k0_pay2
  dsimp only
  rw [addf_apply, shapeCast_self, broadcastTo_a1_ab_apply, shapeCast_self, shapeCast_a_a1_apply, laneSum512]
  exact congrArg (acc (ix2 r l) + ·) (Finset.sum_congr rfl fun c _ => (distOf_select _ (ix2 r c)).trans rfl)

/-! ### The two accumulator updates of a grid point, over the sample -/

/-- First sample: at grid point (I, J) the accumulator gains, at row r, the sum over the tile's columns of the
    distances of row 512·I + r to rows 512·J + c. -/
theorem rowX_apply (X : Cert.Dcor.Mat) (I J : Fin 16) (x0 x1 acc : Vec Ideal S512x128 .f32)
    (hx0 : ∀ (r : Fin 512) (k : Fin 128), x0 (ix2 r k) = X ⟨512 * I.val + r.val, by omega⟩ k)
    (hx1 : ∀ (c : Fin 512) (k : Fin 128), x1 (ix2 c k) = X ⟨512 * J.val + c.val, by omega⟩ k)
    (r : Fin 512) (l : Fin 128) :
    k0_pay1 (F := Ideal) (k0_pay6 x0 x1) acc (ix2 r l)
      = acc (ix2 r l)
        + ∑ c : Fin 512, Cert.Dcor.dist X ⟨512 * I.val + r.val, by omega⟩ ⟨512 * J.val + c.val, by omega⟩ := by
  rw [k0_pay1_apply]
  refine congrArg (acc (ix2 r l) + ·) (Finset.sum_congr rfl fun c _ => ?_)
  rw [k0_pay6_apply, dist_eq_distOf]
  unfold Cert.Dcor.sqd Cert.Dcor.sqn Cert.Dcor.gram
  simp only [hx0, hx1]

/-- Second sample: the same, the tile assembled from the inner products and the two broadcast squared norms. -/
theorem rowY_apply (Y : Cert.Dcor.Mat) (I J : Fin 16) (x2 x3 acc : Vec Ideal S512x128 .f32)
    (hx2 : ∀ (r : Fin 512) (k : Fin 128), x2 (ix2 r k) = Y ⟨512 * I.val + r.val, by omega⟩ k)
    (hx3 : ∀ (c : Fin 512) (k : Fin 128), x3 (ix2 c k) = Y ⟨512 * J.val + c.val, by omega⟩ k)
    (r : Fin 512) (l : Fin 128) :
    k0_pay2 (F := Ideal) (k0_pay5 x2 x3) (k0_pay7 x2) (k0_pay8 x3) acc (ix2 r l)
      = acc (ix2 r l)
        + ∑ c : Fin 512, Cert.Dcor.dist Y ⟨512 * I.val + r.val, by omega⟩ ⟨512 * J.val + c.val, by omega⟩ := by
  rw [k0_pay2_apply]
  refine congrArg (acc (ix2 r l) + ·) (Finset.sum_congr rfl fun c _ => ?_)
  rw [k0_pay5_apply, k0_pay7_apply, k0_pay8_apply, dist_eq_distOf]
  unfold Cert.Dcor.sqd Cert.Dcor.sqn Cert.Dcor.gram
  simp only [hx2, hx3]

end Cert.KernelIdeal.HandValue

end
-- ==== Proof.DcorTiles.lean ====
/-
  A sum over 8192 indices as 16 tiles of 512, and a sum as the running total of a left-to-right accumulation.

  Every index below 8192 is 512·J + c for exactly one tile J < 16 and one offset c < 512, so a sum over the 8192
  indices is the sum over the tiles of the sums within each tile. Nothing about the summands is used beyond the
  commutative monoid they live in, so no finiteness is needed on the extended reals. Applied to rows and to
  columns it splits the sum over all pairs into 16 × 16 tiles of 512 × 512.
-/
import proofs.«133753_j71141838291708_1_alg».proof.Proof.DcorSpec

namespace Cert.Dcor

theorem sum_tiles {M : Type*} [AddCommMonoid M] (f : Fin 8192 → M) :
    ∑ J : Fin 16, ∑ c : Fin 512, f ⟨512 * J.val + c.val, by omega⟩ = ∑ j : Fin 8192, f j := by
  rw [← Fintype.sum_prod_type' (f := fun (J : Fin 16) (c : Fin 512) => f ⟨512 * J.val + c.val, by omega⟩)]
  refine Fintype.sum_equiv (finProdFinEquiv.trans (finCongr (by norm_num : 16 * 512 = 8192))) _ _ (fun p => ?_)
  congr 1
  apply Fin.ext
  simp [finProdFinEquiv]
  omega

theorem sum_tiles2 {M : Type*} [AddCommMonoid M] (f : Fin 8192 → Fin 8192 → M) :
    ∑ I : Fin 16, ∑ J : Fin 16, ∑ r : Fin 512, ∑ c : Fin 512,
        f ⟨512 * I.val + r.val, by omega⟩ ⟨512 * J.val + c.val, by omega⟩
      = ∑ i : Fin 8192, ∑ j : Fin 8192, f i j := by
  rw [← sum_tiles (fun i => ∑ j : Fin 8192, f i j)]
  refine Finset.sum_congr rfl (fun I _ => ?_)
  rw [Finset.sum_comm]
  refine Finset.sum_congr rfl (fun r _ => ?_)
  exact sum_tiles (fun j => f ⟨512 * I.val + r.val, by omega⟩ j)

/-- The running total after `t` steps of an accumulation that starts at zero and adds `g t` at step `t`. -/
def run {M : Type*} [AddCommMonoid M] (g : ℕ → M) : ℕ → M
  | 0 => 0
  | t + 1 => run g t + g t

theorem run_eq_sum_range {M : Type*} [AddCommMonoid M] (g : ℕ → M) (n : ℕ) :
    run g n = ∑ t ∈ Finset.range n, g t := by
  induction n with
  | zero => simp [run]
  | succ n ih => rw [run, ih, Finset.sum_range_succ]

theorem run_eq_sum {M : Type*} [AddCommMonoid M] (g : ℕ → M) (n : ℕ) :
    run g n = ∑ t : Fin n, g t.val := by
  rw [run_eq_sum_range, Finset.sum_range]

/-- The same running total written as a left fold over the step numbers. -/
theorem foldl_range_eq_sum {M : Type*} [AddCommMonoid M] (g : ℕ → M) (n : ℕ) :
    (List.range n).foldl (fun a t => a + g t) 0 = ∑ t : Fin n, g t.val := by
  rw [← run_eq_sum]
  induction n with
  | zero => simp [run]
  | succ n ih => rw [List.range_succ, List.foldl_append, ih]; simp [run]

/-- A sum over the 256 grid points, numbered row by row, as the double sum over the 16 × 16 grid. -/
theorem sum_grid {M : Type*} [AddCommMonoid M] (g : Fin 256 → M) :
    ∑ I : Fin 16, ∑ J : Fin 16, g ⟨16 * I.val + J.val, by omega⟩ = ∑ t : Fin 256, g t := by
  rw [← Fintype.sum_prod_type' (f := fun (I : Fin 16) (J : Fin 16) => g ⟨16 * I.val + J.val, by omega⟩)]
  refine Fintype.sum_equiv (finProdFinEquiv.trans (finCongr (by norm_num : 16 * 16 = 256))) _ _ (fun p => ?_)
  congr 1
  apply Fin.ext
  simp [finProdFinEquiv]
  omega

end Cert.Dcor
-- ==== Proof.RowValue.lean ====
/-
  The row pass's results, in closed form at the extended reals. After the point numbered 16·I + J the accumulator
  of a sample holds at row r, in every lane, the sum of the distances from point 512·I + r of the sample to the
  points of the column tiles 0 … J: the reset at J = 0 starts it from zero, and every later point of the grid row
  adds one tile's row sums. After J = 15 that is the whole row sum, which the write-back puts in rows 512·I … of
  the result; so the result holds at (i, l) the sum of the distances from point i to all points.

  The blocks the windows read and what the write-backs leave are taken as hypotheses, in the shape the block and
  array lemmas state them.
-/
import proofs.«133753_j71141838291708_1_alg».proof.Proof.RowBody
import proofs.«133753_j71141838291708_1_alg».proof.Proof.RowPieces
import proofs.«133753_j71141838291708_1_alg».proof.Proof.RowPayload
import proofs.«133753_j71141838291708_1_alg».proof.Proof.DcorTiles

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HandValue Cert.Dcor

/-- The sum of the distances from point `i` to the points of column tile `J` (zero past the last tile). -/
def tileRow (X : Mat) (i : Fin 8192) (J : ℕ) : EReal :=
  if h : J < 16 then ∑ q : Fin 512, dist X i ⟨512 * J + q.val, by omega⟩ else 0

/-- The sixteen tiles of a row make up the row sum. -/
theorem sum_tileRow (X : Mat) (i : Fin 8192) : ∑ J ∈ Finset.range 16, tileRow X i J = rowSum X i := by
  rw [Finset.sum_range]
  unfold rowSum
  rw [← sum_tiles (fun j => dist X i j)]
  refine Finset.sum_congr rfl fun J _ => ?_
  unfold tileRow
  rw [dif_pos J.isLt]

section
variable (V : (c : Dev nD) → (b : Ref sig .tc) → Buf (Elt Ideal) ((c : Thread nD τ).loc b)) (c : Dev nD)

/-! ### One point of the grid -/

theorem rowStepX_reset
    (hb0 : ∀ (t : Fin cfg0.N) (r : Fin 512) (k : Fin 128), (rowBlk V c 0 t : S512x128.Idx → EReal) (ix2 r k)
      = V c main_arg0 (ix2 ⟨512 * (t.val / 16) + r.val, by have := lt_of_lt_of_eq t.isLt (show cfg0.N = 256 from N_0); omega⟩ k))
    (hb1 : ∀ (t : Fin cfg0.N) (q : Fin 512) (k : Fin 128), (rowBlk V c 1 t : S512x128.Idx → EReal) (ix2 q k)
      = V c main_arg0 (ix2 ⟨512 * (t.val % 16) + q.val, by omega⟩ k))
    (t : Fin cfg0.N) (h0 : t.val % 16 = 0) (r : Fin 512) (l : Fin 128) :
    ((rowAcc V c t.val t.isLt).1 : S512x128.Idx → EReal) (ix2 r l)
      = ∑ q : Fin 512, dist (ofArr (V c main_arg0))
          ⟨512 * (t.val / 16) + r.val, by have := lt_of_lt_of_eq t.isLt (show cfg0.N = 256 from N_0); omega⟩
          ⟨512 * (t.val % 16) + q.val, by omega⟩ := by
  have hN : t.val < 256 := lt_of_lt_of_eq t.isLt (show cfg0.N = 256 from N_0)
  rw [rowAcc_reset4 V c t h0]
  unfold rowResetAt
  rw [rowReset_val4]
  rw [rowX_apply (ofArr (V c main_arg0)) ⟨t.val / 16, by omega⟩ ⟨t.val % 16, by omega⟩ (rowBlk V c 0 t) (rowBlk V c 1 t)
    (k0_pay3 (F := Ideal)) (fun r' k => hb0 t r' k) (fun q k => hb1 t q k) r l, k0_pay3_apply, zero_add]

theorem rowStepX_add
    (hb0 : ∀ (t : Fin cfg0.N) (r : Fin 512) (k : Fin 128), (rowBlk V c 0 t : S512x128.Idx → EReal) (ix2 r k)
      = V c main_arg0 (ix2 ⟨512 * (t.val / 16) + r.val, by have := lt_of_lt_of_eq t.isLt (show cfg0.N = 256 from N_0); omega⟩ k))
    (hb1 : ∀ (t : Fin cfg0.N) (q : Fin 512) (k : Fin 128), (rowBlk V c 1 t : S512x128.Idx → EReal) (ix2 q k)
      = V c main_arg0 (ix2 ⟨512 * (t.val % 16) + q.val, by omega⟩ k))
    (t : Fin cfg0.N) (h0 : ¬t.val % 16 = 0) (r : Fin 512) (l : Fin 128) :
    ((rowAcc V c t.val t.isLt).1 : S512x128.Idx → EReal) (ix2 r l)
      = ((rowAcc V c (t.val - 1) (Nat.lt_of_le_of_lt (Nat.sub_le _ _) t.isLt)).1 : S512x128.Idx → EReal) (ix2 r l)
        + ∑ q : Fin 512, dist (ofArr (V c main_arg0))
          ⟨512 * (t.val / 16) + r.val, by have := lt_of_lt_of_eq t.isLt (show cfg0.N = 256 from N_0); omega⟩
          ⟨512 * (t.val % 16) + q.val, by omega⟩ := by
  have hN : t.val < 256 := lt_of_lt_of_eq t.isLt (show cfg0.N = 256 from N_0)
  rw [rowAcc_add4 V c t h0]
  unfold rowAddAt
  rw [rowAdd_val4]
  rw [rowX_apply (ofArr (V c main_arg0)) ⟨t.val / 16, by omega⟩ ⟨t.val % 16, by omega⟩ (rowBlk V c 0 t) (rowBlk V c 1 t)
    _ (fun r' k => hb0 t r' k) (fun q k => hb1 t q k) r l]

/-! ### A row of the grid -/

theorem rowAccX
    (hb0 : ∀ (t : Fin cfg0.N) (r : Fin 512) (k : Fin 128), (rowBlk V c 0 t : S512x128.Idx → EReal) (ix2 r k)
      = V c main_arg0 (ix2 ⟨512 * (t.val / 16) + r.val, by have := lt_of_lt_of_eq t.isLt (show cfg0.N = 256 from N_0); omega⟩ k))
    (hb1 : ∀ (t : Fin cfg0.N) (q : Fin 512) (k : Fin 128), (rowBlk V c 1 t : S512x128.Idx → EReal) (ix2 q k)
      = V c main_arg0 (ix2 ⟨512 * (t.val % 16) + q.val, by omega⟩ k))
    (I : Fin 16) (r : Fin 512) (l : Fin 128) :
    ∀ (J : ℕ) (hJ : J < 16),
      ((rowAcc V c (16 * I.val + J) (lt_of_lt_of_eq (by omega : 16 * I.val + J < 256) (show (256 : ℕ) = cfg0.N from N_0.symm))).1
          : S512x128.Idx → EReal) (ix2 r l)
        = ∑ J' ∈ Finset.range (J + 1), tileRow (ofArr (V c main_arg0)) ⟨512 * I.val + r.val, by omega⟩ J' := by
  intro J
  induction J with
  | zero =>
    intro hJ
    have hlt : 16 * I.val + 0 < cfg0.N := lt_of_lt_of_eq (by omega : 16 * I.val + 0 < 256) (show (256 : ℕ) = cfg0.N from N_0.symm)
    have e := rowStepX_reset V c hb0 hb1 ⟨16 * I.val + 0, hlt⟩ (by show (16 * I.val + 0) % 16 = 0; omega) r l
    refine e.trans ?_
    rw [Finset.sum_range_one]
    unfold tileRow
    rw [dif_pos (by omega)]
    refine Finset.sum_congr rfl fun q _ => ?_
    congr 1
    · exact Fin.ext (by show 512 * ((16 * I.val + 0) / 16) + r.val = 512 * I.val + r.val; omega)
    · exact Fin.ext (by show 512 * ((16 * I.val + 0) % 16) + q.val = 512 * 0 + q.val; omega)
  | succ J ih =>
    intro hJ
    have hlt : 16 * I.val + (J + 1) < cfg0.N := lt_of_lt_of_eq (by omega : 16 * I.val + (J + 1) < 256) (show (256 : ℕ) = cfg0.N from N_0.symm)
    have e := rowStepX_add V c hb0 hb1 ⟨16 * I.val + (J + 1), hlt⟩ (by show ¬(16 * I.val + (J + 1)) % 16 = 0; omega) r l
    refine e.trans ?_
    rw [Finset.sum_range_succ _ (J + 1)]
    congr 1
    · exact ih (by omega)
    · unfold tileRow
      rw [dif_pos (by omega)]
      refine Finset.sum_congr rfl fun q _ => ?_
      congr 1
      · exact Fin.ext (by show 512 * ((16 * I.val + (J + 1)) / 16) + r.val = 512 * I.val + r.val; omega)
      · exact Fin.ext (by show 512 * ((16 * I.val + (J + 1)) % 16) + q.val = 512 * (J + 1) + q.val; omega)

/-! ### The result -/

theorem rowResultX
    (hb0 : ∀ (t : Fin cfg0.N) (r : Fin 512) (k : Fin 128), (rowBlk V c 0 t : S512x128.Idx → EReal) (ix2 r k)
      = V c main_arg0 (ix2 ⟨512 * (t.val / 16) + r.val, by have := lt_of_lt_of_eq t.isLt (show cfg0.N = 256 from N_0); omega⟩ k))
    (hb1 : ∀ (t : Fin cfg0.N) (q : Fin 512) (k : Fin 128), (rowBlk V c 1 t : S512x128.Idx → EReal) (ix2 q k)
      = V c main_arg0 (ix2 ⟨512 * (t.val % 16) + q.val, by omega⟩ k))
    (hf4 : ∀ (i : Fin 8192) (l : Fin 128), ((rowDat V c).arrAt 4 cfg0.N : S8192x128.Idx → EReal) (ix2 i l)
      = ((rowAcc V c (16 * (i.val / 512) + 15)
            (lt_of_lt_of_eq (by omega : 16 * (i.val / 512) + 15 < 256) (show (256 : ℕ) = cfg0.N from N_0.symm))).1
          : S512x128.Idx → EReal) (ix2 ⟨i.val % 512, Nat.mod_lt _ (by norm_num)⟩ l))
    (i : Fin 8192) (l : Fin 128) :
    ((rowDat V c).arrAt 4 cfg0.N : S8192x128.Idx → EReal) (ix2 i l) = rowSum (ofArr (V c main_arg0)) i := by
  rw [hf4 i l]
  refine (rowAccX V c hb0 hb1 ⟨i.val / 512, by omega⟩ ⟨i.val % 512, Nat.mod_lt _ (by norm_num)⟩ l 15 (by norm_num)).trans ?_
  have hi : (⟨512 * (i.val / 512) + i.val % 512, by omega⟩ : Fin 8192) = i := Fin.ext (by show 512 * (i.val / 512) + i.val % 512 = i.val; omega)
  show ∑ J' ∈ Finset.range 16, tileRow (ofArr (V c main_arg0)) ⟨512 * (i.val / 512) + i.val % 512, by omega⟩ J' = _
  rw [hi, sum_tileRow]

/-! ### The second sample: one point of the grid -/

theorem rowStepY_reset
    (hb2 : ∀ (t : Fin cfg0.N) (r : Fin 512) (k : Fin 128), (rowBlk V c 2 t : S512x128.Idx → EReal) (ix2 r k)
      = V c main_arg1 (ix2 ⟨512 * (t.val / 16) + r.val, by have := lt_of_lt_of_eq t.isLt (show cfg0.N = 256 from N_0); omega⟩ k))
    (hb3 : ∀ (t : Fin cfg0.N) (q : Fin 512) (k : Fin 128), (rowBlk V c 3 t : S512x128.Idx → EReal) (ix2 q k)
      = V c main_arg1 (ix2 ⟨512 * (t.val % 16) + q.val, by omega⟩ k))
    (t : Fin cfg0.N) (h0 : t.val % 16 = 0) (r : Fin 512) (l : Fin 128) :
    ((rowAcc V c t.val t.isLt).2 : S512x128.Idx → EReal) (ix2 r l)
      = ∑ q : Fin 512, dist (ofArr (V c main_arg1))
          ⟨512 * (t.val / 16) + r.val, by have := lt_of_lt_of_eq t.isLt (show cfg0.N = 256 from N_0); omega⟩
          ⟨512 * (t.val % 16) + q.val, by omega⟩ := by
  have hN : t.val < 256 := lt_of_lt_of_eq t.isLt (show cfg0.N = 256 from N_0)
  rw [rowAcc_reset5 V c t h0]
  unfold rowResetAt
  rw [rowReset_val5]
  rw [rowY_apply (ofArr (V c main_arg1)) ⟨t.val / 16, by omega⟩ ⟨t.val % 16, by omega⟩ (rowBlk V c 2 t) (rowBlk V c 3 t)
    (k0_pay4 (F := Ideal)) (fun r' k => hb2 t r' k) (fun q k => hb3 t q k) r l, k0_pay4_apply, zero_add]

theorem rowStepY_add
    (hb2 : ∀ (t : Fin cfg0.N) (r : Fin 512) (k : Fin 128), (rowBlk V c 2 t : S512x128.Idx → EReal) (ix2 r k)
      = V c main_arg1 (ix2 ⟨512 * (t.val / 16) + r.val, by have := lt_of_lt_of_eq t.isLt (show cfg0.N = 256 from N_0); omega⟩ k))
    (hb3 : ∀ (t : Fin cfg0.N) (q : Fin 512) (k : Fin 128), (rowBlk V c 3 t : S512x128.Idx → EReal) (ix2 q k)
      = V c main_arg1 (ix2 ⟨512 * (t.val % 16) + q.val, by omega⟩ k))
    (t : Fin cfg0.N) (h0 : ¬t.val % 16 = 0) (r : Fin 512) (l : Fin 128) :
    ((rowAcc V c t.val t.isLt).2 : S512x128.Idx → EReal) (ix2 r l)
      = ((rowAcc V c (t.val - 1) (Nat.lt_of_le_of_lt (Nat.sub_le _ _) t.isLt)).2 : S512x128.Idx → EReal) (ix2 r l)
        + ∑ q : Fin 512, dist (ofArr (V c main_arg1))
          ⟨512 * (t.val / 16) + r.val, by have := lt_of_lt_of_eq t.isLt (show cfg0.N = 256 from N_0); omega⟩
          ⟨512 * (t.val % 16) + q.val, by omega⟩ := by
  have hN : t.val < 256 := lt_of_lt_of_eq t.isLt (show cfg0.N = 256 from N_0)
  rw [rowAcc_add5 V c t h0]
  unfold rowAddAt
  rw [rowAdd_val5]
  rw [rowY_apply (ofArr (V c main_arg1)) ⟨t.val / 16, by omega⟩ ⟨t.val % 16, by omega⟩ (rowBlk V c 2 t) (rowBlk V c 3 t)
    _ (fun r' k => hb2 t r' k) (fun q k => hb3 t q k) r l]

/-! ### The second sample: a row of the grid -/

theorem rowAccY
    (hb2 : ∀ (t : Fin cfg0.N) (r : Fin 512) (k : Fin 128), (rowBlk V c 2 t : S512x128.Idx → EReal) (ix2 r k)
      = V c main_arg1 (ix2 ⟨512 * (t.val / 16) + r.val, by have := lt_of_lt_of_eq t.isLt (show cfg0.N = 256 from N_0); omega⟩ k))
    (hb3 : ∀ (t : Fin cfg0.N) (q : Fin 512) (k : Fin 128), (rowBlk V c 3 t : S512x128.Idx → EReal) (ix2 q k)
      = V c main_arg1 (ix2 ⟨512 * (t.val % 16) + q.val, by omega⟩ k))
    (I : Fin 16) (r : Fin 512) (l : Fin 128) :
    ∀ (J : ℕ) (hJ : J < 16),
      ((rowAcc V c (16 * I.val + J) (lt_of_lt_of_eq (by omega : 16 * I.val + J < 256) (show (256 : ℕ) = cfg0.N from N_0.symm))).2
          : S512x128.Idx → EReal) (ix2 r l)
        = ∑ J' ∈ Finset.range (J + 1), tileRow (ofArr (V c main_arg1)) ⟨512 * I.val + r.val, by omega⟩ J' := by
  intro J
  induction J with
  | zero =>
    intro hJ
    have hlt : 16 * I.val + 0 < cfg0.N := lt_of_lt_of_eq (by omega : 16 * I.val + 0 < 256) (show (256 : ℕ) = cfg0.N from N_0.symm)
    have e := rowStepY_reset V c hb2 hb3 ⟨16 * I.val + 0, hlt⟩ (by show (16 * I.val + 0) % 16 = 0; omega) r l
    refine e.trans ?_
    rw [Finset.sum_range_one]
    unfold tileRow
    rw [dif_pos (by omega)]
    refine Finset.sum_congr rfl fun q _ => ?_
    congr 1
    · exact Fin.ext (by show 512 * ((16 * I.val + 0) / 16) + r.val = 512 * I.val + r.val; omega)
    · exact Fin.ext (by show 512 * ((16 * I.val + 0) % 16) + q.val = 512 * 0 + q.val; omega)
  | succ J ih =>
    intro hJ
    have hlt : 16 * I.val + (J + 1) < cfg0.N := lt_of_lt_of_eq (by omega : 16 * I.val + (J + 1) < 256) (show (256 : ℕ) = cfg0.N from N_0.symm)
    have e := rowStepY_add V c hb2 hb3 ⟨16 * I.val + (J + 1), hlt⟩ (by show ¬(16 * I.val + (J + 1)) % 16 = 0; omega) r l
    refine e.trans ?_
    rw [Finset.sum_range_succ _ (J + 1)]
    congr 1
    · exact ih (by omega)
    · unfold tileRow
      rw [dif_pos (by omega)]
      refine Finset.sum_congr rfl fun q _ => ?_
      congr 1
      · exact Fin.ext (by show 512 * ((16 * I.val + (J + 1)) / 16) + r.val = 512 * I.val + r.val; omega)
      · exact Fin.ext (by show 512 * ((16 * I.val + (J + 1)) % 16) + q.val = 512 * (J + 1) + q.val; omega)

/-! ### The second sample: the result -/

theorem rowResultY
    (hb2 : ∀ (t : Fin cfg0.N) (r : Fin 512) (k : Fin 128), (rowBlk V c 2 t : S512x128.Idx → EReal) (ix2 r k)
      = V c main_arg1 (ix2 ⟨512 * (t.val / 16) + r.val, by have := lt_of_lt_of_eq t.isLt (show cfg0.N = 256 from N_0); omega⟩ k))
    (hb3 : ∀ (t : Fin cfg0.N) (q : Fin 512) (k : Fin 128), (rowBlk V c 3 t : S512x128.Idx → EReal) (ix2 q k)
      = V c main_arg1 (ix2 ⟨512 * (t.val % 16) + q.val, by omega⟩ k))
    (hf5 : ∀ (i : Fin 8192) (l : Fin 128), ((rowDat V c).arrAt 5 cfg0.N : S8192x128.Idx → EReal) (ix2 i l)
      = ((rowAcc V c (16 * (i.val / 512) + 15)
            (lt_of_lt_of_eq (by omega : 16 * (i.val / 512) + 15 < 256) (show (256 : ℕ) = cfg0.N from N_0.symm))).2
          : S512x128.Idx → EReal) (ix2 ⟨i.val % 512, Nat.mod_lt _ (by norm_num)⟩ l))
    (i : Fin 8192) (l : Fin 128) :
    ((rowDat V c).arrAt 5 cfg0.N : S8192x128.Idx → EReal) (ix2 i l) = rowSum (ofArr (V c main_arg1)) i := by
  rw [hf5 i l]
  refine (rowAccY V c hb2 hb3 ⟨i.val / 512, by omega⟩ ⟨i.val % 512, Nat.mod_lt _ (by norm_num)⟩ l 15 (by norm_num)).trans ?_
  have hi : (⟨512 * (i.val / 512) + i.val % 512, by omega⟩ : Fin 8192) = i := Fin.ext (by show 512 * (i.val / 512) + i.val % 512 = i.val; omega)
  show ∑ J' ∈ Finset.range 16, tileRow (ofArr (V c main_arg1)) ⟨512 * (i.val / 512) + i.val % 512, by omega⟩ J' = _
  rw [hi, sum_tileRow]

end

end Cert.KernelIdeal.Hand

end
-- ==== Proof.CovPieces.lean ====
/-
  What the covariance body's stores leave, as values: after the first point each accumulator is the tile's sum
  added to the zero block; after any other point it is the tile's sum added to the running contents. Each store
  covers the whole accumulator, so only the last one matters, and its payload's loads read the whole input buffers.
-/
import proofs.«133753_j71141838291708_1_alg».proof.Proof.CovData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2c : (![0, 0] : Fin 2 → Nat) = fun _ => 0 := funext fun a => by fin_cases a <;> rfl

section
variable (c : Dev nD) (i : grid1.Coords)
    (a2 : Memref sig .tc .vmem S512x128 .f32) (h2 : a2.IsWhole) (a3 : Memref sig .tc .vmem S512x128 .f32) (h3 : a3.IsWhole)
    (a4 : Memref sig .tc .vmem S512x128 .f32) (h4 : a4.IsWhole) (a5 : Memref sig .tc .vmem S512x128 .f32) (h5 : a5.IsWhole)
    (a6 : Memref sig .tc .vmem S512x1 .f32) (h6 : a6.IsWhole) (a7 : Memref sig .tc .vmem S1x512 .f32) (h7 : a7.IsWhole)
    (a8 : Memref sig .tc .vmem S512x1 .f32) (h8 : a8.IsWhole) (a9 : Memref sig .tc .vmem S1x512 .f32) (h9 : a9.IsWhole)
    (a10 : Memref sig .tc .vmem S1x128 .f32) (h10 : a10.IsWhole) (a11 : Memref sig .tc .vmem S1x128 .f32) (h11 : a11.IsWhole)
    (a12 : Memref sig .tc .vmem S1x128 .f32) (h12 : a12.IsWhole)
    (x0 x1 x2 x3 : Vec F S512x128 .f32) (x4 : Vec F S512x1 .f32) (x5 : Vec F S1x512 .f32) (x6 : Vec F S512x1 .f32) (x7 : Vec F S1x512 .f32)

theorem covAdd_val8 (hc : ¬covReset i) (acc8 acc9 acc10 : Vec F S1x128 .f32) :
    View.canon (covRunAdd c i a2 h2 a3 h3 a4 h4 a5 h5 a6 h6 a7 h7 a8 h8 a9 h9 a10 h10 a11 h11 a12 h12 hc x0 x1 x2 x3 x4 x5 x6 x7 acc8 acc9 acc10).1
      = k1_pay1 (k1_pay14 (k1_pay7 x2 x3) (k1_pay8 x2) (k1_pay9 x3) (k1_pay10 x0 x1) (k1_pay11 (F := F)) x4 x5 x6 x7) acc8 := by
  unfold covRunAdd
  dsimp only
  sl_unfold_words
  rw [View.canon_unit_zero hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

theorem covReset_val8 (hc : covReset i) :
    View.canon (covRunReset c i a2 h2 a3 h3 a4 h4 a5 h5 a6 h6 a7 h7 a8 h8 a9 h9 a10 h10 a11 h11 a12 h12 hc x0 x1 x2 x3 x4 x5 x6 x7).1
      = k1_pay1 (k1_pay14 (k1_pay7 x2 x3) (k1_pay8 x2) (k1_pay9 x3) (k1_pay10 x0 x1) (k1_pay11 (F := F)) x4 x5 x6 x7) (k1_pay4 (F := F)) := by
  unfold covRunReset
  dsimp only
  sl_unfold_words
  rw [View.canon_cons_unit_zero (S := S1x128) hz2c, View.readCov_unit_zero (S := S1x128) _ hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

theorem covAdd_val9 (hc : ¬covReset i) (acc8 acc9 acc10 : Vec F S1x128 .f32) :
    View.canon (covRunAdd c i a2 h2 a3 h3 a4 h4 a5 h5 a6 h6 a7 h7 a8 h8 a9 h9 a10 h10 a11 h11 a12 h12 hc x0 x1 x2 x3 x4 x5 x6 x7 acc8 acc9 acc10).2.1
      = k1_pay2 (k1_pay12 (k1_pay10 x0 x1) (k1_pay11 (F := F)) x4 x5) acc9 := by
  unfold covRunAdd
  dsimp only
  sl_unfold_words
  rw [View.canon_unit_zero hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

theorem covReset_val9 (hc : covReset i) :
    View.canon (covRunReset c i a2 h2 a3 h3 a4 h4 a5 h5 a6 h6 a7 h7 a8 h8 a9 h9 a10 h10 a11 h11 a12 h12 hc x0 x1 x2 x3 x4 x5 x6 x7).2.1
      = k1_pay2 (k1_pay12 (k1_pay10 x0 x1) (k1_pay11 (F := F)) x4 x5) (k1_pay5 (F := F)) := by
  unfold covRunReset
  dsimp only
  sl_unfold_words
  rw [View.canon_cons_unit_zero (S := S1x128) hz2c, View.readCov_unit_zero (S := S1x128) _ hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

theorem covAdd_val10 (hc : ¬covReset i) (acc8 acc9 acc10 : Vec F S1x128 .f32) :
    View.canon (covRunAdd c i a2 h2 a3 h3 a4 h4 a5 h5 a6 h6 a7 h7 a8 h8 a9 h9 a10 h10 a11 h11 a12 h12 hc x0 x1 x2 x3 x4 x5 x6 x7 acc8 acc9 acc10).2.2.1
      = k1_pay3 (k1_pay13 (k1_pay7 x2 x3) (k1_pay8 x2) (k1_pay9 x3) x6 x7) acc10 := by
  unfold covRunAdd
  dsimp only
  sl_unfold_words
  rw [View.canon_unit_zero hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

theorem covReset_val10 (hc : covReset i) :
    View.canon (covRunReset c i a2 h2 a3 h3 a4 h4 a5 h5 a6 h6 a7 h7 a8 h8 a9 h9 a10 h10 a11 h11 a12 h12 hc x0 x1 x2 x3 x4 x5 x6 x7).2.2.1
      = k1_pay3 (k1_pay13 (k1_pay7 x2 x3) (k1_pay8 x2) (k1_pay9 x3) x6 x7) (k1_pay6 (F := F)) := by
  unfold covRunReset
  dsimp only
  sl_unfold_words
  rw [View.canon_cons_unit_zero (S := S1x128) hz2c, View.readCov_unit_zero (S := S1x128) _ hz2c]
  simp only [View.readAt_eq_ld, h2.read_unread, h3.read_unread, h4.read_unread, h5.read_unread, h6.read_unread, h7.read_unread,
    h8.read_unread, h9.read_unread, h10.read_unread, h11.read_unread, h12.read_unread,
    View.ld_unit_zero (S := S512x128) hz2c, View.ld_unit_zero (S := S512x1) hz2c, View.ld_unit_zero (S := S1x512) hz2c, View.ld_unit_zero (S := S1x128) hz2c]

end

end Cert.KernelIdeal.Hand

end
-- ==== Proof.CovPayload.lean ====
/-
  The covariance pass, read at an index.

  One grid point (I, J) of the covariance pass loads blocks I and J of both samples and the blocks of four mean
  vectors (a column of 512 and a row of 512 for each sample), forms the two 512 × 512 tiles of distances as the row
  pass does, subtracts from each entry the column vector's entry of its row and then the row vector's entry of its
  column, and adds to three accumulators the sums over the tile of the products A·B, A·A and B·B of the two centred
  tiles: a lane sum within each row, laid out as a column, then the sum of the column, broadcast along the lanes.
-/
import proofs.«133753_j71141838291708_1_alg».proof.Proof.RowPayload

noncomputable section

namespace Cert.KernelIdeal.HandValue

open Idealize.ShloMosaic Idealize.ShloMosaic.ValueIdx Cert.KernelIdeal Cert.KernelIdeal.Gen

/-! ### The sum of a column -/

theorem sublaneSum512 (v : FVec Ideal S512x1 .f32) (h : S512x1.Reduces [0] S1) (hφ : FKind.Formats .f32)
    (hacc : (0x00000000#32 : BitVec 32) = 0x00000000#32) (u : Fin 1) :
    multiReduction (F := Ideal) .add [0] S1 v 0x00000000#32 h hφ hacc (ix1 u) = ∑ r : Fin 512, v (ix2 r u) := by
  refine (Ideal.multiReduction_add_single v _ h hφ hacc (ix1 u)).trans ?_
  show ∑ k : Fin 512, v (h.lift (ix1 u) k) = ∑ k : Fin 512, v (ix2 k u)
  refine Finset.sum_congr rfl fun k _ => congrArg v (funext fun a => Fin.ext ?_)
  match a with
  | ⟨0, _⟩ => rfl
  | ⟨1, _⟩ => rfl

/-- The sum of a column of 512, broadcast along the lanes and added to the accumulator. -/
theorem colTotal_apply (v : FVec Ideal S512x1 .f32) (acc : Vec Ideal S1x128 .f32) (h : S512x1.Reduces [0] S1)
    (hφ : FKind.Formats .f32) (hacc : (0x00000000#32 : BitVec 32) = 0x00000000#32) (h1 : S1.ShapeCasts S1x1)
    (h2 : S1x128.ShapeCasts S1x128) (h3 : S1x1.ShapeCasts S1x1) (h4 : S1x1.Broadcasts S1x128) (l : Fin 128) :
    addf (F := Ideal) (shapeCast S1x128 acc h2)
        (broadcastTo S1x128 (shapeCast S1x1 (shapeCast S1x1
          (multiReduction (F := Ideal) .add [0] S1 v 0x00000000#32 h hφ hacc) h1) h3) h4) (ix2 (0 : Fin 1) l)
      = acc (ix2 (0 : Fin 1) l) + ∑ r : Fin 512, v (ix2 r (0 : Fin 1)) := by
  rw [addf_apply, shapeCast_self, broadcastTo_a1_ab_apply, shapeCast_self, shapeCast_a_a1_apply, sublaneSum512]

/-- The row sums of a 512 × 512 tile, as a column. -/
theorem rowSumCol_apply (w : FVec Ideal S512x512 .f32) (h : S512x512.Reduces [1] S512) (hφ : FKind.Formats .f32)
    (hacc : (0x00000000#32 : BitVec 32) = 0x00000000#32) (hc : S512.ShapeCasts S512x1) (r : Fin 512) (u : Fin 1) :
    shapeCast S512x1 (multiReduction (F := Ideal) .add [1] S512 w 0x00000000#32 h hφ hacc) hc (ix2 r u)
      = ∑ c : Fin 512, w (ix2 r c) := by
  rw [shapeCast_a_a1_apply, laneSum512]

/-! ### The three accumulator updates, over the tiles they sum -/

theorem k1_pay4_apply (l : Fin 128) : k1_pay4 (F := Ideal) (ix2 (0 : Fin 1) l) = 0 := Ideal.ofBits_zero_f32
theorem k1_pay5_apply (l : Fin 128) : k1_pay5 (F := Ideal) (ix2 (0 : Fin 1) l) = 0 := Ideal.ofBits_zero_f32
theorem k1_pay6_apply (l : Fin 128) : k1_pay6 (F := Ideal) (ix2 (0 : Fin 1) l) = 0 := Ideal.ofBits_zero_f32

theorem k1_pay1_apply (v79 : FVec Ideal S512x1 .f32) (acc : Vec Ideal S1x128 .f32) (l : Fin 128) :
    k1_pay1 (F := Ideal) v79 acc (ix2 (0 : Fin 1) l) = acc (ix2 (0 : Fin 1) l) + ∑ r : Fin 512, v79 (ix2 r (0 : Fin 1)) := by
  unfold k1_pay1
  exact colTotal_apply v79 acc _ _ _ _ _ _ _ l

theorem k1_pay2_apply (v68 : FVec Ideal S512x512 .f32) (acc : Vec Ideal S1x128 .f32) (l : Fin 128) :
    k1_pay2 (F := Ideal) v68 acc (ix2 (0 : Fin 1) l)
      = acc (ix2 (0 : Fin 1) l) + ∑ r : Fin 512, ∑ c : Fin 512, v68 (ix2 r c) * v68 (ix2 r c) := by
  unfold k1_pay2
  refine (colTotal_apply _ acc _ _ _ _ _ _ _ l).trans ?_
  refine congrArg (acc (ix2 (0 : Fin 1) l) + ·) (Finset.sum_congr rfl fun r _ => ?_)
  rw [rowSumCol_apply]
  rfl

theorem k1_pay3_apply (v76 : FVec Ideal S512x512 .f32) (acc : Vec Ideal S1x128 .f32) (l : Fin 128) :
    k1_pay3 (F := Ideal) v76 acc (ix2 (0 : Fin 1) l)
      = acc (ix2 (0 : Fin 1) l) + ∑ r : Fin 512, ∑ c : Fin 512, v76 (ix2 r c) * v76 (ix2 r c) := by
  unfold k1_pay3
  refine (colTotal_apply _ acc _ _ _ _ _ _ _ l).trans ?_
  refine congrArg (acc (ix2 (0 : Fin 1) l) + ·) (Finset.sum_congr rfl fun r _ => ?_)
  rw [rowSumCol_apply]
  rfl

/-! ### The tiles -/

theorem k1_pay7_apply (v7 v8 : Vec Ideal S512x128 .f32) (r c : Fin 512) :
    k1_pay7 (F := Ideal) v7 v8 (ix2 r c) = ∑ k : Fin 128, v7 (ix2 r k) * v8 (ix2 c k) := by
  unfold k1_pay7
  exact gramTile_apply v7 v8 _ _ r c

theorem k1_pay8_apply (v7 : Vec Ideal S512x128 .f32) (r : Fin 512) (u : Fin 1) :
    k1_pay8 (F := Ideal) v7 (ix2 r u) = ∑ k : Fin 128, v7 (ix2 r k) * v7 (ix2 r k) := by
  unfold k1_pay8
  exact sqnCol_apply v7 _ _ _ _ r u

theorem k1_pay9_apply (v8 : Vec Ideal S512x128 .f32) (u : Fin 1) (c : Fin 512) :
    k1_pay9 (F := Ideal) v8 (ix2 u c) = ∑ k : Fin 128, v8 (ix2 c k) * v8 (ix2 c k) := by
  unfold k1_pay9
  try dsimp only
  rw [transpose_ix2_apply]
  exact sqnCol_apply v8 _ _ _ _ c u

theorem k1_pay10_apply (v5 v6 : Vec Ideal S512x128 .f32) (r c : Fin 512) :
    k1_pay10 (F := Ideal) v5 v6 (ix2 r c)
      = (∑ k : Fin 128, v5 (ix2 r k) * v5 (ix2 r k)) + (∑ k : Fin 128, v6 (ix2 c k) * v6 (ix2 c k))
          - Cert.Dcor.two * ∑ k : Fin 128, v5 (ix2 r k) * v6 (ix2 c k) := by
  unfold k1_pay10
  try dsimp only
  rw [subf_apply, addf_apply, mulf_apply, broadcastTo_a1_ab_apply, broadcastTo_1b_ab_apply,
    transpose_ix2_apply, sqnCol_apply, sqnCol_apply, gramTile_apply]
  rfl

theorem k1_pay11_apply (r c : Fin 512) : k1_pay11 (F := Ideal) (ix2 r c) = Cert.Dcor.zero := rfl

/-- A centred tile from the unclamped squared distances and the zero tile. -/
theorem k1_pay12_apply (v36 v37 : FVec Ideal S512x512 .f32) (v61 : Vec Ideal S512x1 .f32) (v65 : Vec Ideal S1x512 .f32)
    (r c : Fin 512) :
    k1_pay12 (F := Ideal) v36 v37 v61 v65 (ix2 r c)
      = distOf (max (v36 (ix2 r c)) (v37 (ix2 r c))) - v61 (ix2 r (0 : Fin 1)) - v65 (ix2 (0 : Fin 1) c) := by
  unfold k1_pay12
  try dsimp only
  rw [subf_apply, subf_apply, broadcastTo_1b_ab_apply, shapeCast_self, broadcastTo_a1_ab_apply, shapeCast_self,
    distOf_select]
  rfl

/-- A centred tile from the inner products and the two squared norms. -/
theorem k1_pay13_apply (v16 : FVec Ideal S512x512 .f32) (v26 : FVec Ideal S512x1 .f32) (v30 : FVec Ideal S1x512 .f32)
    (v69 : Vec Ideal S512x1 .f32) (v73 : Vec Ideal S1x512 .f32) (r c : Fin 512) :
    k1_pay13 (F := Ideal) v16 v26 v30 v69 v73 (ix2 r c)
      = distOf (max (v26 (ix2 r (0 : Fin 1)) + v30 (ix2 (0 : Fin 1) c) - Cert.Dcor.two * v16 (ix2 r c)) Cert.Dcor.zero)
          - v69 (ix2 r (0 : Fin 1)) - v73 (ix2 (0 : Fin 1) c) := by
  unfold k1_pay13
  try dsimp only
  rw [subf_apply, subf_apply, broadcastTo_1b_ab_apply, shapeCast_self, broadcastTo_a1_ab_apply, shapeCast_self,
    distOf_select, maximumf_apply, subf_apply, addf_apply, mulf_apply, broadcastTo_a1_ab_apply, broadcastTo_1b_ab_apply]
  rfl

/-- The row sums of the product of the two centred tiles, as a column. -/
theorem k1_pay14_apply (v16 : FVec Ideal S512x512 .f32) (v26 : FVec Ideal S512x1 .f32) (v30 : FVec Ideal S1x512 .f32)
    (v36 v37 : FVec Ideal S512x512 .f32) (v61 : Vec Ideal S512x1 .f32) (v65 : Vec Ideal S1x512 .f32)
    (v69 : Vec Ideal S512x1 .f32) (v73 : Vec Ideal S1x512 .f32) (r : Fin 512) (u : Fin 1) :
    k1_pay14 (F := Ideal) v16 v26 v30 v36 v37 v61 v65 v69 v73 (ix2 r u)
      = ∑ c : Fin 512, k1_pay12 (F := Ideal) v36 v37 v61 v65 (ix2 r c) * k1_pay13 (F := Ideal) v16 v26 v30 v69 v73 (ix2 r c) := by
  unfold k1_pay14
  try dsimp only
  rw [rowSumCol_apply]
  rfl

/-! ### The centred tiles and the three updates of a grid point, over the samples -/

/-- First sample's centred tile at grid point (I, J): the distance of rows 512·I + r and 512·J + c, less the column
    vector's entry of the row, less the row vector's entry of the column. -/
theorem tileA_apply (X : Cert.Dcor.Mat) (ax cx : Fin 8192 → EReal) (I J : Fin 16)
    (x0 x1 : Vec Ideal S512x128 .f32) (x4 : Vec Ideal S512x1 .f32) (x5 : Vec Ideal S1x512 .f32)
    (hx0 : ∀ (r : Fin 512) (k : Fin 128), x0 (ix2 r k) = X ⟨512 * I.val + r.val, by omega⟩ k)
    (hx1 : ∀ (c : Fin 512) (k : Fin 128), x1 (ix2 c k) = X ⟨512 * J.val + c.val, by omega⟩ k)
    (hx4 : ∀ r : Fin 512, x4 (ix2 r (0 : Fin 1)) = ax ⟨512 * I.val + r.val, by omega⟩)
    (hx5 : ∀ c : Fin 512, x5 (ix2 (0 : Fin 1) c) = cx ⟨512 * J.val + c.val, by omega⟩)
    (r c : Fin 512) :
    k1_pay12 (F := Ideal) (k1_pay10 x0 x1) k1_pay11 x4 x5 (ix2 r c)
      = Cert.Dcor.dist X ⟨512 * I.val + r.val, by omega⟩ ⟨512 * J.val + c.val, by omega⟩
          - ax ⟨512 * I.val + r.val, by omega⟩ - cx ⟨512 * J.val + c.val, by omega⟩ := by
  rw [k1_pay12_apply, k1_pay10_apply, k1_pay11_apply, hx4, hx5, dist_eq_distOf]
  unfold Cert.Dcor.sqd Cert.Dcor.sqn Cert.Dcor.gram
  simp only [hx0, hx1]

/-- Second sample's centred tile at grid point (I, J). -/
theorem tileB_apply (Y : Cert.Dcor.Mat) (ay cy : Fin 8192 → EReal) (I J : Fin 16)
    (x2 x3 : Vec Ideal S512x128 .f32) (x6 : Vec Ideal S512x1 .f32) (x7 : Vec Ideal S1x512 .f32)
    (hx2 : ∀ (r : Fin 512) (k : Fin 128), x2 (ix2 r k) = Y ⟨512 * I.val + r.val, by omega⟩ k)
    (hx3 : ∀ (c : Fin 512) (k : Fin 128), x3 (ix2 c k) = Y ⟨512 * J.val + c.val, by omega⟩ k)
    (hx6 : ∀ r : Fin 512, x6 (ix2 r (0 : Fin 1)) = ay ⟨512 * I.val + r.val, by omega⟩)
    (hx7 : ∀ c : Fin 512, x7 (ix2 (0 : Fin 1) c) = cy ⟨512 * J.val + c.val, by omega⟩)
    (r c : Fin 512) :
    k1_pay13 (F := Ideal) (k1_pay7 x2 x3) (k1_pay8 x2) (k1_pay9 x3) x6 x7 (ix2 r c)
      = Cert.Dcor.dist Y ⟨512 * I.val + r.val, by omega⟩ ⟨512 * J.val + c.val, by omega⟩
          - ay ⟨512 * I.val + r.val, by omega⟩ - cy ⟨512 * J.val + c.val, by omega⟩ := by
  rw [k1_pay13_apply, k1_pay7_apply, k1_pay8_apply, k1_pay9_apply, hx6, hx7, dist_eq_distOf]
  unfold Cert.Dcor.sqd Cert.Dcor.sqn Cert.Dcor.gram
  simp only [hx2, hx3]

/-- The first accumulator gains the sum over the tile of A·B. -/
theorem covAB_apply (X Y : Cert.Dcor.Mat) (ax cx ay cy : Fin 8192 → EReal) (I J : Fin 16)
    (x0 x1 x2 x3 : Vec Ideal S512x128 .f32) (x4 : Vec Ideal S512x1 .f32) (x5 : Vec Ideal S1x512 .f32)
    (x6 : Vec Ideal S512x1 .f32) (x7 : Vec Ideal S1x512 .f32) (acc : Vec Ideal S1x128 .f32)
    (hx0 : ∀ (r : Fin 512) (k : Fin 128), x0 (ix2 r k) = X ⟨512 * I.val + r.val, by omega⟩ k)
    (hx1 : ∀ (c : Fin 512) (k : Fin 128), x1 (ix2 c k) = X ⟨512 * J.val + c.val, by omega⟩ k)
    (hx2 : ∀ (r : Fin 512) (k : Fin 128), x2 (ix2 r k) = Y ⟨512 * I.val + r.val, by omega⟩ k)
    (hx3 : ∀ (c : Fin 512) (k : Fin 128), x3 (ix2 c k) = Y ⟨512 * J.val + c.val, by omega⟩ k)
    (hx4 : ∀ r : Fin 512, x4 (ix2 r (0 : Fin 1)) = ax ⟨512 * I.val + r.val, by omega⟩)
    (hx5 : ∀ c : Fin 512, x5 (ix2 (0 : Fin 1) c) = cx ⟨512 * J.val + c.val, by omega⟩)
    (hx6 : ∀ r : Fin 512, x6 (ix2 r (0 : Fin 1)) = ay ⟨512 * I.val + r.val, by omega⟩)
    (hx7 : ∀ c : Fin 512, x7 (ix2 (0 : Fin 1) c) = cy ⟨512 * J.val + c.val, by omega⟩)
    (l : Fin 128) :
    k1_pay1 (F := Ideal)
        (k1_pay14 (k1_pay7 x2 x3) (k1_pay8 x2) (k1_pay9 x3) (k1_pay10 x0 x1) k1_pay11 x4 x5 x6 x7) acc (ix2 (0 : Fin 1) l)
      = acc (ix2 (0 : Fin 1) l) + ∑ r : Fin 512, ∑ c : Fin 512,
          (Cert.Dcor.dist X ⟨512 * I.val + r.val, by omega⟩ ⟨512 * J.val + c.val, by omega⟩
              - ax ⟨512 * I.val + r.val, by omega⟩ - cx ⟨512 * J.val + c.val, by omega⟩)
          * (Cert.Dcor.dist Y ⟨512 * I.val + r.val, by omega⟩ ⟨512 * J.val + c.val, by omega⟩
              - ay ⟨512 * I.val + r.val, by omega⟩ - cy ⟨512 * J.val + c.val, by omega⟩) := by
  rw [k1_pay1_apply]
  refine congrArg (acc (ix2 (0 : Fin 1) l) + ·) (Finset.sum_congr rfl fun r _ => ?_)
  rw [k1_pay14_apply]
  refine Finset.sum_congr rfl fun c _ => ?_
  rw [tileA_apply X ax cx I J x0 x1 x4 x5 hx0 hx1 hx4 hx5, tileB_apply Y ay cy I J x2 x3 x6 x7 hx2 hx3 hx6 hx7]

/-- The second accumulator gains the sum over the tile of A·A. -/
theorem covAA_apply (X : Cert.Dcor.Mat) (ax cx : Fin 8192 → EReal) (I J : Fin 16)
    (x0 x1 : Vec Ideal S512x128 .f32) (x4 : Vec Ideal S512x1 .f32) (x5 : Vec Ideal S1x512 .f32) (acc : Vec Ideal S1x128 .f32)
    (hx0 : ∀ (r : Fin 512) (k : Fin 128), x0 (ix2 r k) = X ⟨512 * I.val + r.val, by omega⟩ k)
    (hx1 : ∀ (c : Fin 512) (k : Fin 128), x1 (ix2 c k) = X ⟨512 * J.val + c.val, by omega⟩ k)
    (hx4 : ∀ r : Fin 512, x4 (ix2 r (0 : Fin 1)) = ax ⟨512 * I.val + r.val, by omega⟩)
    (hx5 : ∀ c : Fin 512, x5 (ix2 (0 : Fin 1) c) = cx ⟨512 * J.val + c.val, by omega⟩)
    (l : Fin 128) :
    k1_pay2 (F := Ideal) (k1_pay12 (k1_pay10 x0 x1) k1_pay11 x4 x5) acc (ix2 (0 : Fin 1) l)
      = acc (ix2 (0 : Fin 1) l) + ∑ r : Fin 512, ∑ c : Fin 512,
          (Cert.Dcor.dist X ⟨512 * I.val + r.val, by omega⟩ ⟨512 * J.val + c.val, by omega⟩
              - ax ⟨512 * I.val + r.val, by omega⟩ - cx ⟨512 * J.val + c.val, by omega⟩)
          * (Cert.Dcor.dist X ⟨512 * I.val + r.val, by omega⟩ ⟨512 * J.val + c.val, by omega⟩
              - ax ⟨512 * I.val + r.val, by omega⟩ - cx ⟨512 * J.val + c.val, by omega⟩) := by
  rw [k1_pay2_apply]
  refine congrArg (acc (ix2 (0 : Fin 1) l) + ·) (Finset.sum_congr rfl fun r _ => Finset.sum_congr rfl fun c _ => ?_)
  rw [tileA_apply X ax cx I J x0 x1 x4 x5 hx0 hx1 hx4 hx5]

/-- The third accumulator gains the sum over the tile of B·B. -/
theorem covBB_apply (Y : Cert.Dcor.Mat) (ay cy : Fin 8192 → EReal) (I J : Fin 16)
    (x2 x3 : Vec Ideal S512x128 .f32) (x6 : Vec Ideal S512x1 .f32) (x7 : Vec Ideal S1x512 .f32) (acc : Vec Ideal S1x128 .f32)
    (hx2 : ∀ (r : Fin 512) (k : Fin 128), x2 (ix2 r k) = Y ⟨512 * I.val + r.val, by omega⟩ k)
    (hx3 : ∀ (c : Fin 512) (k : Fin 128), x3 (ix2 c k) = Y ⟨512 * J.val + c.val, by omega⟩ k)
    (hx6 : ∀ r : Fin 512, x6 (ix2 r (0 : Fin 1)) = ay ⟨512 * I.val + r.val, by omega⟩)
    (hx7 : ∀ c : Fin 512, x7 (ix2 (0 : Fin 1) c) = cy ⟨512 * J.val + c.val, by omega⟩)
    (l : Fin 128) :
    k1_pay3 (F := Ideal) (k1_pay13 (k1_pay7 x2 x3) (k1_pay8 x2) (k1_pay9 x3) x6 x7) acc (ix2 (0 : Fin 1) l)
      = acc (ix2 (0 : Fin 1) l) + ∑ r : Fin 512, ∑ c : Fin 512,
          (Cert.Dcor.dist Y ⟨512 * I.val + r.val, by omega⟩ ⟨512 * J.val + c.val, by omega⟩
              - ay ⟨512 * I.val + r.val, by omega⟩ - cy ⟨512 * J.val + c.val, by omega⟩)
          * (Cert.Dcor.dist Y ⟨512 * I.val + r.val, by omega⟩ ⟨512 * J.val + c.val, by omega⟩
              - ay ⟨512 * I.val + r.val, by omega⟩ - cy ⟨512 * J.val + c.val, by omega⟩) := by
  rw [k1_pay3_apply]
  refine congrArg (acc (ix2 (0 : Fin 1) l) + ·) (Finset.sum_congr rfl fun r _ => Finset.sum_congr rfl fun c _ => ?_)
  rw [tileB_apply Y ay cy I J x2 x3 x6 x7 hx2 hx3 hx6 hx7]

end Cert.KernelIdeal.HandValue

end
-- ==== Proof.CovValue.lean ====
/-
  The covariance pass's results, in closed form at the extended reals. The three accumulators are reset at the
  first grid point only and written back after the last; after the point numbered n each holds, in every lane, the
  sum over the tiles 0 … n of the tile's sum of products of centred distances. The 256 tiles, 16 × 16 of 512 × 512,
  make up all pairs, so the results are the three sums over all pairs.

  The blocks the windows read and what the write-backs leave are taken as hypotheses, in the shape the block and
  array lemmas state them.
-/
import proofs.«133753_j71141838291708_1_alg».proof.Proof.CovBody
import proofs.«133753_j71141838291708_1_alg».proof.Proof.CovPieces
import proofs.«133753_j71141838291708_1_alg».proof.Proof.CovPayload
import proofs.«133753_j71141838291708_1_alg».proof.Proof.DcorTiles

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HandValue Cert.Dcor

/-- The product of two centred distances: each distance less a vector's entry of its row, less another vector's
    entry of its column. -/
def cenProd (X Y : Mat) (ax cx ay cy : Fin 8192 → EReal) (i j : Fin 8192) : EReal :=
  (dist X i j - ax i - cx j) * (dist Y i j - ay i - cy j)

/-- The sum of a function of the pairs over the tile numbered `n` (row by row in the 16 × 16 grid of tiles; zero
    past the last). -/
def tileSum (f : Fin 8192 → Fin 8192 → EReal) (n : ℕ) : EReal :=
  if h : n < 256 then ∑ r : Fin 512, ∑ q : Fin 512, f ⟨512 * (n / 16) + r.val, by omega⟩ ⟨512 * (n % 16) + q.val, by omega⟩ else 0

/-- The 256 tiles make up all pairs. -/
theorem sum_tileSum (f : Fin 8192 → Fin 8192 → EReal) :
    ∑ n ∈ Finset.range 256, tileSum f n = ∑ i : Fin 8192, ∑ j : Fin 8192, f i j := by
  rw [Finset.sum_range, ← sum_grid (fun t => tileSum f t.val), ← sum_tiles2 f]
  refine Finset.sum_congr rfl fun I _ => Finset.sum_congr rfl fun J _ => ?_
  unfold tileSum
  rw [dif_pos (by show 16 * I.val + J.val < 256; omega)]
  refine Finset.sum_congr rfl fun r _ => Finset.sum_congr rfl fun q _ => ?_
  congr 1
  · exact Fin.ext (by show 512 * ((16 * I.val + J.val) / 16) + r.val = 512 * I.val + r.val; omega)
  · exact Fin.ext (by show 512 * ((16 * I.val + J.val) % 16) + q.val = 512 * J.val + q.val; omega)

section
variable (V : (c : Dev nD) → (b : Ref sig .tc) → Buf (Elt Ideal) ((c : Thread nD τ).loc b)) (c : Dev nD)

/-! ### The accumulator of window 8 -/

theorem covStepAB_reset
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (t : Fin cfg1.N) (h0 : t.val = 0) (l : Fin 128) :
    ((covAcc V c t.val t.isLt).1 : S1x128.Idx → EReal) (ix2 (0 : Fin 1) l) = tileSum (cenProd (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j))) t.val := by
  have hN : t.val < 256 := lt_of_lt_of_eq t.isLt (show cfg1.N = 256 from N_1)
  rw [covAcc_reset8 V c t h0]
  unfold covResetAt
  rw [covReset_val8]
  rw [covAB_apply (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j)) ⟨t.val / 16, by omega⟩ ⟨t.val % 16, by omega⟩ (covBlk V c 0 t) (covBlk V c 1 t) (covBlk V c 2 t) (covBlk V c 3 t) (covBlk V c 4 t) (covBlk V c 5 t) (covBlk V c 6 t) (covBlk V c 7 t) (k1_pay4 (F := Ideal)) (fun r' k => hb0 t r' k) (fun q k => hb1 t q k) (fun r' k => hb2 t r' k) (fun q k => hb3 t q k) (fun r' => hb4 t r') (fun q => hb5 t q) (fun r' => hb6 t r') (fun q => hb7 t q) l, k1_pay4_apply, zero_add]
  unfold tileSum
  rw [dif_pos hN]
  rfl

theorem covStepAB_add
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (t : Fin cfg1.N) (h0 : ¬t.val = 0) (l : Fin 128) :
    ((covAcc V c t.val t.isLt).1 : S1x128.Idx → EReal) (ix2 (0 : Fin 1) l)
      = ((covAcc V c (t.val - 1) (Nat.lt_of_le_of_lt (Nat.sub_le _ _) t.isLt)).1 : S1x128.Idx → EReal) (ix2 (0 : Fin 1) l)
        + tileSum (cenProd (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j))) t.val := by
  have hN : t.val < 256 := lt_of_lt_of_eq t.isLt (show cfg1.N = 256 from N_1)
  rw [covAcc_add8 V c t h0]
  unfold covAddAt
  rw [covAdd_val8]
  rw [covAB_apply (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j)) ⟨t.val / 16, by omega⟩ ⟨t.val % 16, by omega⟩ (covBlk V c 0 t) (covBlk V c 1 t) (covBlk V c 2 t) (covBlk V c 3 t) (covBlk V c 4 t) (covBlk V c 5 t) (covBlk V c 6 t) (covBlk V c 7 t) _ (fun r' k => hb0 t r' k) (fun q k => hb1 t q k) (fun r' k => hb2 t r' k) (fun q k => hb3 t q k) (fun r' => hb4 t r') (fun q => hb5 t q) (fun r' => hb6 t r') (fun q => hb7 t q) l]
  unfold tileSum
  rw [dif_pos hN]
  rfl

theorem covAccAB
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (l : Fin 128) :
    ∀ (n : ℕ) (hn : n < 256),
      ((covAcc V c n (lt_of_lt_of_eq hn (show (256 : ℕ) = cfg1.N from N_1.symm))).1 : S1x128.Idx → EReal) (ix2 (0 : Fin 1) l)
        = ∑ n' ∈ Finset.range (n + 1), tileSum (cenProd (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j))) n' := by
  intro n
  induction n with
  | zero =>
    intro hn
    rw [Finset.sum_range_one]
    exact covStepAB_reset V c hb0 hb1 hb2 hb3 hb4 hb5 hb6 hb7 ⟨0, lt_of_lt_of_eq hn (show (256 : ℕ) = cfg1.N from N_1.symm)⟩ rfl l
  | succ n ih =>
    intro hn
    rw [Finset.sum_range_succ _ (n + 1)]
    refine (covStepAB_add V c hb0 hb1 hb2 hb3 hb4 hb5 hb6 hb7 ⟨n + 1, lt_of_lt_of_eq hn (show (256 : ℕ) = cfg1.N from N_1.symm)⟩ (Nat.succ_ne_zero n) l).trans ?_
    congr 1
    exact ih (by omega)

theorem covResultAB
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (hf8 : ((covDat V c).arrAt 8 cfg1.N : S1x128.Idx → EReal)
      = ((covAcc V c 255 (lt_of_lt_of_eq (by norm_num : 255 < 256) (show (256 : ℕ) = cfg1.N from N_1.symm))).1 : S1x128.Idx → EReal))
    (l : Fin 128) :
    ((covDat V c).arrAt 8 cfg1.N : S1x128.Idx → EReal) (ix2 (0 : Fin 1) l)
      = ∑ i : Fin 8192, ∑ j : Fin 8192, (cenProd (ofArr (V c main_arg0)) (ofArr (V c main_arg1)) (fun i => V c main_v15 (ix2 i (0 : Fin 1))) (fun j => V c main_v16 (ix2 (0 : Fin 1) j)) (fun i => V c main_v19 (ix2 i (0 : Fin 1))) (fun j => V c main_v20 (ix2 (0 : Fin 1) j))) i j := by
  rw [hf8]
  refine (covAccAB V c hb0 hb1 hb2 hb3 hb4 hb5 hb6 hb7 l 255 (by norm_num)).trans ?_
  exact sum_tileSum _

/-! ### The accumulator of window 9 -/

theorem covStepAA_reset
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (t : Fin cfg1.N) (h0 : t.val = 0) (l : Fin 128) :
    ((covAcc V c t.val t.isLt).2.1 : S1x128.Idx → EReal) (ix2 (0 : Fin 1) l) = tileSum (cenProd (ofArr (V c main_arg0)) (ofArr (V c main_arg0)) (fun i => V c main_v15 (ix2 i (0 : Fin 1))) (fun j => V c main_v16 (ix2 (0 : Fin 1) j)) (fun i => V c main_v15 (ix2 i (0 : Fin 1))) (fun j => V c main_v16 (ix2 (0 : Fin 1) j))) t.val := by
  have hN : t.val < 256 := lt_of_lt_of_eq t.isLt (show cfg1.N = 256 from N_1)
  rw [covAcc_reset9 V c t h0]
  unfold covResetAt
  rw [covReset_val9]
  rw [covAA_apply (ofArr (V c main_arg0)) (fun i => V c main_v15 (ix2 i (0 : Fin 1))) (fun j => V c main_v16 (ix2 (0 : Fin 1) j)) ⟨t.val / 16, by omega⟩ ⟨t.val % 16, by omega⟩ (covBlk V c 0 t) (covBlk V c 1 t) (covBlk V c 4 t) (covBlk V c 5 t) (k1_pay5 (F := Ideal)) (fun r' k => hb0 t r' k) (fun q k => hb1 t q k) (fun r' => hb4 t r') (fun q => hb5 t q) l, k1_pay5_apply, zero_add]
  unfold tileSum
  rw [dif_pos hN]
  rfl

theorem covStepAA_add
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (t : Fin cfg1.N) (h0 : ¬t.val = 0) (l : Fin 128) :
    ((covAcc V c t.val t.isLt).2.1 : S1x128.Idx → EReal) (ix2 (0 : Fin 1) l)
      = ((covAcc V c (t.val - 1) (Nat.lt_of_le_of_lt (Nat.sub_le _ _) t.isLt)).2.1 : S1x128.Idx → EReal) (ix2 (0 : Fin 1) l)
        + tileSum (cenProd (ofArr (V c main_arg0)) (ofArr (V c main_arg0)) (fun i => V c main_v15 (ix2 i (0 : Fin 1))) (fun j => V c main_v16 (ix2 (0 : Fin 1) j)) (fun i => V c main_v15 (ix2 i (0 : Fin 1))) (fun j => V c main_v16 (ix2 (0 : Fin 1) j))) t.val := by
  have hN : t.val < 256 := lt_of_lt_of_eq t.isLt (show cfg1.N = 256 from N_1)
  rw [covAcc_add9 V c t h0]
  unfold covAddAt
  rw [covAdd_val9]
  rw [covAA_apply (ofArr (V c main_arg0)) (fun i => V c main_v15 (ix2 i (0 : Fin 1))) (fun j => V c main_v16 (ix2 (0 : Fin 1) j)) ⟨t.val / 16, by omega⟩ ⟨t.val % 16, by omega⟩ (covBlk V c 0 t) (covBlk V c 1 t) (covBlk V c 4 t) (covBlk V c 5 t) _ (fun r' k => hb0 t r' k) (fun q k => hb1 t q k) (fun r' => hb4 t r') (fun q => hb5 t q) l]
  unfold tileSum
  rw [dif_pos hN]
  rfl

theorem covAccAA
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (l : Fin 128) :
    ∀ (n : ℕ) (hn : n < 256),
      ((covAcc V c n (lt_of_lt_of_eq hn (show (256 : ℕ) = cfg1.N from N_1.symm))).2.1 : S1x128.Idx → EReal) (ix2 (0 : Fin 1) l)
        = ∑ n' ∈ Finset.range (n + 1), tileSum (cenProd (ofArr (V c main_arg0)) (ofArr (V c main_arg0)) (fun i => V c main_v15 (ix2 i (0 : Fin 1))) (fun j => V c main_v16 (ix2 (0 : Fin 1) j)) (fun i => V c main_v15 (ix2 i (0 : Fin 1))) (fun j => V c main_v16 (ix2 (0 : Fin 1) j))) n' := by
  intro n
  induction n with
  | zero =>
    intro hn
    rw [Finset.sum_range_one]
    exact covStepAA_reset V c hb0 hb1 hb4 hb5 ⟨0, lt_of_lt_of_eq hn (show (256 : ℕ) = cfg1.N from N_1.symm)⟩ rfl l
  | succ n ih =>
    intro hn
    rw [Finset.sum_range_succ _ (n + 1)]
    refine (covStepAA_add V c hb0 hb1 hb4 hb5 ⟨n + 1, lt_of_lt_of_eq hn (show (256 : ℕ) = cfg1.N from N_1.symm)⟩ (Nat.succ_ne_zero n) l).trans ?_
    congr 1
    exact ih (by omega)

theorem covResultAA
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hf9 : ((covDat V c).arrAt 9 cfg1.N : S1x128.Idx → EReal)
      = ((covAcc V c 255 (lt_of_lt_of_eq (by norm_num : 255 < 256) (show (256 : ℕ) = cfg1.N from N_1.symm))).2.1 : S1x128.Idx → EReal))
    (l : Fin 128) :
    ((covDat V c).arrAt 9 cfg1.N : S1x128.Idx → EReal) (ix2 (0 : Fin 1) l)
      = ∑ i : Fin 8192, ∑ j : Fin 8192, (cenProd (ofArr (V c main_arg0)) (ofArr (V c main_arg0)) (fun i => V c main_v15 (ix2 i (0 : Fin 1))) (fun j => V c main_v16 (ix2 (0 : Fin 1) j)) (fun i => V c main_v15 (ix2 i (0 : Fin 1))) (fun j => V c main_v16 (ix2 (0 : Fin 1) j))) i j := by
  rw [hf9]
  refine (covAccAA V c hb0 hb1 hb4 hb5 l 255 (by norm_num)).trans ?_
  exact sum_tileSum _

/-! ### The accumulator of window 10 -/

theorem covStepBB_reset
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (t : Fin cfg1.N) (h0 : t.val = 0) (l : Fin 128) :
    ((covAcc V c t.val t.isLt).2.2 : S1x128.Idx → EReal) (ix2 (0 : Fin 1) l) = tileSum (cenProd (ofArr (V c main_arg1)) (ofArr (V c main_arg1)) (fun i => V c main_v19 (ix2 i (0 : Fin 1))) (fun j => V c main_v20 (ix2 (0 : Fin 1) j)) (fun i => V c main_v19 (ix2 i (0 : Fin 1))) (fun j => V c main_v20 (ix2 (0 : Fin 1) j))) t.val := by
  have hN : t.val < 256 := lt_of_lt_of_eq t.isLt (show cfg1.N = 256 from N_1)
  rw [covAcc_reset10 V c t h0]
  unfold covResetAt
  rw [covReset_val10]
  rw [covBB_apply (ofArr (V c main_arg1)) (fun i => V c main_v19 (ix2 i (0 : Fin 1))) (fun j => V c main_v20 (ix2 (0 : Fin 1) j)) ⟨t.val / 16, by omega⟩ ⟨t.val % 16, by omega⟩ (covBlk V c 2 t) (covBlk V c 3 t) (covBlk V c 6 t) (covBlk V c 7 t) (k1_pay6 (F := Ideal)) (fun r' k => hb2 t r' k) (fun q k => hb3 t q k) (fun r' => hb6 t r') (fun q => hb7 t q) l, k1_pay6_apply, zero_add]
  unfold tileSum
  rw [dif_pos hN]
  rfl

theorem covStepBB_add
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (t : Fin cfg1.N) (h0 : ¬t.val = 0) (l : Fin 128) :
    ((covAcc V c t.val t.isLt).2.2 : S1x128.Idx → EReal) (ix2 (0 : Fin 1) l)
      = ((covAcc V c (t.val - 1) (Nat.lt_of_le_of_lt (Nat.sub_le _ _) t.isLt)).2.2 : S1x128.Idx → EReal) (ix2 (0 : Fin 1) l)
        + tileSum (cenProd (ofArr (V c main_arg1)) (ofArr (V c main_arg1)) (fun i => V c main_v19 (ix2 i (0 : Fin 1))) (fun j => V c main_v20 (ix2 (0 : Fin 1) j)) (fun i => V c main_v19 (ix2 i (0 : Fin 1))) (fun j => V c main_v20 (ix2 (0 : Fin 1) j))) t.val := by
  have hN : t.val < 256 := lt_of_lt_of_eq t.isLt (show cfg1.N = 256 from N_1)
  rw [covAcc_add10 V c t h0]
  unfold covAddAt
  rw [covAdd_val10]
  rw [covBB_apply (ofArr (V c main_arg1)) (fun i => V c main_v19 (ix2 i (0 : Fin 1))) (fun j => V c main_v20 (ix2 (0 : Fin 1) j)) ⟨t.val / 16, by omega⟩ ⟨t.val % 16, by omega⟩ (covBlk V c 2 t) (covBlk V c 3 t) (covBlk V c 6 t) (covBlk V c 7 t) _ (fun r' k => hb2 t r' k) (fun q k => hb3 t q k) (fun r' => hb6 t r') (fun q => hb7 t q) l]
  unfold tileSum
  rw [dif_pos hN]
  rfl

theorem covAccBB
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (l : Fin 128) :
    ∀ (n : ℕ) (hn : n < 256),
      ((covAcc V c n (lt_of_lt_of_eq hn (show (256 : ℕ) = cfg1.N from N_1.symm))).2.2 : S1x128.Idx → EReal) (ix2 (0 : Fin 1) l)
        = ∑ n' ∈ Finset.range (n + 1), tileSum (cenProd (ofArr (V c main_arg1)) (ofArr (V c main_arg1)) (fun i => V c main_v19 (ix2 i (0 : Fin 1))) (fun j => V c main_v20 (ix2 (0 : Fin 1) j)) (fun i => V c main_v19 (ix2 i (0 : Fin 1))) (fun j => V c main_v20 (ix2 (0 : Fin 1) j))) n' := by
  intro n
  induction n with
  | zero =>
    intro hn
    rw [Finset.sum_range_one]
    exact covStepBB_reset V c hb2 hb3 hb6 hb7 ⟨0, lt_of_lt_of_eq hn (show (256 : ℕ) = cfg1.N from N_1.symm)⟩ rfl l
  | succ n ih =>
    intro hn
    rw [Finset.sum_range_succ _ (n + 1)]
    refine (covStepBB_add V c hb2 hb3 hb6 hb7 ⟨n + 1, lt_of_lt_of_eq hn (show (256 : ℕ) = cfg1.N from N_1.symm)⟩ (Nat.succ_ne_zero n) l).trans ?_
    congr 1
    exact ih (by omega)

theorem covResultBB
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (hf10 : ((covDat V c).arrAt 10 cfg1.N : S1x128.Idx → EReal)
      = ((covAcc V c 255 (lt_of_lt_of_eq (by norm_num : 255 < 256) (show (256 : ℕ) = cfg1.N from N_1.symm))).2.2 : S1x128.Idx → EReal))
    (l : Fin 128) :
    ((covDat V c).arrAt 10 cfg1.N : S1x128.Idx → EReal) (ix2 (0 : Fin 1) l)
      = ∑ i : Fin 8192, ∑ j : Fin 8192, (cenProd (ofArr (V c main_arg1)) (ofArr (V c main_arg1)) (fun i => V c main_v19 (ix2 i (0 : Fin 1))) (fun j => V c main_v20 (ix2 (0 : Fin 1) j)) (fun i => V c main_v19 (ix2 i (0 : Fin 1))) (fun j => V c main_v20 (ix2 (0 : Fin 1) j))) i j := by
  rw [hf10]
  refine (covAccBB V c hb2 hb3 hb6 hb7 l 255 (by norm_num)).trans ?_
  exact sum_tileSum _

/-! ### With the mean vectors the host computed, the three results are the sums of the first arrangement -/

/-- With the column vector at "row mean less grand mean" and the row vector at the row mean of the column's index,
    the product of centred distances is the product of the first arrangement's centred entries. -/
theorem cenProd_eq_cenK (X Y : Mat) (ax cx ay cy : Fin 8192 → EReal)
    (hax : ∀ i, ax i = Ideal.div (rowSum X i) cN - Ideal.div (∑ i' : Fin 8192, rowSum X i') cNN)
    (hcx : ∀ j, cx j = Ideal.div (rowSum X j) cN)
    (hay : ∀ i, ay i = Ideal.div (rowSum Y i) cN - Ideal.div (∑ i' : Fin 8192, rowSum Y i') cNN)
    (hcy : ∀ j, cy j = Ideal.div (rowSum Y j) cN) (i j : Fin 8192) :
    cenProd X Y ax cx ay cy i j = cenK X i j * cenK Y i j := by
  unfold cenProd cenK
  rw [hax, hcx, hay, hcy]

theorem sum_cenProd_eq_sumK (X Y : Mat) (ax cx ay cy : Fin 8192 → EReal)
    (hax : ∀ i, ax i = Ideal.div (rowSum X i) cN - Ideal.div (∑ i' : Fin 8192, rowSum X i') cNN)
    (hcx : ∀ j, cx j = Ideal.div (rowSum X j) cN)
    (hay : ∀ i, ay i = Ideal.div (rowSum Y i) cN - Ideal.div (∑ i' : Fin 8192, rowSum Y i') cNN)
    (hcy : ∀ j, cy j = Ideal.div (rowSum Y j) cN) :
    ∑ i : Fin 8192, ∑ j : Fin 8192, cenProd X Y ax cx ay cy i j = sumK X Y := by
  unfold sumK
  exact Finset.sum_congr rfl fun i _ => Finset.sum_congr rfl fun j _ => cenProd_eq_cenK X Y ax cx ay cy hax hcx hay hcy i j

theorem covResultAB_sumK
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (hf8 : ((covDat V c).arrAt 8 cfg1.N : S1x128.Idx → EReal)
      = ((covAcc V c 255 (lt_of_lt_of_eq (by norm_num : 255 < 256) (show (256 : ℕ) = cfg1.N from N_1.symm))).1 : S1x128.Idx → EReal))
    (hax : ∀ i : Fin 8192, V c main_v15 (ix2 i (0 : Fin 1))
      = Ideal.div (rowSum (ofArr (V c main_arg0)) i) cN - Ideal.div (∑ i' : Fin 8192, rowSum (ofArr (V c main_arg0)) i') cNN)
    (hcx : ∀ j : Fin 8192, V c main_v16 (ix2 (0 : Fin 1) j) = Ideal.div (rowSum (ofArr (V c main_arg0)) j) cN)
    (hay : ∀ i : Fin 8192, V c main_v19 (ix2 i (0 : Fin 1))
      = Ideal.div (rowSum (ofArr (V c main_arg1)) i) cN - Ideal.div (∑ i' : Fin 8192, rowSum (ofArr (V c main_arg1)) i') cNN)
    (hcy : ∀ j : Fin 8192, V c main_v20 (ix2 (0 : Fin 1) j) = Ideal.div (rowSum (ofArr (V c main_arg1)) j) cN)
    (l : Fin 128) :
    ((covDat V c).arrAt 8 cfg1.N : S1x128.Idx → EReal) (ix2 (0 : Fin 1) l) = sumK (ofArr (V c main_arg0)) (ofArr (V c main_arg1)) := by
  exact (covResultAB V c hb0 hb1 hb2 hb3 hb4 hb5 hb6 hb7 hf8 l).trans (sum_cenProd_eq_sumK _ _ _ _ _ _ hax hcx hay hcy)

theorem covResultAA_sumK
    (hb0 : ∀ (t : Fin cfg1.N) (r : Fin 512) (k : Fin 128), (covBlk V c 0 t : S512x128.Idx → EReal) (ix2 r k)
      = V c main_arg0 (ix2 ⟨512 * (t.val / 16) + r.val, by have := lt_of_lt_of_eq t.isLt (show cfg1.N = 256 from N_1); omega⟩ k))
    (hb1 : ∀ (t : Fin cfg1.N) (q : Fin 512) (k : Fin 128), (covBlk V c 1 t : S512x128.Idx → EReal) (ix2 q k)
      = V c main_arg0 (ix2 ⟨512 * (t.val % 16) + q.val, by omega⟩ k))
    (hb4 : ∀ (t : Fin cfg1.N) (r : Fin 512), (covBlk V c 4 t : S512x1.Idx → EReal) (ix2 r (0 : Fin 1))
      = V c main_v15 (ix2 ⟨512 * (t.val / 16) + r.val, by have := lt_of_lt_of_eq t.isLt (show cfg1.N = 256 from N_1); omega⟩ (0 : Fin 1)))
    (hb5 : ∀ (t : Fin cfg1.N) (q : Fin 512), (covBlk V c 5 t : S1x512.Idx → EReal) (ix2 (0 : Fin 1) q)
      = V c main_v16 (ix2 (0 : Fin 1) ⟨512 * (t.val % 16) + q.val, by omega⟩))
    (hf9 : ((covDat V c).arrAt 9 cfg1.N : S1x128.Idx → EReal)
      = ((covAcc V c 255 (lt_of_lt_of_eq (by norm_num : 255 < 256) (show (256 : ℕ) = cfg1.N from N_1.symm))).2.1 : S1x128.Idx → EReal))
    (hax : ∀ i : Fin 8192, V c main_v15 (ix2 i (0 : Fin 1))
      = Ideal.div (rowSum (ofArr (V c main_arg0)) i) cN - Ideal.div (∑ i' : Fin 8192, rowSum (ofArr (V c main_arg0)) i') cNN)
    (hcx : ∀ j : Fin 8192, V c main_v16 (ix2 (0 : Fin 1) j) = Ideal.div (rowSum (ofArr (V c main_arg0)) j) cN)
    (l : Fin 128) :
    ((covDat V c).arrAt 9 cfg1.N : S1x128.Idx → EReal) (ix2 (0 : Fin 1) l) = sumK (ofArr (V c main_arg0)) (ofArr (V c main_arg0)) := by
  exact (covResultAA V c hb0 hb1 hb4 hb5 hf9 l).trans (sum_cenProd_eq_sumK _ _ _ _ _ _ hax hcx hax hcx)

theorem covResultBB_sumK
    (hb2 : ∀ (t : Fin cfg1.N) (r : Fin 512) (k : Fin 128), (covBlk V c 2 t : S512x128.Idx → EReal) (ix2 r k)
      = V c main_arg1 (ix2 ⟨512 * (t.val / 16) + r.val, by have := lt_of_lt_of_eq t.isLt (show cfg1.N = 256 from N_1); omega⟩ k))
    (hb3 : ∀ (t : Fin cfg1.N) (q : Fin 512) (k : Fin 128), (covBlk V c 3 t : S512x128.Idx → EReal) (ix2 q k)
      = V c main_arg1 (ix2 ⟨512 * (t.val % 16) + q.val, by omega⟩ k))
    (hb6 : ∀ (t : Fin cfg1.N) (r : Fin 512), (covBlk V c 6 t : S512x1.Idx → EReal) (ix2 r (0 : Fin 1))
      = V c main_v19 (ix2 ⟨512 * (t.val / 16) + r.val, by have := lt_of_lt_of_eq t.isLt (show cfg1.N = 256 from N_1); omega⟩ (0 : Fin 1)))
    (hb7 : ∀ (t : Fin cfg1.N) (q : Fin 512), (covBlk V c 7 t : S1x512.Idx → EReal) (ix2 (0 : Fin 1) q)
      = V c main_v20 (ix2 (0 : Fin 1) ⟨512 * (t.val % 16) + q.val, by omega⟩))
    (hf10 : ((covDat V c).arrAt 10 cfg1.N : S1x128.Idx → EReal)
      = ((covAcc V c 255 (lt_of_lt_of_eq (by norm_num : 255 < 256) (show (256 : ℕ) = cfg1.N from N_1.symm))).2.2 : S1x128.Idx → EReal))
    (hay : ∀ i : Fin 8192, V c main_v19 (ix2 i (0 : Fin 1))
      = Ideal.div (rowSum (ofArr (V c main_arg1)) i) cN - Ideal.div (∑ i' : Fin 8192, rowSum (ofArr (V c main_arg1)) i') cNN)
    (hcy : ∀ j : Fin 8192, V c main_v20 (ix2 (0 : Fin 1) j) = Ideal.div (rowSum (ofArr (V c main_arg1)) j) cN)
    (l : Fin 128) :
    ((covDat V c).arrAt 10 cfg1.N : S1x128.Idx → EReal) (ix2 (0 : Fin 1) l) = sumK (ofArr (V c main_arg1)) (ofArr (V c main_arg1)) := by
  exact (covResultBB V c hb2 hb3 hb6 hb7 hf10 l).trans (sum_cenProd_eq_sumK _ _ _ _ _ _ hay hcy hay hcy)

end

end Cert.KernelIdeal.Hand

end
-- ==== Proof.HostMid.lean ====
/-
  The kernel program's host operations between its two passes, read on the extended reals.

  The row pass leaves, for each sample, an array of shape [8192, 128] whose column 0 holds the row sums of the distance
  matrix. The host takes that column (a slice [0:8192, 0:1] reshaped to a vector), divides it by 8192 to get the row
  means, sums it (a float sum from the zero word, which is the real 0) and divides by 8192² to get the grand mean, and
  hands the covariance pass two arrays per sample: the column "row mean − grand mean" of shape [8192, 1] and the row of
  row means of shape [1, 8192]. Each is read here at an index, as a function of the row pass's output; the statements
  are over an arbitrary valuation of the program's buffers before these operations.
-/
import proofs.«133753_j71141838291708_1_alg».proof.Proof.Gen.KernelIdeal.Launch
import proofs.«133753_j71141838291708_1_alg».proof.Proof.DcorSpec
import proofs.«133753_j71141838291708_1_alg».proof.Proof.Gen.KernelIdeal.Regions
import Idealize.ShloMosaic.Lib.StableHlo.Run
import Idealize.ShloMosaic.Lib.Pipeline.Value
import Idealize.ShloMosaic.Lib.IdealHost
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx Idealize.ShloMosaic.StableHlo

/-- A sample-shaped array of extended reals, [8192, 128]. -/
abbrev Arr : Type := S8192x128.Idx → EReal

/-! ## Reading the layout operations at an index -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl
/-- … so a sum over it is the sum over the coordinate. -/
theorem sum_idx1 {n : Nat} (f : (⟨1, ![n]⟩ : Shape).Idx → EReal) : ∑ j, f j = ∑ a : Fin n, f (ix1 a) :=
  (Equiv.sum_comp (idxEquiv1 (n := n)).symm f).symm

/-- Column 0 of a [8192, 128] array as a vector: the slice [0:8192, 0:1] reshaped to [8192] reads the entry (i, 0). -/
theorem col0_apply (x : Arr) (i : Fin 8192) :
    shapeCast S8192 (extractStridedSlice S8192x1 ![0, 0] x slices_S8192x128_S8192x1_0_0) shapeCasts_S8192x1_S8192 (ix1 i)
      = x (ix2 i 0) := by
  rw [shapeCast_apply _ shapeCasts_S8192x1_S8192 (ix1 i) (ix2 i 0) (by
    rw [Shape.rowMajor_val_two, Shape.rowMajor_val_one]
    show i.val * 1 + 0 = i.val
    omega)]
  exact extractStridedSlice_apply _ x slices_S8192x128_S8192x1_0_0 (ix2 i 0) (ix2 i 0)
    (fun a => by match a with | ⟨0, _⟩ => exact (Nat.zero_add _).symm | ⟨1, _⟩ => rfl)

/-- A vector reshaped to a column [8192, 1] reads its entry i at (i, 0). -/
theorem toCol_apply (v : S8192.Idx → EReal) (i : Fin 8192) :
    shapeCast S8192x1 v shapeCasts_S8192_S8192x1 (ix2 i 0) = v (ix1 i) :=
  shapeCast_apply v shapeCasts_S8192_S8192x1 (ix2 i 0) (ix1 i) (by
    rw [Shape.rowMajor_val_two, Shape.rowMajor_val_one]
    show i.val = i.val * 1 + 0
    omega)

/-- A vector reshaped to a row [1, 8192] reads its entry j at (0, j). -/
theorem toRow_apply (v : S8192.Idx → EReal) (j : Fin 8192) :
    shapeCast S1x8192 v shapeCasts_S8192_S1x8192 (ix2 0 j) = v (ix1 j) :=
  shapeCast_apply v shapeCasts_S8192_S1x8192 (ix2 0 j) (ix1 j) (by
    rw [Shape.rowMajor_val_two, Shape.rowMajor_val_one]
    show j.val = 0 * 8192 + j.val
    omega)

/-- The float sum of a vector from the zero word is the sum of its entries. -/
theorem total_apply (v : S8192.Idx → EReal) (u : S_.Idx) :
    Host.reduceAdd (F := Ideal) v (constant (F := Ideal) S_ .f32 0x00000000#32) reducesTo_S8192_S_d0 h_S_ u
      = ∑ a : Fin 8192, v (ix1 a) := by
  have h : Host.reduceAdd (F := Ideal) v (constant (F := Ideal) S_ .f32 0x00000000#32) reducesTo_S8192_S_d0 h_S_ u
      = Ideal.ofBits .f32 0x00000000#32 + ∑ j : S8192.Idx, v j := by
    simp only [Host.reduceAdd, Ideal.hostReduceAdd_def]
    exact Ideal.hostReduceAdd_total reducesTo_S8192_S_d0 (fun b => b.elim0) v _ u
  rw [h, sum_idx1, Ideal.ofBits_zero_f32, zero_add]

/-! ## The stages between the two passes, as functions of the row pass's output array -/

/-- Column 0 of the row pass's output: the row sums of the distance matrix. -/
def rowSums (x : Arr) : S8192.Idx → EReal :=
  shapeCast S8192 (extractStridedSlice S8192x1 ![0, 0] x slices_S8192x128_S8192x1_0_0) shapeCasts_S8192x1_S8192
/-- The row means: the row sums divided by 8192. -/
def rowMeans (x : Arr) : S8192.Idx → EReal :=
  Host.divf (F := Ideal) (φ := .f32) (rowSums x) (broadcastInDim S8192 ![] bcast_S_S8192 (constant (F := Ideal) S_ .f32 0x46000000#32))
/-- The grand mean: the sum of the row sums divided by 8192². -/
def grandMean (x : Arr) : S_.Idx → EReal :=
  Host.divf (F := Ideal) (φ := .f32)
    (Host.reduceAdd (F := Ideal) (rowSums x) (constant (F := Ideal) S_ .f32 0x00000000#32) reducesTo_S8192_S_d0 h_S_)
    (constant (F := Ideal) S_ .f32 0x4C800000#32)
/-- The row-centring column: row mean minus grand mean, as a [8192, 1] array. -/
def centreCol (x : Arr) : S8192x1.Idx → EReal :=
  shapeCast S8192x1 (subf (F := Ideal) (φ := .f32) (rowMeans x) (broadcastInDim S8192 ![] bcast_S_S8192 (grandMean x)))
    shapeCasts_S8192_S8192x1
/-- The column-centring row: the row means as a [1, 8192] array. -/
def centreRow (x : Arr) : S1x8192.Idx → EReal :=
  shapeCast S1x8192 (rowMeans x) shapeCasts_S8192_S1x8192

theorem rowSums_apply (x : Arr) (i : Fin 8192) : rowSums x (ix1 i) = x (ix2 i 0) := col0_apply x i

theorem rowMeans_apply (x : Arr) (i : Fin 8192) : rowMeans x (ix1 i) = Ideal.div (x (ix2 i 0)) Cert.Dcor.cN := by
  show Ideal.div (rowSums x (ix1 i)) (broadcastInDim S8192 ![] bcast_S_S8192 (constant (F := Ideal) S_ .f32 0x46000000#32) (ix1 i)) = _
  rw [rowSums_apply, broadcastInDim_scalar_apply]
  rfl

theorem grandMean_apply (x : Arr) (u : S_.Idx) :
    grandMean x u = Ideal.div (∑ i' : Fin 8192, x (ix2 i' 0)) Cert.Dcor.cNN := by
  show Ideal.div (Host.reduceAdd (F := Ideal) (rowSums x) (constant (F := Ideal) S_ .f32 0x00000000#32) reducesTo_S8192_S_d0 h_S_ u)
    (Ideal.ofBits .f32 0x4C800000#32) = _
  rw [total_apply]
  simp only [rowSums_apply]
  rfl

/-- The row-centring column at (i, 0): row mean of i minus the grand mean. -/
theorem centreCol_apply (x : Arr) (i : Fin 8192) :
    centreCol x (ix2 i 0)
      = Ideal.div (x (ix2 i 0)) Cert.Dcor.cN - Ideal.div (∑ i' : Fin 8192, x (ix2 i' 0)) Cert.Dcor.cNN := by
  unfold centreCol
  rw [toCol_apply]
  show rowMeans x (ix1 i) - broadcastInDim S8192 ![] bcast_S_S8192 (grandMean x) (ix1 i) = _
  rw [rowMeans_apply, broadcastInDim_scalar_apply, grandMean_apply]

/-- The column-centring row at (0, j): the row mean of j. -/
theorem centreRow_apply (x : Arr) (j : Fin 8192) :
    centreRow x (ix2 0 j) = Ideal.div (x (ix2 j 0)) Cert.Dcor.cN := by
  unfold centreRow
  rw [toRow_apply, rowMeans_apply]

/-! ## The host operations between the passes, over an arbitrary valuation of the program's buffers -/

set_option maxHeartbeats 2000000 in
/-- The first sample's row-centring column is `centreCol` of the row pass's first output. -/
theorem v15_eq (W : Valuation τ sig (Elt Ideal)) :
    (StableHlo.after (hostOps1 (F := Ideal)) W (Proc.devRef .tc main_v15) : S8192x1.Idx → EReal)
      = centreCol (W (Proc.devRef .tc main_v0_0)) := by
  dsimp only [hostOps1]
  after_results_simp
  rfl

set_option maxHeartbeats 2000000 in
/-- The first sample's column-centring row is `centreRow` of the row pass's first output. -/
theorem v16_eq (W : Valuation τ sig (Elt Ideal)) :
    (StableHlo.after (hostOps1 (F := Ideal)) W (Proc.devRef .tc main_v16) : S1x8192.Idx → EReal)
      = centreRow (W (Proc.devRef .tc main_v0_0)) := by
  dsimp only [hostOps1]
  after_results_simp
  rfl

set_option maxHeartbeats 2000000 in
/-- The second sample's row-centring column is `centreCol` of the row pass's second output. -/
theorem v19_eq (W : Valuation τ sig (Elt Ideal)) :
    (StableHlo.after (hostOps1 (F := Ideal)) W (Proc.devRef .tc main_v19) : S8192x1.Idx → EReal)
      = centreCol (W (Proc.devRef .tc main_v0_1)) := by
  dsimp only [hostOps1]
  after_results_simp
  rfl

set_option maxHeartbeats 2000000 in
/-- The second sample's column-centring row is `centreRow` of the row pass's second output. -/
theorem v20_eq (W : Valuation τ sig (Elt Ideal)) :
    (StableHlo.after (hostOps1 (F := Ideal)) W (Proc.devRef .tc main_v20) : S1x8192.Idx → EReal)
      = centreRow (W (Proc.devRef .tc main_v0_1)) := by
  dsimp only [hostOps1]
  after_results_simp
  rfl

/-- Read at (i, 0): row mean of i minus grand mean, from column 0 of the row pass's first output. -/
theorem v15_apply (W : Valuation τ sig (Elt Ideal)) (i : Fin 8192) :
    (StableHlo.after (hostOps1 (F := Ideal)) W (Proc.devRef .tc main_v15) : S8192x1.Idx → EReal) (ix2 i 0)
      = Ideal.div ((W (Proc.devRef .tc main_v0_0) : Arr) (ix2 i 0)) Cert.Dcor.cN
        - Ideal.div (∑ i' : Fin 8192, (W (Proc.devRef .tc main_v0_0) : Arr) (ix2 i' 0)) Cert.Dcor.cNN := by
  rw [v15_eq]; exact centreCol_apply _ i

/-- Read at (0, j): the row mean of j, from column 0 of the row pass's first output. -/
theorem v16_apply (W : Valuation τ sig (Elt Ideal)) (j : Fin 8192) :
    (StableHlo.after (hostOps1 (F := Ideal)) W (Proc.devRef .tc main_v16) : S1x8192.Idx → EReal) (ix2 0 j)
      = Ideal.div ((W (Proc.devRef .tc main_v0_0) : Arr) (ix2 j 0)) Cert.Dcor.cN := by
  rw [v16_eq]; exact centreRow_apply _ j

/-- Read at (i, 0): the same from the row pass's second output. -/
theorem v19_apply (W : Valuation τ sig (Elt Ideal)) (i : Fin 8192) :
    (StableHlo.after (hostOps1 (F := Ideal)) W (Proc.devRef .tc main_v19) : S8192x1.Idx → EReal) (ix2 i 0)
      = Ideal.div ((W (Proc.devRef .tc main_v0_1) : Arr) (ix2 i 0)) Cert.Dcor.cN
        - Ideal.div (∑ i' : Fin 8192, (W (Proc.devRef .tc main_v0_1) : Arr) (ix2 i' 0)) Cert.Dcor.cNN := by
  rw [v19_eq]; exact centreCol_apply _ i

/-- Read at (0, j): the same from the row pass's second output. -/
theorem v20_apply (W : Valuation τ sig (Elt Ideal)) (j : Fin 8192) :
    (StableHlo.after (hostOps1 (F := Ideal)) W (Proc.devRef .tc main_v20) : S1x8192.Idx → EReal) (ix2 0 j)
      = Ideal.div ((W (Proc.devRef .tc main_v0_1) : Arr) (ix2 j 0)) Cert.Dcor.cN := by
  rw [v20_eq]; exact centreRow_apply _ j

/-! ## What these operations leave unchanged -/

/-- A buffer none of these operations writes keeps its contents. -/
theorem mid_keeps (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

theorem mid_arg0 (W : Valuation τ sig (Elt Ideal)) :
    StableHlo.after (hostOps1 (F := Ideal)) W (Proc.devRef .tc main_arg0) = W (Proc.devRef .tc main_arg0) :=
  mid_keeps W main_arg0 (by decide)
theorem mid_arg1 (W : Valuation τ sig (Elt Ideal)) :
    StableHlo.after (hostOps1 (F := Ideal)) W (Proc.devRef .tc main_arg1) = W (Proc.devRef .tc main_arg1) :=
  mid_keeps W main_arg1 (by decide)
theorem mid_v0_0 (W : Valuation τ sig (Elt Ideal)) :
    StableHlo.after (hostOps1 (F := Ideal)) W (Proc.devRef .tc main_v0_0) = W (Proc.devRef .tc main_v0_0) :=
  mid_keeps W main_v0_0 (by decide)
theorem mid_v0_1 (W : Valuation τ sig (Elt Ideal)) :
    StableHlo.after (hostOps1 (F := Ideal)) W (Proc.devRef .tc main_v0_1) = W (Proc.devRef .tc main_v0_1) :=
  mid_keeps W main_v0_1 (by decide)

end Cert.KernelIdeal.HandValue

end
-- ==== Proof.HostTail.lean ====
/-
  The kernel program's last host operations, read on the extended reals.

  After the covariance pass the program holds three arrays of shape [1, 128] whose corner entries are the sums
  Σ A·B, Σ A·A and Σ B·B. The host takes each corner (a slice [0:1, 0:1] reshaped to a scalar), scales it by 2⁻²⁶ and
  forms −√ab / √(√aa · √bb): the specification's `tail` of the three corner entries. Stated over an arbitrary valuation
  of the program's buffers before these operations.
-/
import proofs.«133753_j71141838291708_1_alg».proof.Proof.Gen.KernelIdeal.Launch
import proofs.«133753_j71141838291708_1_alg».proof.Proof.DcorSpec
import Idealize.ShloMosaic.Lib.StableHlo.Run
import Idealize.ShloMosaic.Lib.Pipeline.Value
import Idealize.ShloMosaic.Lib.IdealHost
import Idealize.ShloMosaic.Lib.ValueIdx
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx Idealize.ShloMosaic.StableHlo

/-- The corner entry of a [1, 128] array: its slice [0:1, 0:1] reshaped to a scalar reads the entry (0, 0). -/
theorem corner_apply (x : S1x128.Idx → EReal) (u : S_.Idx) :
    shapeCast S_ (extractStridedSlice S1x1 ![0, 0] x slices_S1x128_S1x1_0_0) shapeCasts_S1x1_S_ u = x (ix2 0 0) := by
  rw [shapeCast_apply _ shapeCasts_S1x1_S_ u (ix2 0 0) (by
    have e1 : S1x1.numel = 1 := by decide
    have e0 : S_.numel = 1 := by decide
    have h1 := (S1x1.rowMajor (ix2 0 0)).isLt
    have h0 := (S_.rowMajor u).isLt
    omega)]
  exact extractStridedSlice_apply _ x slices_S1x128_S1x1_0_0 (ix2 0 0) (ix2 0 0)
    (fun a => by match a with | ⟨0, _⟩ => rfl | ⟨1, _⟩ => rfl)

/-- The last operations on three [1, 128] arrays: each corner entry times 2⁻²⁶, then −√ab / √(√aa · √bb). -/
theorem tail_term (a b c : S1x128.Idx → EReal) (u : S_.Idx) :
    Ideal.div
      (-(Ideal.sqrt (shapeCast S_ (extractStridedSlice S1x1 ![0, 0] a slices_S1x128_S1x1_0_0) shapeCasts_S1x1_S_ u * Cert.Dcor.cInvNN)))
      (Ideal.sqrt
        (Ideal.sqrt (shapeCast S_ (extractStridedSlice S1x1 ![0, 0] b slices_S1x128_S1x1_0_0) shapeCasts_S1x1_S_ u * Cert.Dcor.cInvNN)
          * Ideal.sqrt (shapeCast S_ (extractStridedSlice S1x1 ![0, 0] c slices_S1x128_S1x1_0_0) shapeCasts_S1x1_S_ u * Cert.Dcor.cInvNN)))
      = Cert.Dcor.tail (a (ix2 0 0)) (b (ix2 0 0)) (c (ix2 0 0)) := by
  rw [corner_apply, corner_apply, corner_apply]
  rfl

set_option maxHeartbeats 1000000 in
/-- After the covariance pass: the scalar result is the specification's `tail` of the three corner entries. -/
theorem tail_eq (W : Valuation τ sig (Elt Ideal)) :
    (StableHlo.after (hostOps2 (F := Ideal)) W (Proc.devRef .tc main_v37) : S_.Idx → EReal)
      = fun _ => Cert.Dcor.tail ((W (Proc.devRef .tc main_v21_0) : S1x128.Idx → EReal) (ix2 0 0))
          ((W (Proc.devRef .tc main_v21_1) : S1x128.Idx → EReal) (ix2 0 0))
          ((W (Proc.devRef .tc main_v21_2) : S1x128.Idx → EReal) (ix2 0 0)) := by
  dsimp only [hostOps2]
  after_results_simp
  funext u
  exact tail_term _ _ _ u

end Cert.KernelIdeal.HandValue

end
-- ==== Proof.KernelValue.lean ====
/-
  The kernel program's result on the extended reals is the specification's first arrangement.

  The chain of the program's stages, each read as a function of the two samples X and Y: the row-sum pass leaves in
  column 0 of its two outputs the row sums of the two distance matrices; the host operations between the passes turn
  them into the row-centring columns (row mean less grand mean) and the column-centring rows (row means); the
  covariance pass accumulates, over all pairs, the products of the centred distances in that arrangement, which are the
  three sums `sumK`; the last host operations form the specification's `tail` of the three.
-/
import proofs.«133753_j71141838291708_1_alg».proof.Proof.Run
import proofs.«133753_j71141838291708_1_alg».proof.Proof.RowArrays
import proofs.«133753_j71141838291708_1_alg».proof.Proof.CovArrays
import proofs.«133753_j71141838291708_1_alg».proof.Proof.RowValue
import proofs.«133753_j71141838291708_1_alg».proof.Proof.CovValue
import proofs.«133753_j71141838291708_1_alg».proof.Proof.HostMid
import proofs.«133753_j71141838291708_1_alg».proof.Proof.HostTail

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HandValue Cert.Dcor

section

variable (m : (ℓ : Loc nD τ sig) → Buf (Elt Ideal) ℓ) (ρ : Dev nD → PrngReg) (c : Dev nD)

/-! ## The samples reach every stage as launched -/

theorem Vc_arg0 : Vc m ρ c main_arg0 = m ((c.tc : Thread nD τ).loc main_arg0) :=
  (Wc_of m ρ c main_arg0 (by decide)).trans ((Wb_of m ρ c main_arg0 (by decide)).trans rfl)
theorem Vc_arg1 : Vc m ρ c main_arg1 = m ((c.tc : Thread nD τ).loc main_arg1) :=
  (Wc_of m ρ c main_arg1 (by decide)).trans ((Wb_of m ρ c main_arg1 (by decide)).trans rfl)

/-! ## After the row-sum pass: column 0 of each output holds the row sums -/

theorem rowSumsX (i : Fin 8192) :
    (Wb m ρ c (Proc.devRef .tc main_v0_0) : S8192x128.Idx → EReal) (ix2 i 0)
      = rowSum (ofArr (m ((c.tc : Thread nD τ).loc main_arg0))) i := by
  rw [Wb_v0_0]
  exact rowResultX (Va m ρ) c (rowBlk0_apply (Va m ρ) c) (rowBlk1_apply (Va m ρ) c) (rowFinal4 (Va m ρ) c) i 0

theorem rowSumsY (i : Fin 8192) :
    (Wb m ρ c (Proc.devRef .tc main_v0_1) : S8192x128.Idx → EReal) (ix2 i 0)
      = rowSum (ofArr (m ((c.tc : Thread nD τ).loc main_arg1))) i := by
  rw [Wb_v0_1]
  exact rowResultY (Va m ρ) c (rowBlk2_apply (Va m ρ) c) (rowBlk3_apply (Va m ρ) c) (rowFinal5 (Va m ρ) c) i 0

/-! ## After the host operations between the passes: the centring vectors -/

theorem centreColX (i : Fin 8192) :
    (Vc m ρ c main_v15 : S8192x1.Idx → EReal) (ix2 i (0 : Fin 1))
      = Ideal.div (rowSum (ofArr (Vc m ρ c main_arg0)) i) cN
        - Ideal.div (∑ i' : Fin 8192, rowSum (ofArr (Vc m ρ c main_arg0)) i') cNN := by
  rw [Vc_arg0]
  refine (v15_apply (Wb m ρ c) i).trans ?_
  simp only [rowSumsX m ρ c]

theorem centreRowX (j : Fin 8192) :
    (Vc m ρ c main_v16 : S1x8192.Idx → EReal) (ix2 (0 : Fin 1) j)
      = Ideal.div (rowSum (ofArr (Vc m ρ c main_arg0)) j) cN := by
  rw [Vc_arg0]
  refine (v16_apply (Wb m ρ c) j).trans ?_
  simp only [rowSumsX m ρ c]

theorem centreColY (i : Fin 8192) :
    (Vc m ρ c main_v19 : S8192x1.Idx → EReal) (ix2 i (0 : Fin 1))
      = Ideal.div (rowSum (ofArr (Vc m ρ c main_arg1)) i) cN
        - Ideal.div (∑ i' : Fin 8192, rowSum (ofArr (Vc m ρ c main_arg1)) i') cNN := by
  rw [Vc_arg1]
  refine (v19_apply (Wb m ρ c) i).trans ?_
  simp only [rowSumsY m ρ c]

theorem centreRowY (j : Fin 8192) :
    (Vc m ρ c main_v20 : S1x8192.Idx → EReal) (ix2 (0 : Fin 1) j)
      = Ideal.div (rowSum (ofArr (Vc m ρ c main_arg1)) j) cN := by
  rw [Vc_arg1]
  refine (v20_apply (Wb m ρ c) j).trans ?_
  simp only [rowSumsY m ρ c]

/-! ## After the covariance pass: the three sums -/

/-- The three result arrays after the covariance pass: the accumulators after the last point. -/
theorem covLast8 : ((covDat (Vc m ρ) c).arrAt 8 cfg1.N : S1x128.Idx → EReal)
    = ((covAcc (Vc m ρ) c 255 (lt_of_lt_of_eq (by norm_num : 255 < 256) (show (256 : ℕ) = cfg1.N from N_1.symm))).1 : S1x128.Idx → EReal) :=
  covFinal8_at (Vc m ρ) c 255 (lt_of_lt_of_eq (by norm_num : 255 < 256) (show (256 : ℕ) = cfg1.N from N_1.symm)) rfl
theorem covLast9 : ((covDat (Vc m ρ) c).arrAt 9 cfg1.N : S1x128.Idx → EReal)
    = ((covAcc (Vc m ρ) c 255 (lt_of_lt_of_eq (by norm_num : 255 < 256) (show (256 : ℕ) = cfg1.N from N_1.symm))).2.1 : S1x128.Idx → EReal) :=
  covFinal9_at (Vc m ρ) c 255 (lt_of_lt_of_eq (by norm_num : 255 < 256) (show (256 : ℕ) = cfg1.N from N_1.symm)) rfl
theorem covLast10 : ((covDat (Vc m ρ) c).arrAt 10 cfg1.N : S1x128.Idx → EReal)
    = ((covAcc (Vc m ρ) c 255 (lt_of_lt_of_eq (by norm_num : 255 < 256) (show (256 : ℕ) = cfg1.N from N_1.symm))).2.2 : S1x128.Idx → EReal) :=
  covFinal10_at (Vc m ρ) c 255 (lt_of_lt_of_eq (by norm_num : 255 < 256) (show (256 : ℕ) = cfg1.N from N_1.symm)) rfl

theorem sumAB :
    (Wd m ρ c (Proc.devRef .tc main_v21_0) : S1x128.Idx → EReal) (ix2 0 0)
      = sumK (ofArr (m ((c.tc : Thread nD τ).loc main_arg0))) (ofArr (m ((c.tc : Thread nD τ).loc main_arg1))) := by
  rw [Wd_v21_0]
  refine (covResultAB_sumK (Vc m ρ) c (covBlk0_apply (Vc m ρ) c) (covBlk1_apply (Vc m ρ) c) (covBlk2_apply (Vc m ρ) c)
    (covBlk3_apply (Vc m ρ) c) (covBlk4_apply (Vc m ρ) c) (covBlk5_apply (Vc m ρ) c) (covBlk6_apply (Vc m ρ) c)
    (covBlk7_apply (Vc m ρ) c) (covLast8 m ρ c) (centreColX m ρ c) (centreRowX m ρ c) (centreColY m ρ c)
    (centreRowY m ρ c) 0).trans ?_
  rw [Vc_arg0, Vc_arg1]

theorem sumAA :
    (Wd m ρ c (Proc.devRef .tc main_v21_1) : S1x128.Idx → EReal) (ix2 0 0)
      = sumK (ofArr (m ((c.tc : Thread nD τ).loc main_arg0))) (ofArr (m ((c.tc : Thread nD τ).loc main_arg0))) := by
  rw [Wd_v21_1]
  refine (covResultAA_sumK (Vc m ρ) c (covBlk0_apply (Vc m ρ) c) (covBlk1_apply (Vc m ρ) c) (covBlk4_apply (Vc m ρ) c)
    (covBlk5_apply (Vc m ρ) c) (covLast9 m ρ c) (centreColX m ρ c) (centreRowX m ρ c) 0).trans ?_
  rw [Vc_arg0]

theorem sumBB :
    (Wd m ρ c (Proc.devRef .tc main_v21_2) : S1x128.Idx → EReal) (ix2 0 0)
      = sumK (ofArr (m ((c.tc : Thread nD τ).loc main_arg1))) (ofArr (m ((c.tc : Thread nD τ).loc main_arg1))) := by
  rw [Wd_v21_2]
  refine (covResultBB_sumK (Vc m ρ) c (covBlk2_apply (Vc m ρ) c) (covBlk3_apply (Vc m ρ) c) (covBlk6_apply (Vc m ρ) c)
    (covBlk7_apply (Vc m ρ) c) (covLast10 m ρ c) (centreColY m ρ c) (centreRowY m ρ c) 0).trans ?_
  rw [Vc_arg1]

/-! ## The result -/

/-- The kernel program's result is the specification's first arrangement of the two samples as launched. -/
theorem kernelResult :
    (We (F := Ideal) m ρ c (Proc.devRef .tc main_v37) : S_.Idx → EReal)
      = fun _ => tail
          (sumK (ofArr (m ((c.tc : Thread nD τ).loc main_arg0))) (ofArr (m ((c.tc : Thread nD τ).loc main_arg1))))
          (sumK (ofArr (m ((c.tc : Thread nD τ).loc main_arg0))) (ofArr (m ((c.tc : Thread nD τ).loc main_arg0))))
          (sumK (ofArr (m ((c.tc : Thread nD τ).loc main_arg1))) (ofArr (m ((c.tc : Thread nD τ).loc main_arg1)))) := by
  refine (tail_eq (Wd m ρ c)).trans ?_
  rw [sumAB, sumAA, sumBB]

end

end Cert.KernelIdeal.Hand

end
-- ==== Proof.RefDist.lean ====
/-
  The reference program's distance matrix, entry by entry on the extended reals.

  For each of the two samples the program forms the squared norms of the rows, the Gram matrix as a product with the
  transpose, the squared distance by the Gram identity clamped at zero, and the square root taken only where the clamped
  square is positive. Read at the pair (i, j) these are the specification's `sqn`, `gram`, `sqd` and `dist`: the
  broadcasts read a row's norm at i or at j, the contraction runs over the 128 coordinates, the constants are the same
  words, and a select on a strict comparison is an `if`.
-/
import proofs.«133753_j71141838291708_1_alg».proof.Proof.Gen.ReferenceIdeal.Read
import proofs.«133753_j71141838291708_1_alg».proof.Proof.DcorSpec

noncomputable section

namespace Cert.ReferenceIdeal.RefDist

open Cert.ReferenceIdeal Cert.ReferenceIdeal.Gen Cert.ReferenceIdeal.Read Idealize.ShloMosaic Idealize.ShloMosaic.ValueIdx Cert.Dcor

/-- A sample as the program holds it: an array of shape [8192, 128] of extended reals. -/
abbrev Arr : Type := (⟨S8192x128, .f32⟩ : BufTy).Contents (Elt Ideal)

/-- A select on the strict comparison `a > b` is the `if` on `b < a`. -/
theorem select_ogt {α : Type} (a b : EReal) (A B : α) :
    Scalar.select (Ideal.cmp .ogt a b) A B = if b < a then A else B := by
  unfold Scalar.select Ideal.cmp
  by_cases h : b < a <;> simp [h]

/-! ## The first sample -/

/-- The squared norm of a row, read off the program's row sum of the elementwise square. -/
theorem sqn_eq (x0 : Arr) (i : Fin 8192) :
    val_main_v1 (F := Ideal) x0 (ix1 i) = sqn (ofArr x0) i := by
  have e : ∀ k : Fin 128, idx_main_v1 (ix1 i) k = ix2 i k := fun k =>
    funext fun a => Fin.ext (by match a with | ⟨0, _⟩ => rfl | ⟨1, _⟩ => rfl)
  rw [val_main_v1_apply, val_main_cst_apply]
  simp only [val_main_v0_apply, e, Ideal.ofBits_def, Ideal.mulf_def, Ideal.ofBits_zero_f32, zero_add]
  rfl

/-- The inner product of two rows, read off the program's product with the transpose. -/
theorem gram_eq (x0 : Arr) (i j : Fin 8192) :
    val_main_v3 (F := Ideal) x0 (ix2 i j) = gram (ofArr x0) i j := by
  have el : ∀ k : Fin 128, lidx_main_v3 (ix2 i j) k = ix2 i k := fun k =>
    funext fun a => Fin.ext (by match a with | ⟨0, _⟩ => rfl | ⟨1, _⟩ => rfl)
  have er : ∀ k : Fin 128, idx_main_v2 (ridx_main_v3 (ix2 i j) k) = ix2 j k := fun k =>
    funext fun a => Fin.ext (by match a with | ⟨0, _⟩ => rfl | ⟨1, _⟩ => rfl)
  rw [val_main_v3_apply]
  simp only [val_main_v2_apply, el, er]
  rfl

/-- The clamped squared distance by the Gram identity. -/
theorem sqd_eq (x0 : Arr) (i j : Fin 8192) :
    val_main_v13 (F := Ideal) x0 (ix2 i j) = sqd (ofArr x0) i j := by
  have e6 : idx_main_v4 (idx_main_v6 (ix2 i j)) = ix1 i :=
    funext fun a => Fin.ext (by match a with | ⟨0, _⟩ => rfl)
  have e7 : idx_main_v5 (idx_main_v7 (ix2 i j)) = ix1 j :=
    funext fun a => Fin.ext (by match a with | ⟨0, _⟩ => rfl)
  rw [val_main_v13_apply, val_main_v11_apply, val_main_v8_apply, val_main_v6_apply, val_main_v4_apply,
    val_main_v7_apply, val_main_v5_apply, val_main_v10_apply, val_main_v9_apply, val_main_cst_0_apply,
    val_main_v12_apply, val_main_cst_1_apply, e6, e7, sqn_eq, sqn_eq, gram_eq]
  simp only [Ideal.ofBits_def, Ideal.maximumf_def, Ideal.subf_def, Ideal.addf_def, Ideal.mulf_def]
  rfl

/-- The distance: the guarded square root of the clamped squared distance. -/
theorem dist_eq (x0 : Arr) (i j : Fin 8192) :
    val_main_v18 (F := Ideal) x0 (ix2 i j) = dist (ofArr x0) i j := by
  rw [val_main_v18_apply, val_main_v17_apply, val_main_v16_apply, val_main_v15_apply, val_main_v14_apply,
    val_main_cst_2_apply, val_main_call0_v1_apply, val_main_call0_v0_apply, val_main_cst_3_apply,
    val_main_call1_v1_apply, val_main_call1_v0_apply, val_main_cst_4_apply, sqd_eq]
  simp only [Ideal.ofBits_def, Ideal.cmpf_def, Ideal.hostUnary_sqrt_def, select_ogt]
  rfl

/-! ## The second sample: the same operations, on the second argument -/

/-- The squared norm of a row, read off the program's row sum of the elementwise square. -/
theorem sqn_eq_y (x0 : Arr) (i : Fin 8192) :
    val_main_v36 (F := Ideal) x0 (ix1 i) = sqn (ofArr x0) i := by
  have e : ∀ k : Fin 128, idx_main_v36 (ix1 i) k = ix2 i k := fun k =>
    funext fun a => Fin.ext (by match a with | ⟨0, _⟩ => rfl | ⟨1, _⟩ => rfl)
  rw [val_main_v36_apply, val_main_cst_11_apply]
  simp only [val_main_v35_apply, e, Ideal.ofBits_def, Ideal.mulf_def, Ideal.ofBits_zero_f32, zero_add]
  rfl

/-- The inner product of two rows, read off the program's product with the transpose. -/
theorem gram_eq_y (x0 : Arr) (i j : Fin 8192) :
    val_main_v38 (F := Ideal) x0 (ix2 i j) = gram (ofArr x0) i j := by
  have el : ∀ k : Fin 128, lidx_main_v38 (ix2 i j) k = ix2 i k := fun k =>
    funext fun a => Fin.ext (by match a with | ⟨0, _⟩ => rfl | ⟨1, _⟩ => rfl)
  have er : ∀ k : Fin 128, idx_main_v37 (ridx_main_v38 (ix2 i j) k) = ix2 j k := fun k =>
    funext fun a => Fin.ext (by match a with | ⟨0, _⟩ => rfl | ⟨1, _⟩ => rfl)
  rw [val_main_v38_apply]
  simp only [val_main_v37_apply, el, er]
  rfl

/-- The clamped squared distance by the Gram identity. -/
theorem sqd_eq_y (x0 : Arr) (i j : Fin 8192) :
    val_main_v48 (F := Ideal) x0 (ix2 i j) = sqd (ofArr x0) i j := by
  have e6 : idx_main_v39 (idx_main_v41 (ix2 i j)) = ix1 i :=
    funext fun a => Fin.ext (by match a with | ⟨0, _⟩ => rfl)
  have e7 : idx_main_v40 (idx_main_v42 (ix2 i j)) = ix1 j :=
    funext fun a => Fin.ext (by match a with | ⟨0, _⟩ => rfl)
  rw [val_main_v48_apply, val_main_v46_apply, val_main_v43_apply, val_main_v41_apply, val_main_v39_apply,
    val_main_v42_apply, val_main_v40_apply, val_main_v45_apply, val_main_v44_apply, val_main_cst_12_apply,
    val_main_v47_apply, val_main_cst_13_apply, e6, e7, sqn_eq_y, sqn_eq_y, gram_eq_y]
  simp only [Ideal.ofBits_def, Ideal.maximumf_def, Ideal.subf_def, Ideal.addf_def, Ideal.mulf_def]
  rfl

/-- The distance: the guarded square root of the clamped squared distance. -/
theorem dist_eq_y (x0 : Arr) (i j : Fin 8192) :
    val_main_v53 (F := Ideal) x0 (ix2 i j) = dist (ofArr x0) i j := by
  rw [val_main_v53_apply, val_main_v52_apply, val_main_v51_apply, val_main_v50_apply, val_main_v49_apply,
    val_main_cst_14_apply, val_main_call2_v1_apply, val_main_call2_v0_apply, val_main_cst_15_apply,
    val_main_call3_v1_apply, val_main_call3_v0_apply, val_main_cst_16_apply, sqd_eq_y]
  simp only [Ideal.ofBits_def, Ideal.cmpf_def, Ideal.hostUnary_sqrt_def, select_ogt]
  rfl

end Cert.ReferenceIdeal.RefDist

end
-- ==== Proof.RefCentre.lean ====
/-
  The reference program's double-centring of the distance matrix, entry by entry on the extended reals.

  The program sums the distance matrix down its columns, along its rows and over all entries (each float sum starts from
  the zero word, which is the real 0), divides by 8192, 8192 and 8192², and forms
  ((d − column mean of j) − row mean of i) + grand mean. Read at the pair (i, j) that is the specification's `cenR`.
-/
import proofs.«133753_j71141838291708_1_alg».proof.Proof.Gen.ReferenceIdeal.Read
import proofs.«133753_j71141838291708_1_alg».proof.Proof.DcorSpec
import proofs.«133753_j71141838291708_1_alg».proof.Proof.RefDist

noncomputable section

namespace Cert.ReferenceIdeal.RefCentre

open Cert.ReferenceIdeal Cert.ReferenceIdeal.Gen Cert.ReferenceIdeal.Read Idealize.ShloMosaic Idealize.ShloMosaic.ValueIdx Cert.Dcor

open Cert.ReferenceIdeal.RefDist

/-! ## The first sample -/

/-- The column sum of the distance matrix. -/
theorem colSum_eq (x0 : Arr) (j : Fin 8192) :
    val_main_v19 (F := Ideal) x0 (ix1 j) = colSum (ofArr x0) j := by
  have e : ∀ k : Fin 8192, idx_main_v19 (ix1 j) k = ix2 k j := fun k =>
    funext fun a => Fin.ext (by match a with | ⟨0, _⟩ => rfl | ⟨1, _⟩ => rfl)
  rw [val_main_v19_apply, val_main_cst_5_apply]
  simp only [e, dist_eq, Ideal.ofBits_def, Ideal.ofBits_zero_f32, zero_add]
  rfl

/-- The row sum of the distance matrix. -/
theorem rowSum_eq (x0 : Arr) (i : Fin 8192) :
    val_main_v25 (F := Ideal) x0 (ix1 i) = rowSum (ofArr x0) i := by
  have e : ∀ k : Fin 8192, idx_main_v25 (ix1 i) k = ix2 i k := fun k =>
    funext fun a => Fin.ext (by match a with | ⟨0, _⟩ => rfl | ⟨1, _⟩ => rfl)
  rw [val_main_v25_apply, val_main_cst_7_apply]
  simp only [e, dist_eq, Ideal.ofBits_def, Ideal.ofBits_zero_f32, zero_add]
  rfl

/-- The sum of all entries of the distance matrix, as the double sum over rows and columns. -/
theorem grand_eq (x0 : Arr) (u : S_.Idx) :
    val_main_v31 (F := Ideal) x0 u = grand (ofArr x0) := by
  rw [val_main_v31_apply, val_main_cst_9_apply, sum_idx2]
  simp only [dist_eq, Ideal.ofBits_def, Ideal.ofBits_zero_f32, zero_add]
  rfl

/-- The double-centred distance matrix, in the arrangement "minus column mean, minus row mean, plus grand mean". -/
theorem cenR_eq (x0 : Arr) (i j : Fin 8192) :
    val_main_v34 (F := Ideal) x0 (ix2 i j) = cenR (ofArr x0) i j := by
  have e23 : idx_main_v22 (idx_main_v23 (ix2 i j)) = ix1 j :=
    funext fun a => Fin.ext (by match a with | ⟨0, _⟩ => rfl)
  have e29 : idx_main_v28 (idx_main_v29 (ix2 i j)) = ix1 i :=
    funext fun a => Fin.ext (by match a with | ⟨0, _⟩ => rfl)
  rw [val_main_v34_apply, val_main_v30_apply, val_main_v24_apply, val_main_v23_apply, val_main_v22_apply,
    val_main_v21_apply, val_main_v20_apply, val_main_cst_6_apply, val_main_v29_apply, val_main_v28_apply,
    val_main_v27_apply, val_main_v26_apply, val_main_cst_8_apply, val_main_v33_apply, val_main_v32_apply,
    val_main_cst_10_apply, e23, e29, dist_eq, colSum_eq, rowSum_eq, grand_eq]
  simp only [Ideal.ofBits_def, Ideal.addf_def, Ideal.subf_def, Ideal.hostDivf_def]
  rfl

/-! ## The second sample: the same operations, on the second argument -/

/-- The column sum of the distance matrix. -/
theorem colSum_eq_y (x0 : Arr) (j : Fin 8192) :
    val_main_v54 (F := Ideal) x0 (ix1 j) = colSum (ofArr x0) j := by
  have e : ∀ k : Fin 8192, idx_main_v54 (ix1 j) k = ix2 k j := fun k =>
    funext fun a => Fin.ext (by match a with | ⟨0, _⟩ => rfl | ⟨1, _⟩ => rfl)
  rw [val_main_v54_apply, val_main_cst_17_apply]
  simp only [e, dist_eq_y, Ideal.ofBits_def, Ideal.ofBits_zero_f32, zero_add]
  rfl

/-- The row sum of the distance matrix. -/
theorem rowSum_eq_y (x0 : Arr) (i : Fin 8192) :
    val_main_v60 (F := Ideal) x0 (ix1 i) = rowSum (ofArr x0) i := by
  have e : ∀ k : Fin 8192, idx_main_v60 (ix1 i) k = ix2 i k := fun k =>
    funext fun a => Fin.ext (by match a with | ⟨0, _⟩ => rfl | ⟨1, _⟩ => rfl)
  rw [val_main_v60_apply, val_main_cst_19_apply]
  simp only [e, dist_eq_y, Ideal.ofBits_def, Ideal.ofBits_zero_f32, zero_add]
  rfl

/-- The sum of all entries of the distance matrix, as the double sum over rows and columns. -/
theorem grand_eq_y (x0 : Arr) (u : S_.Idx) :
    val_main_v66 (F := Ideal) x0 u = grand (ofArr x0) := by
  rw [val_main_v66_apply, val_main_cst_21_apply, sum_idx2]
  simp only [dist_eq_y, Ideal.ofBits_def, Ideal.ofBits_zero_f32, zero_add]
  rfl

/-- The double-centred distance matrix, in the arrangement "minus column mean, minus row mean, plus grand mean". -/
theorem cenR_eq_y (x0 : Arr) (i j : Fin 8192) :
    val_main_v69 (F := Ideal) x0 (ix2 i j) = cenR (ofArr x0) i j := by
  have e23 : idx_main_v57 (idx_main_v58 (ix2 i j)) = ix1 j :=
    funext fun a => Fin.ext (by match a with | ⟨0, _⟩ => rfl)
  have e29 : idx_main_v63 (idx_main_v64 (ix2 i j)) = ix1 i :=
    funext fun a => Fin.ext (by match a with | ⟨0, _⟩ => rfl)
  rw [val_main_v69_apply, val_main_v65_apply, val_main_v59_apply, val_main_v58_apply, val_main_v57_apply,
    val_main_v56_apply, val_main_v55_apply, val_main_cst_18_apply, val_main_v64_apply, val_main_v63_apply,
    val_main_v62_apply, val_main_v61_apply, val_main_cst_20_apply, val_main_v68_apply, val_main_v67_apply,
    val_main_cst_22_apply, e23, e29, dist_eq_y, colSum_eq_y, rowSum_eq_y, grand_eq_y]
  simp only [Ideal.ofBits_def, Ideal.addf_def, Ideal.subf_def, Ideal.hostDivf_def]
  rfl

end Cert.ReferenceIdeal.RefCentre

end
-- ==== Proof.RefValue.lean ====
/-
  The reference program's result on the extended reals is the specification's second arrangement.

  The three sums Σ A·B, Σ A·A, Σ B·B over all pairs are float sums over every index of an elementwise product of the
  centred matrices; as double sums over rows and columns they are `sumR`. Each is scaled by 2⁻²⁶ and the result is
  −√ab / √(√aa · √bb), the specification's `tail`.
-/
import proofs.«133753_j71141838291708_1_alg».proof.Proof.Gen.ReferenceIdeal.Read
import proofs.«133753_j71141838291708_1_alg».proof.Proof.DcorSpec
import proofs.«133753_j71141838291708_1_alg».proof.Proof.RefCentre

noncomputable section

namespace Cert.ReferenceIdeal.RefValue

open Cert.ReferenceIdeal Cert.ReferenceIdeal.Gen Cert.ReferenceIdeal.Read Idealize.ShloMosaic Idealize.ShloMosaic.ValueIdx Cert.Dcor

open Cert.ReferenceIdeal.RefDist Cert.ReferenceIdeal.RefCentre

/-- Σ A·B over all pairs. -/
theorem sum_ab (x0 x1 : Arr) (u : S_.Idx) :
    val_main_v71 (F := Ideal) x0 x1 u = sumR (ofArr x0) (ofArr x1) := by
  rw [val_main_v71_apply, val_main_cst_23_apply, sum_idx2]
  simp only [val_main_v70_apply, cenR_eq, cenR_eq_y, Ideal.ofBits_def, Ideal.mulf_def, Ideal.ofBits_zero_f32, zero_add]
  rfl

/-- Σ A·A over all pairs. -/
theorem sum_aa (x0 : Arr) (u : S_.Idx) :
    val_main_v74 (F := Ideal) x0 u = sumR (ofArr x0) (ofArr x0) := by
  rw [val_main_v74_apply, val_main_cst_25_apply, sum_idx2]
  simp only [val_main_v73_apply, cenR_eq, Ideal.ofBits_def, Ideal.mulf_def, Ideal.ofBits_zero_f32, zero_add]
  rfl

/-- Σ B·B over all pairs. -/
theorem sum_bb (x1 : Arr) (u : S_.Idx) :
    val_main_v77 (F := Ideal) x1 u = sumR (ofArr x1) (ofArr x1) := by
  rw [val_main_v77_apply, val_main_cst_27_apply, sum_idx2]
  simp only [val_main_v76_apply, cenR_eq_y, Ideal.ofBits_def, Ideal.mulf_def, Ideal.ofBits_zero_f32, zero_add]
  rfl

/-- The program's last stage, as a function of the two samples. -/
theorem value_eq (x0 x1 : Arr) (u : S_.Idx) :
    val_main_v85 (F := Ideal) x0 x1 u
      = tail (sumR (ofArr x0) (ofArr x1)) (sumR (ofArr x0) (ofArr x0)) (sumR (ofArr x1) (ofArr x1)) := by
  rw [val_main_v85_apply, val_main_v80_apply, val_main_v79_apply, val_main_v72_apply, val_main_cst_24_apply,
    val_main_v84_apply, val_main_v83_apply, val_main_v81_apply, val_main_v75_apply, val_main_cst_26_apply,
    val_main_v82_apply, val_main_v78_apply, val_main_cst_28_apply, sum_ab, sum_aa, sum_bb]
  simp only [Ideal.ofBits_def, Ideal.mulf_def, Ideal.hostDivf_def, Ideal.hostUnary_sqrt_def, Ideal.hostNegf_def, Ideal.negf_def]
  rfl

/-- The reference run's result is the specification's second arrangement of the two argument arrays. -/
theorem result_eq (m : (ℓ : Loc nD τ sig) → Buf (Elt Ideal) ℓ) (c : Dev nD) :
    Cert.ReferenceIdeal.Value.res_main_v85 (F := Ideal) m c
      = fun _ => tail
          (sumR (ofArr (m ((c.tc : Thread nD τ).loc main_arg0))) (ofArr (m ((c.tc : Thread nD τ).loc main_arg1))))
          (sumR (ofArr (m ((c.tc : Thread nD τ).loc main_arg0))) (ofArr (m ((c.tc : Thread nD τ).loc main_arg0))))
          (sumR (ofArr (m ((c.tc : Thread nD τ).loc main_arg1))) (ofArr (m ((c.tc : Thread nD τ).loc main_arg1)))) := by
  rw [val_main_v85_eq]
  funext u
  exact value_eq _ _ u

end Cert.ReferenceIdeal.RefValue

end
-- ==== Proof.DcorLaw.lean ====
/-
  The two arrangements of the double-centring agree on real matrices.

  With every entry a real number, the squared norms, the Gram entries, the clamped squared distances and the
  distances are real numbers. The distance matrix is symmetric at every input (the Gram entry by commutativity of
  the product, the sum of the two squared norms by commutativity of the sum), so a column sum is the row sum of the
  same index, and the sum of all entries is by definition the sum of the row sums. What remains is
  d − (rᵢ/N − g/N²) − rⱼ/N = ((d − rⱼ/N) − rᵢ/N) + g/N², which is arithmetic of real numbers; on the extended
  reals subtraction does not regroup at an infinity, which is why the entries are required to be real.
-/
import proofs.«133753_j71141838291708_1_alg».proof.Proof.DcorSpec

noncomputable section

namespace Cert.Dcor

open Idealize.ShloMosaic

/-! ### The constants as real numbers -/

theorem zero_eq : zero = ((0 : ℝ) : EReal) := by
  simp [zero, Ideal.ofBits, Ideal.ieee]

theorem one_eq : one = ((1 : ℝ) : EReal) := by
  simp [one, Ideal.ofBits, Ideal.ieee, -EReal.coe_mul]; norm_num

theorem two_eq : two = ((2 : ℝ) : EReal) := by
  simp [two, Ideal.ofBits, Ideal.ieee, -EReal.coe_mul]; norm_num

theorem cN_eq : cN = ((8192 : ℝ) : EReal) := by
  simp [cN, Ideal.ofBits, Ideal.ieee, -EReal.coe_mul]; norm_num

theorem cNN_eq : cNN = ((67108864 : ℝ) : EReal) := by
  simp [cNN, Ideal.ofBits, Ideal.ieee, -EReal.coe_mul]; norm_num

/-! ### Symmetry of the distance matrix (at every input) -/

theorem gram_comm (x : Mat) (i j : Fin 8192) : gram x i j = gram x j i := by
  unfold gram
  exact Finset.sum_congr rfl (fun k _ => mul_comm _ _)

theorem sqd_comm (x : Mat) (i j : Fin 8192) : sqd x i j = sqd x j i := by
  unfold sqd
  rw [gram_comm x i j, add_comm (sqn x i)]

theorem dist_comm (x : Mat) (i j : Fin 8192) : dist x i j = dist x j i := by
  unfold dist
  rw [sqd_comm x i j]

theorem colSum_eq_rowSum (x : Mat) (j : Fin 8192) : colSum x j = rowSum x j := by
  unfold colSum rowSum
  exact Finset.sum_congr rfl (fun i _ => dist_comm x i j)

theorem grand_eq (x : Mat) : grand x = ∑ i : Fin 8192, rowSum x i := by
  unfold grand rowSum
  rfl

/-! ### Real-valuedness -/

/-- A finite sum of real numbers is a real number. -/
theorem sum_real {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

theorem sqn_real {x : Mat} (hx : Finite x) (i : Fin 8192) : ∃ r : ℝ, sqn x i = (r : EReal) := by
  unfold sqn
  refine sum_real _ _ (fun k _ => ?_)
  obtain ⟨a, ha⟩ := hx i k
  exact ⟨a * a, by rw [ha, EReal.coe_mul]⟩

theorem gram_real {x : Mat} (hx : Finite x) (i j : Fin 8192) : ∃ r : ℝ, gram x i j = (r : EReal) := by
  unfold gram
  refine sum_real _ _ (fun k _ => ?_)
  obtain ⟨a, ha⟩ := hx i k
  obtain ⟨b, hb⟩ := hx j k
  exact ⟨a * b, by rw [ha, hb, EReal.coe_mul]⟩

theorem sqd_real {x : Mat} (hx : Finite x) (i j : Fin 8192) : ∃ r : ℝ, sqd x i j = (r : EReal) := by
  obtain ⟨a, ha⟩ := sqn_real hx i
  obtain ⟨b, hb⟩ := sqn_real hx j
  obtain ⟨g, hg⟩ := gram_real hx i j
  refine ⟨max (a + b - 2 * g) 0, ?_⟩
  unfold sqd
  rw [ha, hb, hg, two_eq, zero_eq, ← EReal.coe_mul, ← EReal.coe_add, ← EReal.coe_sub]
  exact (Monotone.map_max EReal.coe_strictMono.monotone).symm

theorem dist_real {x : Mat} (hx : Finite x) (i j : Fin 8192) : ∃ r : ℝ, dist x i j = (r : EReal) := by
  obtain ⟨s, hs⟩ := sqd_real hx i j
  unfold dist
  rw [hs, zero_eq]
  by_cases h : ((0 : ℝ) : EReal) < (s : EReal)
  · rw [if_pos h, if_pos h]
    have h0 : ¬ s < 0 := not_lt.mpr (le_of_lt (EReal.coe_lt_coe_iff.mp h))
    exact ⟨Real.sqrt s, by rw [Ideal.sqrt_coe, if_neg h0]⟩
  · rw [if_neg h]
    exact ⟨0, rfl⟩

theorem rowSum_real {x : Mat} (hx : Finite x) (i : Fin 8192) : ∃ r : ℝ, rowSum x i = (r : EReal) := by
  unfold rowSum
  exact sum_real _ _ (fun j _ => dist_real hx i j)

theorem sumRow_real {x : Mat} (hx : Finite x) : ∃ r : ℝ, ∑ i : Fin 8192, rowSum x i = (r : EReal) :=
  sum_real _ _ (fun i _ => rowSum_real hx i)

/-! ### The regrouping -/

theorem regroup (d ri rj g : ℝ) :
    (d : EReal) - (Ideal.div (ri : EReal) cN - Ideal.div (g : EReal) cNN) - Ideal.div (rj : EReal) cN
      = (d : EReal) - Ideal.div (rj : EReal) cN - Ideal.div (ri : EReal) cN + Ideal.div (g : EReal) cNN := by
  rw [cN_eq, cNN_eq]
  simp only [Ideal.div_coe (y := (8192 : ℝ)) (by norm_num), Ideal.div_coe (y := (67108864 : ℝ)) (by norm_num),
    ← EReal.coe_mul, ← EReal.coe_sub, ← EReal.coe_add]
  congr 1
  ring

theorem cenK_eq_cenR {x : Mat} (hx : Finite x) (i j : Fin 8192) : cenK x i j = cenR x i j := by
  obtain ⟨d, hd⟩ := dist_real hx i j
  obtain ⟨ri, hri⟩ := rowSum_real hx i
  obtain ⟨rj, hrj⟩ := rowSum_real hx j
  obtain ⟨g, hg⟩ := sumRow_real hx
  unfold cenK cenR
  rw [colSum_eq_rowSum, grand_eq, hd, hri, hrj, hg]
  exact regroup d ri rj g

theorem sumK_eq_sumR {x y : Mat} (hx : Finite x) (hy : Finite y) : sumK x y = sumR x y := by
  unfold sumK sumR
  exact Finset.sum_congr rfl (fun i _ => Finset.sum_congr rfl (fun j _ => by
    rw [cenK_eq_cenR hx, cenK_eq_cenR hy]))

end Cert.Dcor

end
-- ==== Proof.LibFinite.lean ====
/-
  Arrays of real numbers at the exact extended reals.

  At the ideal instance a float is an extended real, and the laws that move a factor across a sum, cancel a term or
  expand a square hold only where no infinity is involved. An input assumed finite is an array of real numbers; this
  file carries that property through a program: an extended real that IS a real number (`IsReal`), an array all of
  whose entries are (`RealValued`), and the closure of both under what the two kinds of program do —

  * the arithmetic: sums, differences, products, negation, maximum and minimum; a quotient by a nonzero real; the
    reciprocal square root of a positive real; finite sums;
  * every operation that only MOVES entries (its result at an index is an operand's entry at some index): reshapes,
    broadcasts, slices, transposes, gathers at any dimension numbers, concatenations, selects;
  * every operation that ADDS UP entries: a contraction into a real accumulator (`tpu.matmul`) or from zero (the host's
    `dot_general`), a kernel's add-reduction and the host's from a real initial value over any axes, and the host's
    accumulating scatter at any dimension numbers (each entry: the operand's plus finitely many updates);

  and the way in: an extended real whose absolute value is below +∞ is a real number, and an array `x` of which a
  precondition says `all (|x| < +∞)` — the comparison against the +∞ word and-reduced over every axis to one bit that
  is 1 — is real-valued (`realValued_of_all_abs_lt_inf`).
-/
import Idealize.ShloMosaic.PureOps.Ideal.Laws
import Idealize.ShloMosaic.Lib.ValueIdx
import Idealize.ShloMosaic.Lib.ReduceAll

noncomputable section

namespace Cert.LibFinite

open Idealize.ShloMosaic

/-! ## One extended real -/

/-- The extended real is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- An extended real that is neither infinity is a real number. -/
theorem isReal_of_ne {x : EReal} (ht : x ≠ ⊤) (hb : x ≠ ⊥) : IsReal x :=
  ⟨x.toReal, (EReal.coe_toReal ht hb).symm⟩

/-- The way in: an extended real whose absolute value `max x (−x)` is below +∞ is a real number. -/
theorem isReal_of_abs_lt_top {x : EReal} (h : max x (-x) < ⊤) : IsReal x := by
  refine isReal_of_ne (fun e => ?_) (fun e => ?_)
  · subst e; simp at h
  · subst e; simp at h

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A quotient by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real number is a real number. -/
theorem isReal_rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- The reciprocal square root of `max x floor` for a real `x` and a positive real floor is a real number (the
    degree normalization of a graph layer: `rsqrt (max deg 1e-12)`). -/
theorem isReal_rsqrt_max_floor {x : EReal} (hx : IsReal x) {fl : ℝ} (hfl : 0 < fl) :
    IsReal (Ideal.rsqrt (max x (fl : EReal))) := by
  obtain ⟨a, rfl⟩ := hx
  have e : max (a : EReal) (fl : EReal) = ((max a fl : ℝ) : EReal) := (EReal.coe_strictMono.monotone.map_max).symm
  rw [e]
  exact isReal_rsqrt_of_pos (lt_max_of_lt_right hfl)

/-! ## Arrays -/

/-- Every entry of the array is a real number. -/
def RealValued {ι : Type*} (v : ι → EReal) : Prop := ∀ i, IsReal (v i)

/-- Real witnesses for a real-valued array. -/
theorem RealValued.exists_real {ι : Type*} {v : ι → EReal} (h : RealValued v) : ∃ r : ι → ℝ, ∀ i, v i = (r i : EReal) :=
  ⟨fun i => (h i).choose, fun i => (h i).choose_spec⟩

/-- An operation that only moves entries keeps the array real-valued. -/
theorem RealValued.comp {ι κ : Type*} {v : ι → EReal} (h : RealValued v) (f : κ → ι) : RealValued fun j => v (f j) :=
  fun j => h (f j)

variable {s t : Shape} {φ : FTy}

/-! ### The arithmetic, entry by entry -/

theorem RealValued.addf {a b : FVec Ideal s φ} (ha : RealValued a) (hb : RealValued b) : RealValued (addf a b) :=
  fun i => (ha i).add (hb i)
theorem RealValued.subf {a b : FVec Ideal s φ} (ha : RealValued a) (hb : RealValued b) : RealValued (subf a b) :=
  fun i => (ha i).sub (hb i)
theorem RealValued.mulf {a b : FVec Ideal s φ} (ha : RealValued a) (hb : RealValued b) : RealValued (mulf a b) :=
  fun i => (ha i).mul (hb i)
theorem RealValued.negf {a : FVec Ideal s φ} (ha : RealValued a) : RealValued (negf a) :=
  fun i => (ha i).neg
theorem RealValued.maximumf {a b : FVec Ideal s φ} (ha : RealValued a) (hb : RealValued b) : RealValued (maximumf a b) :=
  fun i => (ha i).max (hb i)
theorem RealValued.minimumf {a b : FVec Ideal s φ} (ha : RealValued a) (hb : RealValued b) : RealValued (minimumf a b) :=
  fun i => (ha i).min (hb i)

/-- A splat of a word that denotes a real number. -/
theorem realValued_constant {w : BitVec φ.bits} (hw : IsReal (Ideal.ofBits φ w)) : RealValued (constant (F := Ideal) s φ w) :=
  fun _ => hw

/-- The host's quotient by an array every entry of which is one nonzero real number. -/
theorem RealValued.hostDivf_const {a b : FVec Ideal s φ} (ha : RealValued a) {y : ℝ} (hy : y ≠ 0) (hb : ∀ i, b i = (y : EReal)) :
    RealValued (Host.divf a b) :=
  fun i => by show IsReal (Ideal.div (a i) (b i)); rw [hb i]; exact (ha i).div_coe hy

/-- A select between two real-valued arrays. -/
theorem RealValued.select {c : IVec s 1} {a b : s.Idx → EReal} (ha : RealValued a) (hb : RealValued b) :
    RealValued (select c a b) := fun i => by
  show IsReal (Scalar.select (c i) (a i) (b i))
  unfold Scalar.select
  split
  · exact ha i
  · exact hb i

/-! ### Operations that move entries -/

theorem RealValued.shapeCast {x : s.Idx → EReal} (hx : RealValued x) (h : s.ShapeCasts t) : RealValued (shapeCast t x h) :=
  fun _ => hx _
theorem RealValued.broadcastTo {x : s.Idx → EReal} (hx : RealValued x) (h : s.Broadcasts t) : RealValued (broadcastTo t x h) :=
  fun _ => hx _
theorem RealValued.broadcastInDim {x : s.Idx → EReal} (hx : RealValued x) (dims : Fin s.rank → Fin t.rank)
    (h : s.BroadcastsInDim t dims) : RealValued (broadcastInDim t dims h x) :=
  fun _ => hx _
theorem RealValued.extractStridedSlice {x : s.Idx → EReal} (hx : RealValued x) (off : Fin s.rank → Nat) (h : s.Slices off t) :
    RealValued (extractStridedSlice t off x h) :=
  fun _ => hx _
theorem RealValued.transpose {x : s.Idx → EReal} (hx : RealValued x) (perm : List (Fin s.rank)) (h : s.Transposes perm t) :
    RealValued (transpose t perm x h) :=
  fun _ => hx _

/-- A gather at any dimension numbers: every result entry is an operand entry. -/
theorem RealValued.gather {si : Shape} {w : ℕ} {x : s.Idx → EReal} (hx : RealValued x) (d : GatherDims s si t) (idx : IVec si w) :
    RealValued (Host.gather d x idx) :=
  fun _ => hx _

/-- A concatenation of any number of arrays along any axis: every result entry is an entry of one of them. -/
theorem realValued_concatenate (a : Fin t.rank) (xs : List ((s : Shape) × (s.Idx → EReal)))
    (hall : ∀ p ∈ xs, RealValued p.2) (h : Shape.Concatenates (xs.map (·.1)) t a) :
    RealValued (concatenate t a xs h) := by
  intro j
  unfold concatenate
  dsimp only
  exact hall _ (List.getElem_mem _) _

/-! ### Operations that add entries up -/

/-- A contraction into a real-valued accumulator. -/
theorem RealValued.matmul {sl sr so : Shape} {φ₁ φ₂ : FTy} (d : DotDims sl sr so) (prec : Option ContractPrecision)
    {lhs : FVec Ideal sl φ₁} {rhs : FVec Ideal sr φ₂} {acc : FVec Ideal so .f32}
    (hl : RealValued lhs) (hr : RealValued rhs) (ha : RealValued acc) : RealValued (matmul d prec lhs rhs acc) :=
  fun j => by
    show IsReal (FloatOps.matmul d prec lhs rhs acc j)
    rw [Ideal.matmul_apply]
    exact (ha j).add (isReal_sum _ _ fun k _ => (hl _).mul (hr _))

/-- A contraction into the zero accumulator. -/
theorem RealValued.matmul_zero {sl sr so : Shape} {φ₁ φ₂ : FTy} (d : DotDims sl sr so) (prec : Option ContractPrecision)
    {lhs : FVec Ideal sl φ₁} {rhs : FVec Ideal sr φ₂} (hl : RealValued lhs) (hr : RealValued rhs) :
    RealValued (Idealize.ShloMosaic.matmul d prec lhs rhs (constant so .f32 0x00000000#32)) :=
  fun j => by
    show IsReal (FloatOps.matmul d prec lhs rhs (constant so .f32 0x00000000#32) j)
    rw [Ideal.matmul_constant_zero_apply]
    exact isReal_sum _ _ fun k _ => (hl _).mul (hr _)

/-- The host's contraction. -/
theorem RealValued.dotGeneral {sl sr so : Shape} {φ₁ φ₂ : FTy} (d : DotDims sl sr so) (prec : Option ContractPrecision)
    (sched : HostSchedule) {lhs : FVec Ideal sl φ₁} {rhs : FVec Ideal sr φ₂} (hl : RealValued lhs) (hr : RealValued rhs) :
    RealValued (fun j => FloatOps.dotGeneral d prec sched lhs rhs j) :=
  fun j => by
    show IsReal (FloatOps.dotGeneral d prec sched lhs rhs j)
    rw [Ideal.dotGeneral_apply]
    exact isReal_sum _ _ fun k _ => (hl _).mul (hr _)

/-- A kernel's add-reduction over any axes. -/
theorem RealValued.reduceAdd {axes : List (Fin s.rank)} (h : s.Reduces axes t) {x : s.Idx → EReal} (hx : RealValued x) :
    RealValued (Ideal.reduceAdd h x) :=
  fun _ => isReal_sum _ _ fun i _ => hx i

/-- The host's add-reduction over any axes from a real initial value. -/
theorem RealValued.hostReduceAdd {axes : List (Fin s.rank)} (h : s.ReducesTo axes t) {x : s.Idx → EReal} (hx : RealValued x)
    {init : EReal} (hi : IsReal init) : RealValued (Ideal.hostReduceAdd h x init) :=
  fun _ => hi.add (isReal_sum _ _ fun i _ => hx i)

/-- The host's accumulating scatter at any dimension numbers: each entry is the operand's plus finitely many updates. -/
theorem RealValued.hostScatterAdd {si su : Shape} (d : ScatterDims s si su) {w : ℕ} {x : s.Idx → EReal} (hx : RealValued x)
    (idx : IVec si w) {upd : su.Idx → EReal} (hu : RealValued upd) : RealValued (Ideal.hostScatterAdd d x idx upd) :=
  fun i => (hx i).add (isReal_sum _ _ fun j _ => hu j)

/-! ## The way in: a precondition's `all (|x| < +∞)` -/

/-- The word of +∞ denotes the top of the extended reals. -/
theorem ofBits_inf : Ideal.ofBits .f32 0x7F800000#32 = ⊤ := by
  simp [Ideal.ofBits, Ideal.ieee]

instance : Subsingleton (⟨0, ![]⟩ : Shape).Idx := ⟨fun _ _ => funext fun d => d.elim0⟩

/-- A precondition's conjunct "every entry of `x` is finite", as it is spelled: the absolute values compared below the
    +∞ word laid over the shape, the bits and-reduced over all axes to a single bit. If that bit is 1, every entry of
    `x` is a real number. -/
theorem realValued_of_all_abs_lt_inf {axes : List (Fin s.rank)} (x : FVec Ideal s .f32)
    (bc : (⟨0, ![]⟩ : Shape).BroadcastsInDim s ![]) (hred : s.ReducesTo axes ⟨0, ![]⟩)
    (h0 : 0 < (⟨0, ![]⟩ : Shape).numel) (init : IVec ⟨0, ![]⟩ 1) (j : (⟨0, ![]⟩ : Shape).Idx)
    (e : Host.reduce IntOp.andi
        (cmpf .olt (Host.absf x) (broadcastInDim s ![] bc (constant (F := Ideal) ⟨0, ![]⟩ .f32 0x7F800000#32)))
        init hred h0 j = 1#1) :
    RealValued x := by
  intro i
  have hi := Host.reduce_andi_all _ _ hred h0 j e i
  have hlt : max (x i) (-(x i)) < ⊤ := by
    have h2 : Ideal.cmp .olt (max (x i) (-(x i))) (Ideal.ofBits .f32 0x7F800000#32) = 1#1 := hi
    rw [ofBits_inf] at h2
    unfold Ideal.cmp at h2
    by_contra hn
    simp [hn] at h2
  exact isReal_of_abs_lt_top hlt

end Cert.LibFinite

end
-- ==== Proof.DcorFinite.lean ====
/-
  From the stated precondition to real-valued samples.

  The precondition says, of each of the two arrays, that the comparison "|x| below +∞" holds at every entry (the
  bits and-reduced over both axes to a single bit, the two bits and-ed, the result 1). An extended real whose
  absolute value is below +∞ is neither infinity, so it is a real number: both samples are matrices of reals.
-/
import proofs.«133753_j71141838291708_1_alg».proof.Defs
import proofs.«133753_j71141838291708_1_alg».proof.Proof.DcorSpec
import proofs.«133753_j71141838291708_1_alg».proof.Proof.LibFinite

noncomputable section

namespace Cert.Dcor

open Idealize.ShloMosaic Idealize.SL.Sem

/-- A real-valued array of shape [8192, 128], read as a sample, is a matrix of real numbers. -/
theorem finite_ofArr {a : (⟨2, ![8192, 128]⟩ : Shape).Idx → EReal} (h : Cert.LibFinite.RealValued a) :
    Finite (ofArr a) :=
  fun i k => h (ValueIdx.ix2 i k)

theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (ofArr (m ((c.tc : Thread Cert.KernelIdeal.nD Cert.KernelIdeal.τ).loc Cert.KernelIdeal.main_arg0)))
      ∧ Finite (ofArr (m ((c.tc : Thread Cert.KernelIdeal.nD Cert.KernelIdeal.τ).loc Cert.KernelIdeal.main_arg1))) := by
  have h1 := congrFun (h c) ValueIdx.ix0
  dsimp only [Cert.Pre_finite_inputs.fn] at h1
  obtain ⟨ha, hb⟩ := IntOp.andi_eq_one.1 h1
  exact ⟨finite_ofArr (Cert.LibFinite.realValued_of_all_abs_lt_inf _ _ _ _ _ _ ha),
    finite_ofArr (Cert.LibFinite.realValued_of_all_abs_lt_inf _ _ _ _ _ _ hb)⟩

end Cert.Dcor

end
-- ==== Proof.lean ====
/-
  Distance correlation of two samples x, y of 8192 points in dimension 128: the tiled two-pass kernel against the
  plain reference, on the extended reals.

  Both programs form the pairwise distance matrix of each sample from the Gram identity, centre it twice, and combine
  the three sums Σ A·B, Σ A·A, Σ B·B of the centred matrices. The kernel never forms a distance matrix: a first pass
  over a 16 × 16 grid of 512 × 512 tiles accumulates each matrix's row sums; host operations turn them into the
  row-centring column (row mean − grand mean) and the column-centring row (again the ROW mean); a second pass over the
  same grid recomputes each tile, centres it and accumulates the three sums. The reference centres with the column
  mean, the row mean and the grand mean of the matrix it has formed.

  The two results agree because the distance matrix is symmetric, so its column means are its row means; because
  the grand mean is the mean of the row sums; because a sum over 8192 × 8192 pairs is the sum over the tiles of the
  sums over each tile, in any order; and because, every entry being a real number under the precondition, the two
  groupings of the centring are equal. At an infinity none of the regroupings holds, which is where the
  precondition (every input finite) is used.

  The frames: each kernel program is run as its four segments (pass, host operations, pass, host operations); each
  pass hands one sample to two windows, which hold the sample's buffer at the two halves of the full share.
-/
import proofs.«133753_j71141838291708_1_alg».proof.Defs
import proofs.«133753_j71141838291708_1_alg».proof.Proof.Gen.Kernel
import proofs.«133753_j71141838291708_1_alg».proof.Proof.Gen.KernelIdeal
import proofs.«133753_j71141838291708_1_alg».proof.Proof.Gen.ReferenceIdeal
import proofs.«133753_j71141838291708_1_alg».proof.Proof.Gen.ReferenceIdeal.Run
import proofs.«133753_j71141838291708_1_alg».proof.Proof.Gen.ReferenceIdeal.Read
import proofs.«133753_j71141838291708_1_alg».proof.Proof.Gen.Pre_finite_inputs
import proofs.«133753_j71141838291708_1_alg».proof.Proof.Run
import proofs.«133753_j71141838291708_1_alg».proof.Proof.RunB
import proofs.«133753_j71141838291708_1_alg».proof.Proof.KernelValue
import proofs.«133753_j71141838291708_1_alg».proof.Proof.RefValue
import proofs.«133753_j71141838291708_1_alg».proof.Proof.DcorLaw
import proofs.«133753_j71141838291708_1_alg».proof.Proof.DcorFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the second arrangement of the specification: the kernel's at the first
    arrangement, which is the second under finiteness; the reference's at the second, of samples that agree. -/
theorem algebraic : Cert.algebraic_KernelIdeal_ReferenceIdeal := by
  intro m ρ m' ρ' hpre hagree
  refine ⟨fun c => fun _ => Cert.Dcor.tail
      (Cert.Dcor.sumR (Cert.Dcor.ofArr (m ((c.tc : Thread _ _).loc Cert.KernelIdeal.main_arg0))) (Cert.Dcor.ofArr (m ((c.tc : Thread _ _).loc Cert.KernelIdeal.main_arg1))))
      (Cert.Dcor.sumR (Cert.Dcor.ofArr (m ((c.tc : Thread _ _).loc Cert.KernelIdeal.main_arg0))) (Cert.Dcor.ofArr (m ((c.tc : Thread _ _).loc Cert.KernelIdeal.main_arg0))))
      (Cert.Dcor.sumR (Cert.Dcor.ofArr (m ((c.tc : Thread _ _).loc Cert.KernelIdeal.main_arg1))) (Cert.Dcor.ofArr (m ((c.tc : Thread _ _).loc Cert.KernelIdeal.main_arg1)))), ?_, ?_⟩
  · refine (θ_run Cert.KernelIdeal.defs _ _).mono (fun _ h c => ?_) (Cert.KernelIdeal.Hand.run_all (F := Ideal) m ρ)
    obtain ⟨hx, hy⟩ := Cert.Dcor.finite_of_pre m hpre c
    refine ⟨?_, (h c _ (Cert.KernelIdeal.Hand.mem_uc Cert.KernelIdeal.main_arg0 (by decide))).trans (Cert.KernelIdeal.Hand.We_main_arg0 m ρ c),
      (h c _ (Cert.KernelIdeal.Hand.mem_uc Cert.KernelIdeal.main_arg1 (by decide))).trans (Cert.KernelIdeal.Hand.We_main_arg1 m ρ c)⟩
    refine (h c _ (Cert.KernelIdeal.Hand.mem_uc Cert.KernelIdeal.main_v37 (by decide))).trans ?_
    rw [Cert.KernelIdeal.Hand.kernelResult m ρ c, Cert.Dcor.sumK_eq_sumR hx hy, Cert.Dcor.sumK_eq_sumR hx hx, Cert.Dcor.sumK_eq_sumR hy hy]
  · refine (θ_run Cert.ReferenceIdeal.defs _ _).mono (fun _ h c => ⟨?_, (h c).2⟩) (Cert.ReferenceIdeal.Value.run (F := Ideal) m' ρ')
    rw [(h c).1, Cert.ReferenceIdeal.RefValue.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
